-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256 : Shape := ⟨2, ![32, 256]⟩
abbrev S1024x256 : Shape := ⟨2, ![1024, 256]⟩
abbrev S1024 : Shape := ⟨1, ![1024]⟩
abbrev S1024x1024 : Shape := ⟨2, ![1024, 1024]⟩
abbrev S1000x1024 : Shape := ⟨2, ![1000, 1024]⟩
abbrev S1000 : Shape := ⟨1, ![1000]⟩
abbrev S64000x1024 : Shape := ⟨2, ![64000, 1024]⟩
abbrev S64000 : Shape := ⟨1, ![64000]⟩
abbrev S_ : Shape := ⟨0, ![]⟩

class Facts : Prop where
  bcast_S_S32x256 : S_.BroadcastsInDim S32x256 (![] : Fin 0 → Fin S32x256.rank)
  reducesTo_S32x256_S_d0_1 : S32x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1000x1024 : S_.BroadcastsInDim S1000x1024 (![] : Fin 0 → Fin S1000x1024.rank)
  reducesTo_S1000x1024_S_d0_1 : S1000x1024.ReducesTo [0, 1] S_
  bcast_S_S1000 : S_.BroadcastsInDim S1000 (![] : Fin 0 → Fin S1000.rank)
  reducesTo_S1000_S_d0 : S1000.ReducesTo [0] S_
  bcast_S_S64000x1024 : S_.BroadcastsInDim S64000x1024 (![] : Fin 0 → Fin S64000x1024.rank)
  reducesTo_S64000x1024_S_d0_1 : S64000x1024.ReducesTo [0, 1] S_
  bcast_S_S64000 : S_.BroadcastsInDim S64000 (![] : Fin 0 → Fin S64000.rank)
  reducesTo_S64000_S_d0 : S64000.ReducesTo [0] S_

variable [Facts]

def fn_part2 {F : FTy → Type} [FloatOps F] (main_arg7 : FVec F S64000x1024 .f32) (main_arg8 : FVec F S64000 .f32) (main_v33 : IVec S_ 1) : IVec S_ 1 :=
  let main_v34 : FVec F S64000x1024 .f32 := Host.absf main_arg7
  let main_cst_12 : FVec F S_ .f32 := constant S_ .f32 0x7F800000#32
  let main_v35 : FVec F S64000x1024 .f32 := broadcastInDim S64000x1024 ![] bcast_S_S64000x1024 main_cst_12
  let main_v36 : IVec S64000x1024 1 := cmpf .olt main_v34 main_v35
  let main_c_13 : IVec S_ 1 := constantI S_ 1 1#1
  let main_v37 : IVec S_ 1 := (fun x v => Host.reduce IntOp.andi x v reducesTo_S64000x1024_S_d0_1 h_S_) main_v36 main_c_13
  let main_v38 : IVec S_ 1 := andi main_v33 main_v37
  let main_v39 : FVec F S64000 .f32 := Host.absf main_arg8
  let main_cst_14 : FVec F S_ .f32 := constant S_ .f32 0x7F800000#32
  let main_v40 : FVec F S64000 .f32 := broadcastInDim S64000 ![] bcast_S_S64000 main_cst_14
  let main_v41 : IVec S64000 1 := cmpf .olt main_v39 main_v40
  let main_c_15 : IVec S_ 1 := constantI S_ 1 1#1
  let main_v42 : IVec S_ 1 := (fun x v => Host.reduce IntOp.andi x v reducesTo_S64000_S_d0 h_S_) main_v41 main_c_15
  let main_v43 : IVec S_ 1 := andi main_v38 main_v42
  main_v43

def fn_part1 {F : FTy → Type} [FloatOps F] (main_arg4 : FVec F S1024 .f32) (main_arg5 : FVec F S1000x1024 .f32) (main_arg6 : FVec F S1000 .f32) (main_arg7 : FVec F S64000x1024 .f32) (main_arg8 : FVec F S64000 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1000x1024 .f32 := Host.absf main_arg5
  let main_cst_8 : FVec F S_ .f32 := constant S_ .f32 0x7F800000#32
  let main_v25 : FVec F S1000x1024 .f32 := broadcastInDim S1000x1024 ![] bcast_S_S1000x1024 main_cst_8
  let main_v26 : IVec S1000x1024 1 := cmpf .olt main_v24 main_v25
  let main_c_9 : IVec S_ 1 := constantI S_ 1 1#1
  let main_v27 : IVec S_ 1 := (fun x v => Host.reduce IntOp.andi x v reducesTo_S1000x1024_S_d0_1 h_S_) main_v26 main_c_9
  let main_v28 : IVec S_ 1 := andi main_v23 main_v27
  let main_v29 : FVec F S1000 .f32 := Host.absf main_arg6
  let main_cst_10 : FVec F S_ .f32 := constant S_ .f32 0x7F800000#32
  let main_v30 : FVec F S1000 .f32 := broadcastInDim S1000 ![] bcast_S_S1000 main_cst_10
  let main_v31 : IVec S1000 1 := cmpf .olt main_v29 main_v30
  let main_c_11 : IVec S_ 1 := constantI S_ 1 1#1
  let main_v32 : IVec S_ 1 := (fun x v => Host.reduce IntOp.andi x v reducesTo_S1000_S_d0 h_S_) main_v31 main_c_11
  let main_v33 : IVec S_ 1 := andi main_v28 main_v32
  fn_part2 (F := F) main_arg7 main_arg8 main_v33

def fn {F : FTy → Type} [FloatOps F] (main_arg0 : FVec F S32x256 .f32) (main_arg1 : FVec F S1024x256 .f32) (main_arg2 : FVec F S1024 .f32) (main_arg3 : FVec F S1024x1024 .f32) (main_arg4 : FVec F S1024 .f32) (main_arg5 : FVec F S1000x1024 .f32) (main_arg6 : FVec F S1000 .f32) (main_arg7 : FVec F S64000x1024 .f32) (main_arg8 : FVec F S64000 .f32) : IVec S_ 1 :=
  let main_v0 : FVec F S32x256 .f32 := Host.absf main_arg0
  let main_cst : FVec F S_ .f32 := constant S_ .f32 0x7F800000#32
  let main_v1 : FVec F S32x256 .f32 := broadcastInDim S32x256 ![] bcast_S_S32x256 main_cst
  let main_v2 : IVec S32x256 1 := cmpf .olt main_v0 main_v1
  let main_c : IVec S_ 1 := constantI S_ 1 1#1
  let main_v3 : IVec S_ 1 := (fun x v => Host.reduce IntOp.andi x v reducesTo_S32x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S32x256 : Shape := ⟨2, ![32, 256]⟩
abbrev S1024x256 : Shape := ⟨2, ![1024, 256]⟩
abbrev S1024 : Shape := ⟨1, ![1024]⟩
abbrev S1024x1024 : Shape := ⟨2, ![1024, 1024]⟩
abbrev S1000x1024 : Shape := ⟨2, ![1000, 1024]⟩
abbrev S1000 : Shape := ⟨1, ![1000]⟩
abbrev S64000x1024 : Shape := ⟨2, ![64000, 1024]⟩
abbrev S64000 : Shape := ⟨1, ![64000]⟩
abbrev S1x1024 : Shape := ⟨2, ![1, 1024]⟩
abbrev S1x1000 : Shape := ⟨2, ![1, 1000]⟩
abbrev S1x64000 : Shape := ⟨2, ![1, 64000]⟩
abbrev S32x1000 : Shape := ⟨2, ![32, 1000]⟩
abbrev S32x64000 : Shape := ⟨2, ![32, 64000]⟩
abbrev S1280x1024 : Shape := ⟨2, ![1280, 1024]⟩
abbrev S2560x1024 : Shape := ⟨2, ![2560, 1024]⟩
abbrev S1x2560 : Shape := ⟨2, ![1, 2560]⟩
abbrev S32x2560 : Shape := ⟨2, ![32, 2560]⟩
abbrev S32x1024 : Shape := ⟨2, ![32, 1024]⟩
abbrev S32x1280 : Shape := ⟨2, ![32, 1280]⟩
abbrev S1x1280 : Shape := ⟨2, ![1, 1280]⟩
abbrev S32x64x1000 : Shape := ⟨3, ![32, 64, 1000]⟩

abbrev nBuf : Space → Nat
  | .hbm => 16
  | .vmem => 19
  | .smem => 0
  | _ => 0

abbrev bufTy : (tb : Table) → Fin (tcTables nBuf tb) → BufTy
  | .hbm, ⟨0, _⟩ => ⟨S32x256, .f32⟩
  | .hbm, ⟨1, _⟩ => ⟨S1024x256, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1000x1024, .f32⟩
  | .hbm, ⟨6, _⟩ => ⟨S1000, .f32⟩
  | .hbm, ⟨7, _⟩ => ⟨S64000x1024, .f32⟩
  | .hbm, ⟨8, _⟩ => ⟨S64000, .f32⟩
  | .hbm, ⟨9, _⟩ => ⟨S1x1024, .f32⟩
  | .hbm, ⟨10, _⟩ => ⟨S1x1024, .f32⟩
  | .hbm, ⟨11, _⟩ => ⟨S1x1000, .f32⟩
  | .hbm, ⟨12, _⟩ => ⟨S1x64000, .f32⟩
  | .hbm, ⟨13, _⟩ => ⟨S32x1000, .f32⟩
  | .hbm, ⟨14, _⟩ => ⟨S32x64000, .f32⟩
  | .hbm, ⟨15, _⟩ => ⟨S32x64x1000, .f32⟩
  | .local _ .vmem, ⟨0, _⟩ => ⟨S32x256, .f32⟩
  | .local _ .vmem, ⟨1, _⟩ => ⟨S1024x256, .f32⟩
  | .local _ .vmem, ⟨2, _⟩ => ⟨S1x1024, .f32⟩
  | .local _ .vmem, ⟨3, _⟩ => ⟨S1024x1024, .f32⟩
  | .local _ .vmem, ⟨4, _⟩ => ⟨S1x1024, .f32⟩
  | .local _ .vmem, ⟨5, _⟩ => ⟨S1000x1024, .f32⟩
  | .local _ .vmem, ⟨6, _⟩ => ⟨S1x1000, .f32⟩
  | .local _ .vmem, ⟨7, _⟩ => ⟨S1280x1024, .f32⟩
  | .local _ .vmem, ⟨8, _⟩ => ⟨S1280x1024, .f32⟩
  | .local _ .vmem, ⟨9, _⟩ => ⟨S1280x1024, .f32⟩
  | .local _ .vmem, ⟨10, _⟩ => ⟨S1280x1024, .f32⟩
  | .local _ .vmem, ⟨11, _⟩ => ⟨S2560x1024, .f32⟩
  | .local _ .vmem, ⟨12, _⟩ => ⟨S1x2560, .f32⟩
  | .local _ .vmem, ⟨13, _⟩ => ⟨S1x2560, .f32⟩
  | .local _ .vmem, ⟨14, _⟩ => ⟨S32x1000, .f32⟩
  | .local _ .vmem, ⟨15, _⟩ => ⟨S32x2560, .f32⟩
  | .local _ .vmem, ⟨16, _⟩ => ⟨S32x2560, .f32⟩
  | .local _ .vmem, ⟨17, _⟩ => ⟨S32x1024, .f32⟩
  | .local _ .vmem, ⟨18, _⟩ => ⟨S32x2560, .f32⟩
  | _, _ => ⟨S32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond4 (i : grid0.Coords) : BitVec 1 :=
  let arg0 : BitVec 32 := BitVec.ofNat 32 (i 0).val
  let c24_i32 : BitVec 32 := 24#32
  let v9 : BitVec 1 := Scalar.cmpi .slt arg0 c24_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg0 : BitVec 32 := BitVec.ofNat 32 (i 0).val
  let c24_i32_4 : BitVec 32 := 24#32
  let v12 : BitVec 1 := Scalar.cmpi .eq arg0 c24_i32_4
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c46_i32 : BitVec 32 := 46#32
  let v2 : BitVec 32 := Scalar.minsi v1 c46_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c47_i32 : BitVec 32 := 47#32
  let v2 : BitVec 32 := Scalar.minsi v1 c47_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c24_i32 : BitVec 32 := 24#32
  let c0_i32 : BitVec 32 := 0#32
  let c0_i32_0 : BitVec 32 := 0#32
  ![c24_i32.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1000x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1280x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1280x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2560x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x2560 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S32x1000 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S32x2560 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S1024_S1x1024 : S1024.ShapeCasts S1x1024
  shapeCasts_S1000_S1x1000 : S1000.ShapeCasts S1x1000
  shapeCasts_S64000_S1x64000 : S64000.ShapeCasts S1x64000
  inb_S32x256_S32x256_0_0 : ∀ a, (![0, 0] : Fin 2 → Nat) a + S32x256.size a ≤ S32x256.size a
  h_S32x256 : 0 < S32x256.numel
  inb_S1024x256_S1024x256_0_0 : ∀ a, (![0, 0] : Fin 2 → Nat) a + S1024x256.size a ≤ S1024x256.size a
  h_S1024x256 : 0 < S1024x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S32x1024 : S1x1024.Broadcasts S32x1024
  inb_S1024x1024_S1024x1024_0_0 : ∀ a, (![0, 0] : Fin 2 → Nat) a + S1024x1024.size a ≤ S1024x1024.size a
  h_S1024x1024 : 0 < S1024x1024.numel
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1000x1024_S1000x1024_0_0 : ∀ a, (![0, 0] : Fin 2 → Nat) a + S1000x1024.size a ≤ S1000x1024.size a
  h_S1000x1024 : 0 < S1000x1024.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S32x1000 : S1x1000.Broadcasts S32x1000
  inb_S32x1000_S32x1000_0_0 : ∀ a, (![0, 0] : Fin 2 → Nat) a + S32x1000.size a ≤ S32x1000.size a
  h_S32x1000 : 0 < S32x1000.numel
  inb_S2560x1024_S2560x1024_0_0 : ∀ a, (![0, 0] : Fin 2 → Nat) a + S2560x1024.size a ≤ S2560x1024.size a
  h_S2560x1024 : 0 < S2560x1024.numel
  inb_S32x2560_S32x2560_0_0 : ∀ a, (![0, 0] : Fin 2 → Nat) a + S32x2560.size a ≤ S32x2560.size a
  h_S32x2560 : 0 < S32x2560.numel
  shapeCasts_S32x2560_S32x2560 : S32x2560.ShapeCasts S32x2560
  inb_S1280x1024_S1280x1024_0_0 : ∀ a, (![0, 0] : Fin 2 → Nat) a + S1280x1024.size a ≤ S1280x1024.size a
  h_S1280x1024 : 0 < S1280x1024.numel
  inb_S1x2560_S1x1280_0_0 : ∀ a, (![0, 0] : Fin 2 → Nat) a + S1x1280.size a ≤ S1x2560.size a
  h_S1x1280 : 0 < S1x1280.numel
  shapeCasts_S1x1280_S1x1280 : S1x1280.ShapeCasts S1x1280
  broadcasts_S1x1280_S32x1280 : S1x1280.Broadcasts S32x1280
  inb_S32x2560_S32x1280_0_0 : ∀ a, (![0, 0] : Fin 2 → Nat) a + S32x1280.size a ≤ S32x2560.size a
  h_S32x1280 : 0 < S32x1280.numel
  inb_S1x2560_S1x1280_0_1280 : ∀ a, (![0, 1280] : Fin 2 → Nat) a + S1x1280.size a ≤ S1x2560.size a
  inb_S32x2560_S32x1280_0_1280 : ∀ a, (![0, 1280] : Fin 2 → Nat) a + S32x1280.size a ≤ S32x2560.size a
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  broadcasts_S1x2560_S32x2560 : S1x2560.Broadcasts S32x2560
  shapeCasts_S32x64000_S32x64x1000 : S32x64000.ShapeCasts S32x64x1000
  dot_S32x256_S1024x256_S32x1024_1_1_0_0_n_n_wf : DotDims.WF S32x256 S1024x256 S32x1024 [1] [1] [0] [0] [] []
  dot_S32x1024_S1024x1024_S32x1024_1_1_0_0_n_n_wf : DotDims.WF S32x1024 S1024x1024 S32x1024 [1] [1] [0] [0] [] []
  dot_S32x1024_S1000x1024_S32x1000_1_1_0_0_n_n_wf : DotDims.WF S32x1024 S1000x1024 S32x1000 [1] [1] [0] [0] [] []
  dot_S32x1024_S2560x1024_S32x2560_1_1_0_0_n_n_wf : DotDims.WF S32x1024 S2560x1024 S32x2560 [1] [1] [0] [0] [] []
  dot_S32x1024_S1280x1024_S32x1280_1_1_0_0_n_n_wf : DotDims.WF S32x1024 S1280x1024 S32x1280 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S32x256.size a
  hwx0_0 : ∀ i : grid0.Coords, EltTy.bits .f32 = 32 ∨ (Rect.block (s := S32x256) S32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1000x1024.size a ≤ S1000x1024.size a
  hwx0_5 : ∀ i : grid0.Coords, EltTy.bits .f32 = 32 ∨ (Rect.block (s := S1000x1024) S1000x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1000.size a ≤ S1x1000.size a
  hwx0_6 : ∀ i : grid0.Coords, EltTy.bits .f32 = 32 ∨ (Rect.block (s := S1x1000) S1x1000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1280x1024.size a ≤ S64000x1024.size a
  hwx0_7 : ∀ i : grid0.Coords, EltTy.bits .f32 = 32 ∨ (Rect.block (s := S64000x1024) S1280x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1280x1024.size a ≤ S64000x1024.size a
  hwx0_8 : ∀ i : grid0.Coords, EltTy.bits .f32 = 32 ∨ (Rect.block (s := S64000x1024) S1280x1024.size (cc0_transform_8 i) (hinb0_8 i)).WholeWords (EltTy.packing .f32)
  hstage0_9 : ∀ j, (stage0_9 j).IsWhole
  nbuf0_9 : grid0.bufCount reads0_9 false = 1
  hreads0_9 : ∀ i i' : grid0.Coords, (∀ a, reads0_9 a = true → i a = i' a) → cc0_transform_9 i = cc0_transform_9 i'
  hinb0_9 : ∀ (i : grid0.Coords) a, (cc0_transform_9 i a + 1) * S2560x1024.size a ≤ S64000x1024.size a
  hwx0_9 : ∀ i : grid0.Coords, EltTy.bits .f32 = 32 ∨ (Rect.block (s := S64000x1024) S2560x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x2560.size a ≤ S1x64000.size a
  hwx0_10 : ∀ i : grid0.Coords, EltTy.bits .f32 = 32 ∨ (Rect.block (s := S1x64000) S1x2560.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x1000.size a ≤ S32x1000.size a
  hwx0_11 : ∀ i : grid0.Coords, EltTy.bits .f32 = 32 ∨ (Rect.block (s := S32x1000) S32x1000.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S32x2560.size a ≤ S32x64000.size a
  hwx0_12 : ∀ i : grid0.Coords, EltTy.bits .f32 = 32 ∨ (Rect.block (s := S32x64000) S32x2560.size (cc0_transform_12 i) (hinb0_12 i)).WholeWords (EltTy.packing .f32)

variable [Facts₀]

def dot_S32x256_S1024x256_S32x1024_1_1_0_0_n_n : DotDims S32x256 S1024x256 S32x1024 where
  lhsContracting := [1]
  rhsContracting := [1]
  lhsNonContracting := [0]
  rhsNonContracting := [0]
  lhsBatch := []
  rhsBatch := []
  wf := dot_S32x256_S1024x256_S32x1024_1_1_0_0_n_n_wf
def dot_S32x1024_S1024x1024_S32x1024_1_1_0_0_n_n : DotDims S32x1024 S1024x1024 S32x1024 where
  lhsContracting := [1]
  rhsContracting := [1]
  lhsNonContracting := [0]
  rhsNonContracting := [0]
  lhsBatch := []
  rhsBatch := []
  wf := dot_S32x1024_S1024x1024_S32x1024_1_1_0_0_n_n_wf
def dot_S32x1024_S1000x1024_S32x1000_1_1_0_0_n_n : DotDims S32x1024 S1000x1024 S32x1000 where
  lhsContracting := [1]
  rhsContracting := [1]
  lhsNonContracting := [0]
  rhsNonContracting := [0]
  lhsBatch := []
  rhsBatch := []
  wf := dot_S32x1024_S1000x1024_S32x1000_1_1_0_0_n_n_wf
def dot_S32x1024_S2560x1024_S32x2560_1_1_0_0_n_n : DotDims S32x1024 S2560x1024 S32x2560 where
  lhsContracting := [1]
  rhsContracting := [1]
  lhsNonContracting := [0]
  rhsNonContracting := [0]
  lhsBatch := []
  rhsBatch := []
  wf := dot_S32x1024_S2560x1024_S32x2560_1_1_0_0_n_n_wf
def dot_S32x1024_S1280x1024_S32x1280_1_1_0_0_n_n : DotDims S32x1024 S1280x1024 S32x1280 where
  lhsContracting := [1]
  rhsContracting := [1]
  lhsNonContracting := [0]
  rhsNonContracting := [0]
  lhsBatch := []
  rhsBatch := []
  wf := dot_S32x1024_S1280x1024_S32x1280_1_1_0_0_n_n_wf

abbrev win0_0 : Pipeline.Window sig grid0 :=
  Pipeline.Window.ofSpec (Memref.whole main_arg0) S32x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1000x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1000.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1280x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1280x1024.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S2560x1024.size cc0_transform_9 reads0_9 false false 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x2560.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_0) S32x1000.size cc0_transform_11 reads0_11 true true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4_1) S32x2560.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | 12 => fun i => !(k0_cond4 i == 1#1) && !(k0_cond5 i == 1#1) | ⟨_ + 13, h⟩ => absurd h (Nat.not_lt.2 (Nat.le_add_left _ _))

class Facts : Prop extends Facts₀ where

variable [Facts]
-- ==== ReferenceIdeal.lean ====
abbrev S32x256 : Shape := ⟨2, ![32, 256]⟩
abbrev S1024x256 : Shape := ⟨2, ![1024, 256]⟩
abbrev S1024 : Shape := ⟨1, ![1024]⟩
abbrev S1024x1024 : Shape := ⟨2, ![1024, 1024]⟩
abbrev S1000x1024 : Shape := ⟨2, ![1000, 1024]⟩
abbrev S1000 : Shape := ⟨1, ![1000]⟩
abbrev S64000x1024 : Shape := ⟨2, ![64000, 1024]⟩
abbrev S64000 : Shape := ⟨1, ![64000]⟩
abbrev S256x1024 : Shape := ⟨2, ![256, 1024]⟩
abbrev S32x1024 : Shape := ⟨2, ![32, 1024]⟩
abbrev S1x1024 : Shape := ⟨2, ![1, 1024]⟩
abbrev S_ : Shape := ⟨0, ![]⟩
abbrev S1024x1000 : Shape := ⟨2, ![1024, 1000]⟩
abbrev S32x1000 : Shape := ⟨2, ![32, 1000]⟩
abbrev S1x1000 : Shape := ⟨2, ![1, 1000]⟩
abbrev S1024x64000 : Shape := ⟨2, ![1024, 64000]⟩
abbrev S32x64000 : Shape := ⟨2, ![32, 64000]⟩
abbrev S1x64000 : Shape := ⟨2, ![1, 64000]⟩
abbrev S32x64x1000 : Shape := ⟨3, ![32, 64, 1000]⟩

abbrev nBuf : Space → Nat
  | .hbm => 36
  | .vmem => 0
  | .smem => 0
  | _ => 0

abbrev bufTy : (tb : Table) → Fin (tcTables nBuf tb) → BufTy
  | .hbm, ⟨0, _⟩ => ⟨S32x256, .f32⟩
  | .hbm, ⟨1, _⟩ => ⟨S1024x256, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1000x1024, .f32⟩
  | .hbm, ⟨6, _⟩ => ⟨S1000, .f32⟩
  | .hbm, ⟨7, _⟩ => ⟨S64000x1024, .f32⟩
  | .hbm, ⟨8, _⟩ => ⟨S64000, .f32⟩
  | .hbm, ⟨9, _⟩ => ⟨S256x1024, .f32⟩
  | .hbm, ⟨10, _⟩ => ⟨S32x1024, .f32⟩
  | .hbm, ⟨11, _⟩ => ⟨S1x1024, .f32⟩
  | .hbm, ⟨12, _⟩ => ⟨S32x1024, .f32⟩
  | .hbm, ⟨13, _⟩ => ⟨S32x1024, .f32⟩
  | .hbm, ⟨14, _⟩ => ⟨S_, .f32⟩
  | .hbm, ⟨15, _⟩ => ⟨S32x1024, .f32⟩
  | .hbm, ⟨16, _⟩ => ⟨S32x1024, .f32⟩
  | .hbm, ⟨17, _⟩ => ⟨S1024x1024, .f32⟩
  | .hbm, ⟨18, _⟩ => ⟨S32x1024, .f32⟩
  | .hbm, ⟨19, _⟩ => ⟨S1x1024, .f32⟩
  | .hbm, ⟨20, _⟩ => ⟨S32x1024, .f32⟩
  | .hbm, ⟨21, _⟩ => ⟨S32x1024, .f32⟩
  | .hbm, ⟨22, _⟩ => ⟨S_, .f32⟩
  | .hbm, ⟨23, _⟩ => ⟨S32x1024, .f32⟩
  | .hbm, ⟨24, _⟩ => ⟨S32x1024, .f32⟩
  | .hbm, ⟨25, _⟩ => ⟨S1024x1000, .f32⟩
  | .hbm, ⟨26, _⟩ => ⟨S32x1000, .f32⟩
  | .hbm, ⟨27, _⟩ => ⟨S1x1000, .f32⟩
  | .hbm, ⟨28, _⟩ => ⟨S32x1000, .f32⟩
  | .hbm, ⟨29, _⟩ => ⟨S32x1000, .f32⟩
  | .hbm, ⟨30, _⟩ => ⟨S1024x64000, .f32⟩
  | .hbm, ⟨31, _⟩ => ⟨S32x64000, .f32⟩
  | .hbm, ⟨32, _⟩ => ⟨S1x64000, .f32⟩
  | .hbm, ⟨33, _⟩ => ⟨S32x64000, .f32⟩
  | .hbm, ⟨34, _⟩ => ⟨S32x64000, .f32⟩
  | .hbm, ⟨35, _⟩ => ⟨S32x64x1000, .f32⟩
  | _, _ => ⟨S32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  transposes_S1024x256_S256x1024_1_0 : S1024x256.Transposes [1, 0] S256x1024
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S_S32x1024 : S_.BroadcastsInDim S32x1024 (![] : Fin 0 → Fin S32x1024.rank)
  transposes_S1024x1024_S1024x1024_1_0 : S1024x1024.Transposes [1, 0] S1024x1024
  transposes_S1000x1024_S1024x1000_1_0 : S1000x1024.Transposes [1, 0] S1024x1000
  bcast_S1000_S1x1000_1 : S1000.BroadcastsInDim S1x1000 (![1] : Fin 1 → Fin S1x1000.rank)
  bcast_S1x1000_S32x1000_0_1 : S1x1000.BroadcastsInDim S32x1000 (![0, 1] : Fin 2 → Fin S32x1000.rank)
  transposes_S64000x1024_S1024x64000_1_0 : S64000x1024.Transposes [1, 0] S1024x64000
  bcast_S64000_S1x64000_1 : S64000.BroadcastsInDim S1x64000 (![1] : Fin 1 → Fin S1x64000.rank)
  bcast_S1x64000_S32x64000_0_1 : S1x64000.BroadcastsInDim S32x64000 (![0, 1] : Fin 2 → Fin S32x64000.rank)
  shapeCasts_S32x64000_S32x64x1000 : S32x64000.ShapeCasts S32x64x1000
  dot_S32x256_S256x1024_S32x1024_1_0_0_1_n_n_wf : DotDims.WF S32x256 S256x1024 S32x1024 [1] [0] [0] [1] [] []
  dot_S32x1024_S1024x1024_S32x1024_1_0_0_1_n_n_wf : DotDims.WF S32x1024 S1024x1024 S32x1024 [1] [0] [0] [1] [] []
  dot_S32x1024_S1024x1000_S32x1000_1_0_0_1_n_n_wf : DotDims.WF S32x1024 S1024x1000 S32x1000 [1] [0] [0] [1] [] []
  dot_S32x1024_S1024x64000_S32x64000_1_0_0_1_n_n_wf : DotDims.WF S32x1024 S1024x64000 S32x64000 [1] [0] [0] [1] [] []

variable [Facts₀]

def dot_S32x256_S256x1024_S32x1024_1_0_0_1_n_n : DotDims S32x256 S256x1024 S32x1024 where
  lhsContracting := [1]
  rhsContracting := [0]
  lhsNonContracting := [0]
  rhsNonContracting := [1]
  lhsBatch := []
  rhsBatch := []
  wf := dot_S32x256_S256x1024_S32x1024_1_0_0_1_n_n_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S32x1024_S1024x1000_S32x1000_1_0_0_1_n_n : DotDims S32x1024 S1024x1000 S32x1000 where
  lhsContracting := [1]
  rhsContracting := [0]
  lhsNonContracting := [0]
  rhsNonContracting := [1]
  lhsBatch := []
  rhsBatch := []
  wf := dot_S32x1024_S1024x1000_S32x1000_1_0_0_1_n_n_wf
def dot_S32x1024_S1024x64000_S32x64000_1_0_0_1_n_n : DotDims S32x1024 S1024x64000 S32x64000 where
  lhsContracting := [1]
  rhsContracting := [0]
  lhsNonContracting := [0]
  rhsNonContracting := [1]
  lhsBatch := []
  rhsBatch := []
  wf := dot_S32x1024_S1024x64000_S32x64000_1_0_0_1_n_n_wf

class Facts : Prop extends Facts₀ where

variable [Facts]
-- ==== Proof.Kernel.PointDefs.lean ====
/-
  What every grid point of the MLP kernel shares: the arrays as the region finds them (the four bias vectors
  re-laid as rows by the host before it), each window's block at a point, the five branch conditions of the body in
  closed form over the 25 points (the trunk at point 0, the cache head at point 1, the last block's product at
  point 2, the streamed blocks at points 0..23, the copy of the kept product at point 24), where the two output
  windows are idle, and the staging and scratch memrefs the body is called with.
-/
import proofs.«151329_g66365834658321_cont_9to1_m_1147_41_alg».proof.Proof.Gen.Kernel.Launch
import proofs.«151329_g66365834658321_cont_9to1_m_1147_41_alg».proof.Proof.Gen.Kernel.Skeleton
import proofs.«151329_g66365834658321_cont_9to1_m_1147_41_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffer contents after the host operations before the region (the biases re-laid as rows). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the one host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not. -/
theorem before_in8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not. -/
theorem before_in9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, fetched there or not. -/
theorem before_in10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, in closed form over the grid -/

/-- The trunk runs where the grid coordinate is 0. -/
abbrev condTrunk (i : grid0.Coords) : Prop := (Scalar.cmpi .ne (Scalar.extui (Scalar.cmpi .eq (BitVec.ofNat 32 (i 0).val) 0#32)) 0#32) = 1#1
theorem hcondTrunk : ∀ t : Fin cfg0.N, condTrunk (grid0.coords t) ↔ t.val = 0 :=
  (by decide +kernel : ∀ t : Fin grid0.N, condTrunk (grid0.coords t) ↔ t.val = 0)
/-- The cache head runs where it is 1. -/
abbrev condCache (i : grid0.Coords) : Prop := k0_cond2 i = 1#1
theorem hcondCache : ∀ t : Fin cfg0.N, condCache (grid0.coords t) ↔ t.val = 1 :=
  (by decide +kernel : ∀ t : Fin grid0.N, condCache (grid0.coords t) ↔ t.val = 1)
/-- The last block's product is taken where it is 2. -/
abbrev condTail (i : grid0.Coords) : Prop := (Scalar.cmpi .ne (Scalar.extui (Scalar.cmpi .eq (BitVec.ofNat 32 (i 0).val) 2#32)) 0#32) = 1#1
theorem hcondTail : ∀ t : Fin cfg0.N, condTail (grid0.coords t) ↔ t.val = 2 :=
  (by decide +kernel : ∀ t : Fin grid0.N, condTail (grid0.coords t) ↔ t.val = 2)
/-- A streamed block is multiplied where it is below 24. -/
abbrev condStream (i : grid0.Coords) : Prop := k0_cond4 i = 1#1
theorem hcondStream : ∀ t : Fin cfg0.N, condStream (grid0.coords t) ↔ t.val < 24 :=
  (by decide +kernel : ∀ t : Fin grid0.N, condStream (grid0.coords t) ↔ t.val < 24)
/-- The kept product is copied out where it is 24. -/
abbrev condLast (i : grid0.Coords) : Prop := k0_cond5 i = 1#1
theorem hcondLast : ∀ t : Fin cfg0.N, condLast (grid0.coords t) ↔ t.val = 24 :=
  (by decide +kernel : ∀ t : Fin grid0.N, condLast (grid0.coords t) ↔ t.val = 24)

/-! ## Where the output windows are idle -/

/-- The cache window is stored at point 1 only. -/
theorem idle11 : ∀ t : Fin cfg0.N, cfg0.idle 11 (grid0.coords t) = !decide (t.val = 1) := by decide +kernel
/-- It is written back at the last point only. -/
theorem flush11 : ∀ t : Fin cfg0.N, (cfg0.win 11).flush t = decide (t.val = 24) := by decide +kernel
/-- The streamed output window is stored at every point, -/
theorem live12 : ∀ t : Fin cfg0.N, cfg0.idle 12 (grid0.coords t) = false := by decide +kernel
/-- and written back at every point. -/
theorem flush12 : ∀ t : Fin cfg0.N, (cfg0.win 12).flush t = true := by decide +kernel

/-! ## The memrefs the body is called with -/

abbrev ms0 (t : Fin cfg0.N) : Memref sig .tc .vmem S32x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1000x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1000 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1280x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1280x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S2560x1024 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x2560 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S32x1000 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S32x2560 .f32 := win0_12.stage (cfg0.slots t 12)
abbrev hs12 (t : Fin cfg0.N) : (ms12 t).IsWhole := hstage0_12 ((cfg0.slots t 12).cast nbuf0_12)
/-- The scratch that keeps the trunk's activations, and the one that keeps the last block's product. -/
abbrev scH : Memref sig .tc .vmem S32x1024 .f32 := Memref.whole cc0_scratch0
abbrev scE : Memref sig .tc .vmem S32x2560 .f32 := Memref.whole cc0_scratch1

/-- The region's invariant before the first point: both scratch buffers at some contents, the generator register at
    some state. -/
theorem PhiA0_eq (c : Dev nD) :
    (Pipeline.ΦA spec0 c : sProp 𝕄)
      = iprop(iprop((∃ d, owns (c : Thread nD τ) scH fullShare d) ∗ (∃ d, owns (c : Thread nD τ) scE fullShare d)) ∗ (∃ r, prngReg c r)) := by
  unfold Pipeline.ΦA; rw [scopedRest0_eq]; simp only [scH, scE, owns_whole]; try rfl

end Cert.Kernel.Mlp

end
-- ==== Proof.Kernel.PointStream.lean ====
/-
  The body of the MLP kernel at a middle grid point: only the point's streamed block is multiplied.
-/
import proofs.«151329_g66365834658321_cont_9to1_m_1147_41_alg».proof.Proof.Kernel.PointDefs

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a middle grid point: only the point's streamed block is multiplied. On whole staging memrefs — the inputs' at their contents, a buffer the point
    does not touch at contents handed back as they were, a buffer it stores into at anything — the body runs to the
    continuation with the pieces its stores wrote (last first) in each buffer it stored into; the pieces are found by
    running the body. -/
noncomputable def runStream (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : ¬condTail i) (hc4 : condStream i) (hc5 : ¬condLast i)
    (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) :
    { L13 : List (View.Piece (Elt F) S32x2560 .f32) //
      ∀ (xi12 : Vec F S32x1000 .f32) (xi15 : Vec F S32x2560 .f32) (E : Set ℕ) (K : PUnit → sProp 𝕄),
        iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare xi12
            ∗ (∃ d, owns (c : Thread nD τ) arg13 fullShare d)
            ∗ owns (c : Thread nD τ) arg14 fullShare xs14
            ∗ owns (c : Thread nD τ) arg15 fullShare xi15
            ∗ (iprop(owns (c : Thread nD τ) arg1 fullShare x1
              ∗ owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ owns (c : Thread nD τ) arg11 fullShare x11
              ∗ owns (c : Thread nD τ) arg12 fullShare xi12
              ∗ (∃ f, arg13.view.loc (c : Thread nD τ) ↦[arg13.view.set]{fullShare} arg13.view.writes (Elt F) f L13)
              ∗ owns (c : Thread nD τ) arg14 fullShare xs14
              ∗ owns (c : Thread nD τ) arg15 fullShare xi15) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun xi12 xi15 E K => ?run⟩
  case run =>
    simp only [cc0__body_eq_skeleton]; unfold cc0__body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, Hcont⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg14.eq_unread hf14; obtain rfl := harg15.eq_unread hf15
    sl_exec (disch := first | exact hc1 | exact hc2 | exact hc3 | exact hc4 | exact hc5)
    sl_step
    iapply Hcont
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; iexact H13
    isplitl [H14]
    · iexists _; isplitr; · ipureintro; exact harg14.read_unread _
      iexact H14
    iexists _; isplitr; · ipureintro; exact harg15.read_unread _
    iexact H15

end Cert.Kernel.Mlp

end
-- ==== Proof.Kernel.PointLast.lean ====
/-
  The body of the MLP kernel at the last grid point: the kept product plus the last block's bias is stored.
-/
import proofs.«151329_g66365834658321_cont_9to1_m_1147_41_alg».proof.Proof.Kernel.PointStream

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the last grid point: the kept product plus the last block's bias is stored. On whole staging memrefs — the inputs' at their contents, a buffer the point
    does not touch at contents handed back as they were, a buffer it stores into at anything — the body runs to the
    continuation with the pieces its stores wrote (last first) in each buffer it stored into; the pieces are found by
    running the body. -/
noncomputable def runLast (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : ¬condTail i) (hc4 : ¬condStream i) (hc5 : condLast i)
    (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs15 : Vec F S32x2560 .f32) :
    { L13 : List (View.Piece (Elt F) S32x2560 .f32) //
      ∀ (xi12 : Vec F S32x1000 .f32) (xi14 : Vec F S32x1024 .f32) (E : Set ℕ) (K : PUnit → sProp 𝕄),
        iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare xi12
            ∗ (∃ d, owns (c : Thread nD τ) arg13 fullShare d)
            ∗ owns (c : Thread nD τ) arg14 fullShare xi14
            ∗ owns (c : Thread nD τ) arg15 fullShare xs15
            ∗ (iprop(owns (c : Thread nD τ) arg1 fullShare x1
              ∗ owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ owns (c : Thread nD τ) arg11 fullShare x11
              ∗ owns (c : Thread nD τ) arg12 fullShare xi12
              ∗ (∃ f, arg13.view.loc (c : Thread nD τ) ↦[arg13.view.set]{fullShare} arg13.view.writes (Elt F) f L13)
              ∗ owns (c : Thread nD τ) arg14 fullShare xi14
              ∗ owns (c : Thread nD τ) arg15 fullShare xs15) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun xi12 xi14 E K => ?run⟩
  case run =>
    simp only [cc0__body_eq_skeleton]; unfold cc0__body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, Hcont⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg14.eq_unread hf14; obtain rfl := harg15.eq_unread hf15
    sl_exec (disch := first | exact hc1 | exact hc2 | exact hc3 | exact hc4 | exact hc5)
    sl_step
    iapply Hcont
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; iexact H13
    isplitl [H14]
    · iexists _; isplitr; · ipureintro; exact harg14.read_unread _
      iexact H14
    iexists _; isplitr; · ipureintro; exact harg15.read_unread _
    iexact H15

end Cert.Kernel.Mlp

end
-- ==== Proof.Kernel.PointTail.lean ====
/-
  The body of the MLP kernel at the third grid point: the product of the activations with the LAST block of the second head's weights is kept in the second scratch, then the point's streamed block is multiplied.
-/
import proofs.«151329_g66365834658321_cont_9to1_m_1147_41_alg».proof.Proof.Kernel.PointLast

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the third grid point: the product of the activations with the LAST block of the second head's weights is kept in the second scratch, then the point's streamed block is multiplied. On whole staging memrefs — the inputs' at their contents, a buffer the point
    does not touch at contents handed back as they were, a buffer it stores into at anything — the body runs to the
    continuation with the pieces its stores wrote (last first) in each buffer it stored into; the pieces are found by
    running the body. -/
noncomputable def runTail (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : condTail i) (hc4 : condStream i) (hc5 : ¬condLast i)
    (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) :
    Σ' (L13 : List (View.Piece (Elt F) S32x2560 .f32)), { L15 : List (View.Piece (Elt F) S32x2560 .f32) //
      ∀ (xi12 : Vec F S32x1000 .f32) (E : Set ℕ) (K : PUnit → sProp 𝕄),
        iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare xi12
            ∗ (∃ d, owns (c : Thread nD τ) arg13 fullShare d)
            ∗ owns (c : Thread nD τ) arg14 fullShare xs14
            ∗ (∃ d, owns (c : Thread nD τ) arg15 fullShare d)
            ∗ (iprop(owns (c : Thread nD τ) arg1 fullShare x1
              ∗ owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ owns (c : Thread nD τ) arg11 fullShare x11
              ∗ owns (c : Thread nD τ) arg12 fullShare xi12
              ∗ (∃ f, arg13.view.loc (c : Thread nD τ) ↦[arg13.view.set]{fullShare} arg13.view.writes (Elt F) f L13)
              ∗ owns (c : Thread nD τ) arg14 fullShare xs14
              ∗ (∃ f, arg15.view.loc (c : Thread nD τ) ↦[arg15.view.set]{fullShare} arg15.view.writes (Elt F) f L15)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi12 E K => ?run⟩
  case run =>
    simp only [cc0__body_eq_skeleton]; unfold cc0__body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%d15, %f15, -, H15⟩, Hcont⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg14.eq_unread hf14
    sl_exec (disch := first | exact hc1 | exact hc2 | exact hc3 | exact hc4 | exact hc5)
    sl_step
    iapply Hcont
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; iexact H13
    isplitl [H14]
    · iexists _; isplitr; · ipureintro; exact harg14.read_unread _
      iexact H14
    iexists _; iexact H15

end Cert.Kernel.Mlp

end
-- ==== Proof.Kernel.PointCache.lean ====
/-
  The body of the MLP kernel at the second grid point: the first head is computed from the kept activations, then the point's streamed block is multiplied.
-/
import proofs.«151329_g66365834658321_cont_9to1_m_1147_41_alg».proof.Proof.Kernel.PointTail

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the second grid point: the first head is computed from the kept activations, then the point's streamed block is multiplied. On whole staging memrefs — the inputs' at their contents, a buffer the point
    does not touch at contents handed back as they were, a buffer it stores into at anything — the body runs to the
    continuation with the pieces its stores wrote (last first) in each buffer it stored into; the pieces are found by
    running the body. -/
noncomputable def runCache (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : condCache i) (hc3 : ¬condTail i) (hc4 : condStream i) (hc5 : ¬condLast i)
    (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) :
    Σ' (L12 : List (View.Piece (Elt F) S32x1000 .f32)), { L13 : List (View.Piece (Elt F) S32x2560 .f32) //
      ∀ (xi15 : Vec F S32x2560 .f32) (E : Set ℕ) (K : PUnit → sProp 𝕄),
        iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ (∃ d, owns (c : Thread nD τ) arg12 fullShare d)
            ∗ (∃ d, owns (c : Thread nD τ) arg13 fullShare d)
            ∗ owns (c : Thread nD τ) arg14 fullShare xs14
            ∗ owns (c : Thread nD τ) arg15 fullShare xi15
            ∗ (iprop(owns (c : Thread nD τ) arg1 fullShare x1
              ∗ owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ owns (c : Thread nD τ) arg11 fullShare x11
              ∗ (∃ f, arg12.view.loc (c : Thread nD τ) ↦[arg12.view.set]{fullShare} arg12.view.writes (Elt F) f L12)
              ∗ (∃ f, arg13.view.loc (c : Thread nD τ) ↦[arg13.view.set]{fullShare} arg13.view.writes (Elt F) f L13)
              ∗ owns (c : Thread nD τ) arg14 fullShare xs14
              ∗ owns (c : Thread nD τ) arg15 fullShare xi15) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi15 E K => ?run⟩
  case run =>
    simp only [cc0__body_eq_skeleton]; unfold cc0__body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, Hcont⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg14.eq_unread hf14; obtain rfl := harg15.eq_unread hf15
    sl_exec (disch := first | exact hc1 | exact hc2 | exact hc3 | exact hc4 | exact hc5)
    sl_step
    iapply Hcont
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; iexact H12
    isplitl [H13]
    · iexists _; iexact H13
    isplitl [H14]
    · iexists _; isplitr; · ipureintro; exact harg14.read_unread _
      iexact H14
    iexists _; isplitr; · ipureintro; exact harg15.read_unread _
    iexact H15

end Cert.Kernel.Mlp

end
-- ==== Proof.Kernel.PointTrunk.lean ====
/-
  The body of the MLP kernel at the first grid point: the trunk's two layers are computed into the activation scratch, then the point's streamed block of the second head is multiplied.
-/
import proofs.«151329_g66365834658321_cont_9to1_m_1147_41_alg».proof.Proof.Kernel.PointCache

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first grid point: the trunk's two layers are computed into the activation scratch, then the point's streamed block of the second head is multiplied. On whole staging memrefs — the inputs' at their contents, a buffer the point
    does not touch at contents handed back as they were, a buffer it stores into at anything — the body runs to the
    continuation with the pieces its stores wrote (last first) in each buffer it stored into; the pieces are found by
    running the body. -/
noncomputable def runTrunk (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : condTrunk i) (hc2 : ¬condCache i) (hc3 : ¬condTail i) (hc4 : condStream i) (hc5 : ¬condLast i)
    (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) :
    Σ' (L13 : List (View.Piece (Elt F) S32x2560 .f32)), { L14 : List (View.Piece (Elt F) S32x1024 .f32) //
      ∀ (xi12 : Vec F S32x1000 .f32) (xi15 : Vec F S32x2560 .f32) (E : Set ℕ) (K : PUnit → sProp 𝕄),
        iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare xi12
            ∗ (∃ d, owns (c : Thread nD τ) arg13 fullShare d)
            ∗ (∃ d, owns (c : Thread nD τ) arg14 fullShare d)
            ∗ owns (c : Thread nD τ) arg15 fullShare xi15
            ∗ (iprop(owns (c : Thread nD τ) arg1 fullShare x1
              ∗ owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ owns (c : Thread nD τ) arg11 fullShare x11
              ∗ owns (c : Thread nD τ) arg12 fullShare xi12
              ∗ (∃ f, arg13.view.loc (c : Thread nD τ) ↦[arg13.view.set]{fullShare} arg13.view.writes (Elt F) f L13)
              ∗ (∃ f, arg14.view.loc (c : Thread nD τ) ↦[arg14.view.set]{fullShare} arg14.view.writes (Elt F) f L14)
              ∗ owns (c : Thread nD τ) arg15 fullShare xi15) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi12 xi15 E K => ?run⟩
  case run =>
    simp only [cc0__body_eq_skeleton]; unfold cc0__body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, Hcont⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg15.eq_unread hf15
    sl_exec (disch := first | exact hc1 | exact hc2 | exact hc3 | exact hc4 | exact hc5)
    sl_step
    iapply Hcont
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; iexact H13
    isplitl [H14]
    · iexists _; iexact H14
    iexists _; isplitr; · ipureintro; exact harg15.read_unread _
    iexact H15

end Cert.Kernel.Mlp

end
-- ==== Proof.Kernel.GridValues.lean ====
/-
  What the MLP kernel's buffers hold point by point. The pieces each point's stores leave in a buffer cover it, so the
  buffer's contents after the point are those pieces read back; the trunk's activations (kept in the first scratch from
  point 0 on), the first head (kept in its output window's buffer from point 1 on) and the last block's product (kept in
  the second scratch from point 2 on) are the values three of the points leave; the streamed output window's block
  after point t is what that point's case stores. From these: the region's invariant between points and the proof data
  of the pipeline.
-/
import proofs.«151329_g66365834658321_cont_9to1_m_1147_41_alg».proof.Proof.Kernel.PointTrunk

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The views the contents are stated through -/

abbrev VC : View sig .tc .vmem S32x1000 .f32 := (Memref.whole cc0_stg11_0 : Memref sig .tc .vmem S32x1000 .f32).view
abbrev VR : View sig .tc .vmem S32x2560 .f32 := (Memref.whole cc0_stg12_0 : Memref sig .tc .vmem S32x2560 .f32).view
abbrev VH : View sig .tc .vmem S32x1024 .f32 := scH.view
abbrev VE : View sig .tc .vmem S32x2560 .f32 := scE.view

/-! ## Per case: the pieces cover the buffer, and what they leave in it -/

/-- The pieces of this case's stores into the buffer tile it, so they cover it. -/
theorem coverTrunkR (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : condTrunk i) (hc2 : ¬condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (y : S32x2560.Idx) :
    ∃ pc ∈ (runTrunk c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11).1, y ∈ pc.1.set :=
  View.cover_of_tiledL (runTrunk c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11).1 S32x1280.size (by sl_kernel_rfl) y

/-- What this case leaves in the buffer: its pieces read back. -/
def outTrunkR (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : condTrunk i) (hc2 : ¬condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) : Vec F S32x2560 .f32 :=
  VR.read (Elt F) (VR.writes (Elt F) VR.junk (runTrunk c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11).1)

/-- The pieces of this case's stores into the buffer tile it, so they cover it. -/
theorem coverTrunkH (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : condTrunk i) (hc2 : ¬condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (y : S32x1024.Idx) :
    ∃ pc ∈ (runTrunk c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11).2.1, y ∈ pc.1.set :=
  View.cover_of_tiledL (runTrunk c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11).2.1 S32x1024.size (by sl_kernel_rfl) y

/-- What this case leaves in the buffer: its pieces read back. -/
def outTrunkH (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : condTrunk i) (hc2 : ¬condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) : Vec F S32x1024 .f32 :=
  VH.read (Elt F) (VH.writes (Elt F) VH.junk (runTrunk c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11).2.1)

/-- The pieces of this case's stores into the buffer tile it, so they cover it. -/
theorem coverCacheC (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) (y : S32x1000.Idx) :
    ∃ pc ∈ (runCache c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).1, y ∈ pc.1.set :=
  View.cover_of_tiledL (runCache c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).1 S32x1000.size (by sl_kernel_rfl) y

/-- What this case leaves in the buffer: its pieces read back. -/
def outCacheC (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) : Vec F S32x1000 .f32 :=
  VC.read (Elt F) (VC.writes (Elt F) VC.junk (runCache c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).1)

/-- The pieces of this case's stores into the buffer tile it, so they cover it. -/
theorem coverCacheR (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) (y : S32x2560.Idx) :
    ∃ pc ∈ (runCache c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).2.1, y ∈ pc.1.set :=
  View.cover_of_tiledL (runCache c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).2.1 S32x1280.size (by sl_kernel_rfl) y

/-- What this case leaves in the buffer: its pieces read back. -/
def outCacheR (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) : Vec F S32x2560 .f32 :=
  VR.read (Elt F) (VR.writes (Elt F) VR.junk (runCache c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).2.1)

/-- The pieces of this case's stores into the buffer tile it, so they cover it. -/
theorem coverTailR (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) (y : S32x2560.Idx) :
    ∃ pc ∈ (runTail c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).1, y ∈ pc.1.set :=
  View.cover_of_tiledL (runTail c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).1 S32x1280.size (by sl_kernel_rfl) y

/-- What this case leaves in the buffer: its pieces read back. -/
def outTailR (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) : Vec F S32x2560 .f32 :=
  VR.read (Elt F) (VR.writes (Elt F) VR.junk (runTail c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).1)

/-- The pieces of this case's stores into the buffer tile it, so they cover it. -/
theorem coverTailE (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) (y : S32x2560.Idx) :
    ∃ pc ∈ (runTail c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).2.1, y ∈ pc.1.set :=
  View.cover_of_tiledL (runTail c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).2.1 S32x2560.size (by sl_kernel_rfl) y

/-- What this case leaves in the buffer: its pieces read back. -/
def outTailE (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) : Vec F S32x2560 .f32 :=
  VE.read (Elt F) (VE.writes (Elt F) VE.junk (runTail c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).2.1)

/-- The pieces of this case's stores into the buffer tile it, so they cover it. -/
theorem coverStreamR (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) (y : S32x2560.Idx) :
    ∃ pc ∈ (runStream c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).1, y ∈ pc.1.set :=
  View.cover_of_tiledL (runStream c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).1 S32x1280.size (by sl_kernel_rfl) y

/-- What this case leaves in the buffer: its pieces read back. -/
def outStreamR (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) : Vec F S32x2560 .f32 :=
  VR.read (Elt F) (VR.writes (Elt F) VR.junk (runStream c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).1)

/-- The pieces of this case's stores into the buffer tile it, so they cover it. -/
theorem coverLastR (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : ¬condTail i) (hc4 : ¬condStream i) (hc5 : condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs15 : Vec F S32x2560 .f32) (y : S32x2560.Idx) :
    ∃ pc ∈ (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs15).1, y ∈ pc.1.set :=
  View.cover_of_tiledL (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs15).1 S32x2560.size (by sl_kernel_rfl) y

/-- What this case leaves in the buffer: its pieces read back. -/
def outLastR (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : ¬condTail i) (hc4 : ¬condStream i) (hc5 : condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs15 : Vec F S32x2560 .f32) : Vec F S32x2560 .f32 :=
  VR.read (Elt F) (VR.writes (Elt F) VR.junk (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs15).1)

/-! ## The conditions at a point of each case -/
theorem hcTrunk1 (t : Fin cfg0.N) (h : t.val = 0) : condTrunk (grid0.coords t) :=
  (hcondTrunk t).mpr (by have := h; omega)
theorem hcTrunk2 (t : Fin cfg0.N) (h : t.val = 0) : ¬condCache (grid0.coords t) :=
  fun hh => by have := (hcondCache t).mp hh; have := h; omega
theorem hcTrunk3 (t : Fin cfg0.N) (h : t.val = 0) : ¬condTail (grid0.coords t) :=
  fun hh => by have := (hcondTail t).mp hh; have := h; omega
theorem hcTrunk4 (t : Fin cfg0.N) (h : t.val = 0) : condStream (grid0.coords t) :=
  (hcondStream t).mpr (by have := h; omega)
theorem hcTrunk5 (t : Fin cfg0.N) (h : t.val = 0) : ¬condLast (grid0.coords t) :=
  fun hh => by have := (hcondLast t).mp hh; have := h; omega
theorem hcCache1 (t : Fin cfg0.N) (h : t.val = 1) : ¬condTrunk (grid0.coords t) :=
  fun hh => by have := (hcondTrunk t).mp hh; have := h; omega
theorem hcCache2 (t : Fin cfg0.N) (h : t.val = 1) : condCache (grid0.coords t) :=
  (hcondCache t).mpr (by have := h; omega)
theorem hcCache3 (t : Fin cfg0.N) (h : t.val = 1) : ¬condTail (grid0.coords t) :=
  fun hh => by have := (hcondTail t).mp hh; have := h; omega
theorem hcCache4 (t : Fin cfg0.N) (h : t.val = 1) : condStream (grid0.coords t) :=
  (hcondStream t).mpr (by have := h; omega)
theorem hcCache5 (t : Fin cfg0.N) (h : t.val = 1) : ¬condLast (grid0.coords t) :=
  fun hh => by have := (hcondLast t).mp hh; have := h; omega
theorem hcTail1 (t : Fin cfg0.N) (h : t.val = 2) : ¬condTrunk (grid0.coords t) :=
  fun hh => by have := (hcondTrunk t).mp hh; have := h; omega
theorem hcTail2 (t : Fin cfg0.N) (h : t.val = 2) : ¬condCache (grid0.coords t) :=
  fun hh => by have := (hcondCache t).mp hh; have := h; omega
theorem hcTail3 (t : Fin cfg0.N) (h : t.val = 2) : condTail (grid0.coords t) :=
  (hcondTail t).mpr (by have := h; omega)
theorem hcTail4 (t : Fin cfg0.N) (h : t.val = 2) : condStream (grid0.coords t) :=
  (hcondStream t).mpr (by have := h; omega)
theorem hcTail5 (t : Fin cfg0.N) (h : t.val = 2) : ¬condLast (grid0.coords t) :=
  fun hh => by have := (hcondLast t).mp hh; have := h; omega
theorem hcStream1 (t : Fin cfg0.N) (h3 : 3 ≤ t.val) (h24 : t.val < 24) : ¬condTrunk (grid0.coords t) :=
  fun hh => by have := (hcondTrunk t).mp hh; have := h3; have := h24; omega
theorem hcStream2 (t : Fin cfg0.N) (h3 : 3 ≤ t.val) (h24 : t.val < 24) : ¬condCache (grid0.coords t) :=
  fun hh => by have := (hcondCache t).mp hh; have := h3; have := h24; omega
theorem hcStream3 (t : Fin cfg0.N) (h3 : 3 ≤ t.val) (h24 : t.val < 24) : ¬condTail (grid0.coords t) :=
  fun hh => by have := (hcondTail t).mp hh; have := h3; have := h24; omega
theorem hcStream4 (t : Fin cfg0.N) (h3 : 3 ≤ t.val) (h24 : t.val < 24) : condStream (grid0.coords t) :=
  (hcondStream t).mpr (by have := h3; have := h24; omega)
theorem hcStream5 (t : Fin cfg0.N) (h3 : 3 ≤ t.val) (h24 : t.val < 24) : ¬condLast (grid0.coords t) :=
  fun hh => by have := (hcondLast t).mp hh; have := h3; have := h24; omega
theorem hcLast1 (t : Fin cfg0.N) (h : t.val = 24) : ¬condTrunk (grid0.coords t) :=
  fun hh => by have := (hcondTrunk t).mp hh; have := h; omega
theorem hcLast2 (t : Fin cfg0.N) (h : t.val = 24) : ¬condCache (grid0.coords t) :=
  fun hh => by have := (hcondCache t).mp hh; have := h; omega
theorem hcLast3 (t : Fin cfg0.N) (h : t.val = 24) : ¬condTail (grid0.coords t) :=
  fun hh => by have := (hcondTail t).mp hh; have := h; omega
theorem hcLast4 (t : Fin cfg0.N) (h : t.val = 24) : ¬condStream (grid0.coords t) :=
  fun hh => by have := (hcondStream t).mp hh; have := h; omega
theorem hcLast5 (t : Fin cfg0.N) (h : t.val = 24) : condLast (grid0.coords t) :=
  (hcondLast t).mpr (by have := h; omega)

/-! ## The three values kept across points, and the streamed window's block after each point -/

abbrev t0 : Fin cfg0.N := ⟨0, by decide⟩
abbrev t1 : Fin cfg0.N := ⟨1, by decide⟩
abbrev t2 : Fin cfg0.N := ⟨2, by decide⟩
abbrev t24 : Fin cfg0.N := ⟨24, by decide⟩

/-- The trunk's activations, as point 0 leaves them in the first scratch. -/
def hVal (c : Dev nD) : Vec F S32x1024 .f32 := outTrunkH c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) (ms12 t0) (hs12 t0) scH (Memref.isWhole_whole _) scE (Memref.isWhole_whole _) (hcTrunk1 t0 rfl) (hcTrunk2 t0 rfl) (hcTrunk3 t0 rfl) (hcTrunk4 t0 rfl) (hcTrunk5 t0 rfl) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0)
/-- The first head, as point 1 leaves it in its window's buffer. -/
def cacheVal (c : Dev nD) : Vec F S32x1000 .f32 := outCacheC c (grid0.coords t1) (ms0 t1) (hs0 t1) (ms1 t1) (hs1 t1) (ms2 t1) (hs2 t1) (ms3 t1) (hs3 t1) (ms4 t1) (hs4 t1) (ms5 t1) (hs5 t1) (ms6 t1) (hs6 t1) (ms7 t1) (hs7 t1) (ms8 t1) (hs8 t1) (ms9 t1) (hs9 t1) (ms10 t1) (hs10 t1) (ms11 t1) (hs11 t1) (ms12 t1) (hs12 t1) scH (Memref.isWhole_whole _) scE (Memref.isWhole_whole _) (hcCache1 t1 rfl) (hcCache2 t1 rfl) (hcCache3 t1 rfl) (hcCache4 t1 rfl) (hcCache5 t1 rfl) (iblk m c 0 t1) (iblk m c 1 t1) (iblk m c 2 t1) (iblk m c 3 t1) (iblk m c 4 t1) (iblk m c 5 t1) (iblk m c 6 t1) (iblk m c 7 t1) (iblk m c 8 t1) (iblk m c 9 t1) (iblk m c 10 t1) (hVal m c)
/-- The activations' product with the last block of the second head's weights, as point 2 leaves it in the second scratch. -/
def eVal (c : Dev nD) : Vec F S32x2560 .f32 := outTailE c (grid0.coords t2) (ms0 t2) (hs0 t2) (ms1 t2) (hs1 t2) (ms2 t2) (hs2 t2) (ms3 t2) (hs3 t2) (ms4 t2) (hs4 t2) (ms5 t2) (hs5 t2) (ms6 t2) (hs6 t2) (ms7 t2) (hs7 t2) (ms8 t2) (hs8 t2) (ms9 t2) (hs9 t2) (ms10 t2) (hs10 t2) (ms11 t2) (hs11 t2) (ms12 t2) (hs12 t2) scH (Memref.isWhole_whole _) scE (Memref.isWhole_whole _) (hcTail1 t2 rfl) (hcTail2 t2 rfl) (hcTail3 t2 rfl) (hcTail4 t2 rfl) (hcTail5 t2 rfl) (iblk m c 0 t2) (iblk m c 1 t2) (iblk m c 2 t2) (iblk m c 3 t2) (iblk m c 4 t2) (iblk m c 5 t2) (iblk m c 6 t2) (iblk m c 7 t2) (iblk m c 8 t2) (iblk m c 9 t2) (iblk m c 10 t2) (hVal m c)

theorem lt25 (t : Fin cfg0.N) : t.val < 25 := lt_of_lt_of_eq t.isLt (show cfg0.N = 25 from N_0)

/-- The streamed output window's block after point `t`: what the point's case stores. -/
def recAt (c : Dev nD) (t : Fin cfg0.N) : Vec F S32x2560 .f32 :=
  if h0 : t.val = 0 then outTrunkR c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scH (Memref.isWhole_whole _) scE (Memref.isWhole_whole _) (hcTrunk1 t h0) (hcTrunk2 t h0) (hcTrunk3 t h0) (hcTrunk4 t h0) (hcTrunk5 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t)
  else if h1 : t.val = 1 then outCacheR c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scH (Memref.isWhole_whole _) scE (Memref.isWhole_whole _) (hcCache1 t h1) (hcCache2 t h1) (hcCache3 t h1) (hcCache4 t h1) (hcCache5 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (hVal m c)
  else if h2 : t.val = 2 then outTailR c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scH (Memref.isWhole_whole _) scE (Memref.isWhole_whole _) (hcTail1 t h2) (hcTail2 t h2) (hcTail3 t h2) (hcTail4 t h2) (hcTail5 t h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (hVal m c)
  else if h3 : t.val < 24 then outStreamR c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scH (Memref.isWhole_whole _) scE (Memref.isWhole_whole _) (hcStream1 t (by omega) h3) (hcStream2 t (by omega) h3) (hcStream3 t (by omega) h3) (hcStream4 t (by omega) h3) (hcStream5 t (by omega) h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (hVal m c)
  else outLastR c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scH (Memref.isWhole_whole _) scE (Memref.isWhole_whole _) (hcLast1 t (by have := lt25 t; omega)) (hcLast2 t (by have := lt25 t; omega)) (hcLast3 t (by have := lt25 t; omega)) (hcLast4 t (by have := lt25 t; omega)) (hcLast5 t (by have := lt25 t; omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (eVal m c)

theorem recAt_trunk (c : Dev nD) (t : Fin cfg0.N) (h : t.val = 0) :
    recAt m c t = outTrunkR c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scH (Memref.isWhole_whole _) scE (Memref.isWhole_whole _) (hcTrunk1 t h) (hcTrunk2 t h) (hcTrunk3 t h) (hcTrunk4 t h) (hcTrunk5 t h) (iblk m c 0 t) (iblk m c 1 t) (iblk m c 2 t) (iblk m c 3 t) (iblk m c 4 t) (iblk m c 5 t) (iblk m c 6 t) (iblk m c 7 t) (iblk m c 8 t) (iblk m c 9 t) (iblk m c 10 t) := dif_pos h
theorem recAt_cache (c : Dev nD) (t : Fin cfg0.N) (h : t.val = 1) :
    recAt m c t = outCacheR c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scH (Memref.isWhole_whole _) scE (Memref.isWhole_whole _) (hcCache1 t h) (hcCache2 t h) (hcCache3 t h) (hcCache4 t h) (hcCache5 t h) (iblk m c 0 t) (iblk m c 1 t) (iblk m c 2 t) (iblk m c 3 t) (iblk m c 4 t) (iblk m c 5 t) (iblk m c 6 t) (iblk m c 7 t) (iblk m c 8 t) (iblk m c 9 t) (iblk m c 10 t) (hVal m c) :=
  (dif_neg (by omega)).trans (dif_pos h)
theorem recAt_tail (c : Dev nD) (t : Fin cfg0.N) (h : t.val = 2) :
    recAt m c t = outTailR c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scH (Memref.isWhole_whole _) scE (Memref.isWhole_whole _) (hcTail1 t h) (hcTail2 t h) (hcTail3 t h) (hcTail4 t h) (hcTail5 t h) (iblk m c 0 t) (iblk m c 1 t) (iblk m c 2 t) (iblk m c 3 t) (iblk m c 4 t) (iblk m c 5 t) (iblk m c 6 t) (iblk m c 7 t) (iblk m c 8 t) (iblk m c 9 t) (iblk m c 10 t) (hVal m c) :=
  (dif_neg (by omega)).trans ((dif_neg (by omega)).trans (dif_pos h))
theorem recAt_stream (c : Dev nD) (t : Fin cfg0.N) (h3 : 3 ≤ t.val) (h24 : t.val < 24) :
    recAt m c t = outStreamR c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scH (Memref.isWhole_whole _) scE (Memref.isWhole_whole _) (hcStream1 t h3 h24) (hcStream2 t h3 h24) (hcStream3 t h3 h24) (hcStream4 t h3 h24) (hcStream5 t h3 h24) (iblk m c 0 t) (iblk m c 1 t) (iblk m c 2 t) (iblk m c 3 t) (iblk m c 4 t) (iblk m c 5 t) (iblk m c 6 t) (iblk m c 7 t) (iblk m c 8 t) (iblk m c 9 t) (iblk m c 10 t) (hVal m c) :=
  (dif_neg (by omega)).trans ((dif_neg (by omega)).trans ((dif_neg (by omega)).trans (dif_pos h24)))
theorem recAt_last (c : Dev nD) (t : Fin cfg0.N) (h : t.val = 24) :
    recAt m c t = outLastR c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scH (Memref.isWhole_whole _) scE (Memref.isWhole_whole _) (hcLast1 t h) (hcLast2 t h) (hcLast3 t h) (hcLast4 t h) (hcLast5 t h) (iblk m c 0 t) (iblk m c 1 t) (iblk m c 2 t) (iblk m c 3 t) (iblk m c 4 t) (iblk m c 5 t) (iblk m c 6 t) (iblk m c 7 t) (iblk m c 8 t) (iblk m c 9 t) (iblk m c 10 t) (eVal m c) :=
  (dif_neg (by omega)).trans ((dif_neg (by omega)).trans ((dif_neg (by omega)).trans (dif_neg (by omega))))

/-! ## The region's invariant between points -/

/-- Before point `n`: at the start both scratch buffers hold anything; from point 1 on the first holds the trunk's
    activations; from point 3 on the second holds the last block's product. The generator register is at some state. -/
def PhiS (c : Dev nD) (n : ℕ) : sProp 𝕄 :=
  if n = 0 then Pipeline.ΦA spec0 c
  else if n < 3 then iprop(iprop(owns (c : Thread nD τ) scH fullShare (hVal m c) ∗ (∃ d, owns (c : Thread nD τ) scE fullShare d)) ∗ (∃ r, prngReg c r))
  else iprop(iprop(owns (c : Thread nD τ) scH fullShare (hVal m c) ∗ owns (c : Thread nD τ) scE fullShare (eVal m c)) ∗ (∃ r, prngReg c r))

theorem PhiS_zero (c : Dev nD) : PhiS m c 0 = Pipeline.ΦA spec0 c := if_pos rfl
theorem PhiS_low (c : Dev nD) (n : ℕ) (h0 : n ≠ 0) (h3 : n < 3) :
    PhiS m c n = iprop(iprop(owns (c : Thread nD τ) scH fullShare (hVal m c) ∗ (∃ d, owns (c : Thread nD τ) scE fullShare d)) ∗ (∃ r, prngReg c r)) :=
  (if_neg h0).trans (if_pos h3)
theorem PhiS_high (c : Dev nD) (n : ℕ) (h3 : 3 ≤ n) :
    PhiS m c n = iprop(iprop(owns (c : Thread nD τ) scH fullShare (hVal m c) ∗ owns (c : Thread nD τ) scE fullShare (eVal m c)) ∗ (∃ r, prngReg c r)) :=
  (if_neg (by omega)).trans (if_neg (by omega))

/-! ## The pipeline's proof data -/

/-- The proof data on core `c`: the arrays as the region finds them; after the body each input's buffer at its block,
    the first head's window at the first head, the streamed window at the point's block; the invariant above; the three
    windows on the second head's weights hold a share of that array each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => cacheVal m c
    | ⟨12, _⟩ => recAt m c t
  Φ t := PhiS m c t.val
  q w := match w with
    | ⟨0, _⟩ => fullShare
    | ⟨1, _⟩ => fullShare
    | ⟨2, _⟩ => fullShare
    | ⟨3, _⟩ => fullShare
    | ⟨4, _⟩ => fullShare
    | ⟨5, _⟩ => fullShare
    | ⟨6, _⟩ => fullShare
    | ⟨7, _⟩ => fullShare.left
    | ⟨8, _⟩ => fullShare.right.left
    | ⟨9, _⟩ => fullShare.right.right
    | ⟨10, _⟩ => fullShare
    | ⟨11, _⟩ => fullShare
    | ⟨12, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

theorem after_in0 (c : Dev nD) (t : Fin cfg0.N) : (dats m 0 c).after 0 t = iblk m c 0 t := by dsimp only [dats]
theorem before_in0 (c : Dev nD) (t : Fin cfg0.N) (d) : (dats m 0 c).before 0 t d = iblk m c 0 t :=
  before_in0_of m (dats m 0 c) (A_eq m c 0) (after_in0 m c) t d
theorem leaves_in0 (c : Dev nD) (t : Fin cfg0.N) :
    (dats m 0 c).leavesExact 0 t = owns (c : Thread nD τ) (ms0 t) fullShare (iblk m c 0 t) := by
  unfold Dat.leavesExact; rw [show cfg0.idle 0 (grid0.coords t) = false from rfl, after_in0]
theorem after_in1 (c : Dev nD) (t : Fin cfg0.N) : (dats m 0 c).after 1 t = iblk m c 1 t := by dsimp only [dats]
theorem before_in1 (c : Dev nD) (t : Fin cfg0.N) (d) : (dats m 0 c).before 1 t d = iblk m c 1 t :=
  before_in1_of m (dats m 0 c) (A_eq m c 1) (after_in1 m c) t d
theorem leaves_in1 (c : Dev nD) (t : Fin cfg0.N) :
    (dats m 0 c).leavesExact 1 t = owns (c : Thread nD τ) (ms1 t) fullShare (iblk m c 1 t) := by
  unfold Dat.leavesExact; rw [show cfg0.idle 1 (grid0.coords t) = false from rfl, after_in1]
theorem after_in2 (c : Dev nD) (t : Fin cfg0.N) : (dats m 0 c).after 2 t = iblk m c 2 t := by dsimp only [dats]
theorem before_in2 (c : Dev nD) (t : Fin cfg0.N) (d) : (dats m 0 c).before 2 t d = iblk m c 2 t :=
  before_in2_of m (dats m 0 c) (A_eq m c 2) (after_in2 m c) t d
theorem leaves_in2 (c : Dev nD) (t : Fin cfg0.N) :
    (dats m 0 c).leavesExact 2 t = owns (c : Thread nD τ) (ms2 t) fullShare (iblk m c 2 t) := by
  unfold Dat.leavesExact; rw [show cfg0.idle 2 (grid0.coords t) = false from rfl, after_in2]
theorem after_in3 (c : Dev nD) (t : Fin cfg0.N) : (dats m 0 c).after 3 t = iblk m c 3 t := by dsimp only [dats]
theorem before_in3 (c : Dev nD) (t : Fin cfg0.N) (d) : (dats m 0 c).before 3 t d = iblk m c 3 t :=
  before_in3_of m (dats m 0 c) (A_eq m c 3) (after_in3 m c) t d
theorem leaves_in3 (c : Dev nD) (t : Fin cfg0.N) :
    (dats m 0 c).leavesExact 3 t = owns (c : Thread nD τ) (ms3 t) fullShare (iblk m c 3 t) := by
  unfold Dat.leavesExact; rw [show cfg0.idle 3 (grid0.coords t) = false from rfl, after_in3]
theorem after_in4 (c : Dev nD) (t : Fin cfg0.N) : (dats m 0 c).after 4 t = iblk m c 4 t := by dsimp only [dats]
theorem before_in4 (c : Dev nD) (t : Fin cfg0.N) (d) : (dats m 0 c).before 4 t d = iblk m c 4 t :=
  before_in4_of m (dats m 0 c) (A_eq m c 4) (after_in4 m c) t d
theorem leaves_in4 (c : Dev nD) (t : Fin cfg0.N) :
    (dats m 0 c).leavesExact 4 t = owns (c : Thread nD τ) (ms4 t) fullShare (iblk m c 4 t) := by
  unfold Dat.leavesExact; rw [show cfg0.idle 4 (grid0.coords t) = false from rfl, after_in4]
theorem after_in5 (c : Dev nD) (t : Fin cfg0.N) : (dats m 0 c).after 5 t = iblk m c 5 t := by dsimp only [dats]
theorem before_in5 (c : Dev nD) (t : Fin cfg0.N) (d) : (dats m 0 c).before 5 t d = iblk m c 5 t :=
  before_in5_of m (dats m 0 c) (A_eq m c 5) (after_in5 m c) t d
theorem leaves_in5 (c : Dev nD) (t : Fin cfg0.N) :
    (dats m 0 c).leavesExact 5 t = owns (c : Thread nD τ) (ms5 t) fullShare (iblk m c 5 t) := by
  unfold Dat.leavesExact; rw [show cfg0.idle 5 (grid0.coords t) = false from rfl, after_in5]
theorem after_in6 (c : Dev nD) (t : Fin cfg0.N) : (dats m 0 c).after 6 t = iblk m c 6 t := by dsimp only [dats]
theorem before_in6 (c : Dev nD) (t : Fin cfg0.N) (d) : (dats m 0 c).before 6 t d = iblk m c 6 t :=
  before_in6_of m (dats m 0 c) (A_eq m c 6) (after_in6 m c) t d
theorem leaves_in6 (c : Dev nD) (t : Fin cfg0.N) :
    (dats m 0 c).leavesExact 6 t = owns (c : Thread nD τ) (ms6 t) fullShare (iblk m c 6 t) := by
  unfold Dat.leavesExact; rw [show cfg0.idle 6 (grid0.coords t) = false from rfl, after_in6]
theorem after_in7 (c : Dev nD) (t : Fin cfg0.N) : (dats m 0 c).after 7 t = iblk m c 7 t := by dsimp only [dats]
theorem before_in7 (c : Dev nD) (t : Fin cfg0.N) (d) : (dats m 0 c).before 7 t d = iblk m c 7 t :=
  before_in7_of m (dats m 0 c) (A_eq m c 7) (after_in7 m c) t d
theorem leaves_in7 (c : Dev nD) (t : Fin cfg0.N) :
    (dats m 0 c).leavesExact 7 t = owns (c : Thread nD τ) (ms7 t) fullShare (iblk m c 7 t) := by
  unfold Dat.leavesExact; rw [show cfg0.idle 7 (grid0.coords t) = false from rfl, after_in7]
theorem after_in8 (c : Dev nD) (t : Fin cfg0.N) : (dats m 0 c).after 8 t = iblk m c 8 t := by dsimp only [dats]
theorem before_in8 (c : Dev nD) (t : Fin cfg0.N) (d) : (dats m 0 c).before 8 t d = iblk m c 8 t :=
  before_in8_of m (dats m 0 c) (A_eq m c 8) (after_in8 m c) t d
theorem leaves_in8 (c : Dev nD) (t : Fin cfg0.N) :
    (dats m 0 c).leavesExact 8 t = owns (c : Thread nD τ) (ms8 t) fullShare (iblk m c 8 t) := by
  unfold Dat.leavesExact; rw [show cfg0.idle 8 (grid0.coords t) = false from rfl, after_in8]
theorem after_in9 (c : Dev nD) (t : Fin cfg0.N) : (dats m 0 c).after 9 t = iblk m c 9 t := by dsimp only [dats]
theorem before_in9 (c : Dev nD) (t : Fin cfg0.N) (d) : (dats m 0 c).before 9 t d = iblk m c 9 t :=
  before_in9_of m (dats m 0 c) (A_eq m c 9) (after_in9 m c) t d
theorem leaves_in9 (c : Dev nD) (t : Fin cfg0.N) :
    (dats m 0 c).leavesExact 9 t = owns (c : Thread nD τ) (ms9 t) fullShare (iblk m c 9 t) := by
  unfold Dat.leavesExact; rw [show cfg0.idle 9 (grid0.coords t) = false from rfl, after_in9]
theorem after_in10 (c : Dev nD) (t : Fin cfg0.N) : (dats m 0 c).after 10 t = iblk m c 10 t := by dsimp only [dats]
theorem before_in10 (c : Dev nD) (t : Fin cfg0.N) (d) : (dats m 0 c).before 10 t d = iblk m c 10 t :=
  before_in10_of m (dats m 0 c) (A_eq m c 10) (after_in10 m c) t d
theorem leaves_in10 (c : Dev nD) (t : Fin cfg0.N) :
    (dats m 0 c).leavesExact 10 t = owns (c : Thread nD τ) (ms10 t) fullShare (iblk m c 10 t) := by
  unfold Dat.leavesExact; rw [show cfg0.idle 10 (grid0.coords t) = false from rfl, after_in10]

theorem after11 (c : Dev nD) (t : Fin cfg0.N) : (dats m 0 c).after 11 t = cacheVal m c := by dsimp only [dats]
theorem after12 (c : Dev nD) (t : Fin cfg0.N) : (dats m 0 c).after 12 t = recAt m c t := by dsimp only [dats]

/-! ## The two output windows -/

theorem idle11_off : ∀ t : Fin cfg0.N, t.val ≠ 1 → cfg0.idle 11 (grid0.coords t) = true := by decide +kernel
theorem idle11_on : ∀ t : Fin cfg0.N, t.val = 1 → cfg0.idle 11 (grid0.coords t) = false := by decide +kernel
theorem flush11_off : ∀ t : Fin cfg0.N, t.val ≠ 24 → (cfg0.win 11).flush t = false := by decide +kernel
theorem flush11_on : ∀ t : Fin cfg0.N, t.val = 24 → (cfg0.win 11).flush t = true := by decide +kernel

/-- At a point that neither stores the first head nor writes it back, its window's buffer is handed back as found. -/
theorem leaves11_idle (c : Dev nD) (t : Fin cfg0.N) (h1 : t.val ≠ 1) (h24 : t.val ≠ 24) :
    (dats m 0 c).leavesExact 11 t = iprop(∃ d, owns (c : Thread nD τ) (ms11 t) fullShare ((dats m 0 c).before 11 t d)) :=
  Dat.leavesExact_idle (dats m 0 c) 11 t (idle11_off t h1) (flush11_off t h24)
/-- At point 1 it is left at the first head, -/
theorem leaves11_store (c : Dev nD) (t : Fin cfg0.N) (h1 : t.val = 1) :
    (dats m 0 c).leavesExact 11 t = owns (c : Thread nD τ) (ms11 t) fullShare (cacheVal m c) := by
  unfold Dat.leavesExact; rw [idle11_on t h1, after11]
/-- and at the last point, which writes it back, it still is. -/
theorem leaves11_last (c : Dev nD) (t : Fin cfg0.N) (h24 : t.val = 24) :
    (dats m 0 c).leavesExact 11 t = owns (c : Thread nD τ) (ms11 t) fullShare (cacheVal m c) := by
  unfold Dat.leavesExact; rw [idle11_off t (by omega), flush11_on t h24, after11]
/-- The streamed window is stored at every point. -/
theorem leaves12 (c : Dev nD) (t : Fin cfg0.N) :
    (dats m 0 c).leavesExact 12 t = owns (c : Thread nD τ) (ms12 t) fullShare (recAt m c t) := by
  unfold Dat.leavesExact; rw [live12 t, after12]

/-- What a point that stored into the first head's window leaves there is what the next point finds (nothing is cut). -/
theorem kept11 (c : Dev nD) (t : Fin cfg0.N) (d) : (dats m 0 c).kept 11 t d = cacheVal m c := by
  unfold Dat.kept
  rw [Pipeline.fill_of_clip_none 11 _ (fun a => rfl) d ((dats m 0 c).after 11 t), Window.fill_cut, after11]

/-- From point 2 on the first head's window holds the first head: point 1 stored it, no later point before the last
    touches the buffer, and it is not written back before the last point. -/
theorem before11 (c : Dev nD) : ∀ (n : ℕ) (hn : n < cfg0.N), 2 ≤ n → ∀ d, (dats m 0 c).before 11 ⟨n, hn⟩ d = cacheVal m c := by
  intro n
  induction n with
  | zero => intro _ h; omega
  | succ k ih =>
    intro hn h2 d
    have hk : k < cfg0.N := Nat.lt_of_succ_lt hn
    have hk25 : k + 1 < 25 := lt_of_lt_of_eq hn (show cfg0.N = 25 from N_0)
    rw [Dat.before_of_pos (dats m 0 c) 11 ⟨k + 1, hn⟩ (Nat.succ_ne_zero k) ((cfg0.win 11).fetch_out rfl _) d]
    rw [show (⟨(⟨k + 1, hn⟩ : Fin cfg0.N).val - 1, Nat.lt_of_le_of_lt (Nat.sub_le _ _) (⟨k + 1, hn⟩ : Fin cfg0.N).isLt⟩ : Fin cfg0.N) = ⟨k, hk⟩ from rfl]
    rw [flush11_off ⟨k, hk⟩ (by simp only; omega), if_neg Bool.false_ne_true]
    unfold Dat.left
    by_cases h1 : k = 1
    · rw [idle11_on ⟨k, hk⟩ h1]; exact kept11 m c _ d
    · rw [idle11_off ⟨k, hk⟩ h1]; exact ih hk (by omega) d

end Cert.Kernel.Mlp

end
-- ==== Proof.Kernel.GridBody.lean ====
/-
  The body obligation of the MLP kernel's pipeline: at each of the 25 grid points the body, handed the invariant and
  every window's current buffer at what it then holds, runs to the next point's invariant with every buffer at what
  the proof data says the point leaves — by the case the point is in.
-/
import proofs.«151329_g66365834658321_cont_9to1_m_1147_41_alg».proof.Proof.Kernel.GridValues

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 4000000 in
/-- The body at the first grid point: the trunk's two layers are computed into the activation scratch, then the point's streamed block of the second head is multiplied: the buffers it is handed are the run's, and what the run leaves is the next point's. -/
theorem soundTrunk (c : Dev nD)  :
    bodyPre m c t0 ⊢ wp frame (wpE (defs₀ (F := F)) Variants.none c none) Set.univ (bodyAt0 t0) (fun _ => bodyPost m c t0) := by
  unfold bodyPre bodyPost bodyAt0
  simp only [before_in0, before_in1, before_in2, before_in3, before_in4, before_in5, before_in6, before_in7, before_in8, before_in9, before_in10]
  rw [show (dats m 0 c).owesAt () (t0 : Fin cfg0.N).succ = (dats m 0 c).owesAt () (t0 : Fin cfg0.N).castSucc from rfl]
  rw [Phi_castSucc, Phi_succ]
  rw [PhiS_zero, PhiS_low m c (t0.val + 1) (by decide) (by decide), PhiA0_eq]
  rw [leaves_in0, leaves_in1, leaves_in2, leaves_in3, leaves_in4, leaves_in5, leaves_in6, leaves_in7, leaves_in8, leaves_in9, leaves_in10, leaves11_idle m c t0 (by decide) (by decide), leaves12, recAt_trunk m c t0 rfl]
  unfold outTrunkR hVal outTrunkH
  iintro ⟨⟨⟨HSH, ⟨%dE, HSE⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runTrunk c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) (ms12 t0) (hs12 t0) scH (Memref.isWhole_whole _) scE (Memref.isWhole_whole _) (hcTrunk1 t0 rfl) (hcTrunk2 t0 rfl) (hcTrunk3 t0 rfl) (hcTrunk4 t0 rfl) (hcTrunk5 t0 rfl) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0)).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HSH]; · iexact HSH
  isplitl [HSE]; · iexact HSE
  iintro ⟨H0, H1, H2, H3, H4, H5, H6, H7, H8, H9, H10, H11, ⟨%e13, H12⟩, ⟨%e14, HSH⟩, HSE⟩
  isplitl [HSH HSE Hg]
  · isplitl [HSH HSE]
    · isplitl [HSH]
      · unfold owns; iexists _; isplitr
        swap; · iexact HSH
        ipureintro; exact View.read_writes_of_cover _ _ _ _ _ (coverTrunkH c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) (ms12 t0) (hs12 t0) scH (Memref.isWhole_whole _) scE (Memref.isWhole_whole _) (hcTrunk1 t0 rfl) (hcTrunk2 t0 rfl) (hcTrunk3 t0 rfl) (hcTrunk4 t0 rfl) (hcTrunk5 t0 rfl) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0))
      · iexists _; iexact HSE
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; iexact H11
  unfold owns; iexists _; isplitr
  swap; · iexact H12
  ipureintro; exact View.read_writes_of_cover _ _ _ _ _ (coverTrunkR c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) (ms12 t0) (hs12 t0) scH (Memref.isWhole_whole _) scE (Memref.isWhole_whole _) (hcTrunk1 t0 rfl) (hcTrunk2 t0 rfl) (hcTrunk3 t0 rfl) (hcTrunk4 t0 rfl) (hcTrunk5 t0 rfl) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0))

set_option maxHeartbeats 4000000 in
/-- The body at the second grid point: the first head is computed from the kept activations, then the point's streamed block is multiplied: the buffers it is handed are the run's, and what the run leaves is the next point's. -/
theorem soundCache (c : Dev nD)  :
    bodyPre m c t1 ⊢ wp frame (wpE (defs₀ (F := F)) Variants.none c none) Set.univ (bodyAt0 t1) (fun _ => bodyPost m c t1) := by
  unfold bodyPre bodyPost bodyAt0
  simp only [before_in0, before_in1, before_in2, before_in3, before_in4, before_in5, before_in6, before_in7, before_in8, before_in9, before_in10]
  rw [show (dats m 0 c).owesAt () (t1 : Fin cfg0.N).succ = (dats m 0 c).owesAt () (t1 : Fin cfg0.N).castSucc from rfl]
  rw [Phi_castSucc, Phi_succ]
  rw [PhiS_low m c t1.val (by decide) (by decide), PhiS_low m c (t1.val + 1) (by decide) (by decide)]
  rw [leaves_in0, leaves_in1, leaves_in2, leaves_in3, leaves_in4, leaves_in5, leaves_in6, leaves_in7, leaves_in8, leaves_in9, leaves_in10, leaves11_store m c t1 rfl, leaves12, recAt_cache m c t1 rfl]
  unfold outCacheR cacheVal outCacheC
  iintro ⟨⟨⟨HSH, ⟨%dE, HSE⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runCache c (grid0.coords t1) (ms0 t1) (hs0 t1) (ms1 t1) (hs1 t1) (ms2 t1) (hs2 t1) (ms3 t1) (hs3 t1) (ms4 t1) (hs4 t1) (ms5 t1) (hs5 t1) (ms6 t1) (hs6 t1) (ms7 t1) (hs7 t1) (ms8 t1) (hs8 t1) (ms9 t1) (hs9 t1) (ms10 t1) (hs10 t1) (ms11 t1) (hs11 t1) (ms12 t1) (hs12 t1) scH (Memref.isWhole_whole _) scE (Memref.isWhole_whole _) (hcCache1 t1 rfl) (hcCache2 t1 rfl) (hcCache3 t1 rfl) (hcCache4 t1 rfl) (hcCache5 t1 rfl) (iblk m c 0 t1) (iblk m c 1 t1) (iblk m c 2 t1) (iblk m c 3 t1) (iblk m c 4 t1) (iblk m c 5 t1) (iblk m c 6 t1) (iblk m c 7 t1) (iblk m c 8 t1) (iblk m c 9 t1) (iblk m c 10 t1) (hVal m c)).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [HSH]; · iexact HSH
  isplitl [HSE]; · iexact HSE
  iintro ⟨H0, H1, H2, H3, H4, H5, H6, H7, H8, H9, H10, ⟨%e12, H11⟩, ⟨%e13, H12⟩, HSH, HSE⟩
  isplitl [HSH HSE Hg]
  · isplitl [HSH HSE]
    · isplitl [HSH]
      · iexact HSH
      · iexists _; iexact HSE
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (coverCacheC c (grid0.coords t1) (ms0 t1) (hs0 t1) (ms1 t1) (hs1 t1) (ms2 t1) (hs2 t1) (ms3 t1) (hs3 t1) (ms4 t1) (hs4 t1) (ms5 t1) (hs5 t1) (ms6 t1) (hs6 t1) (ms7 t1) (hs7 t1) (ms8 t1) (hs8 t1) (ms9 t1) (hs9 t1) (ms10 t1) (hs10 t1) (ms11 t1) (hs11 t1) (ms12 t1) (hs12 t1) scH (Memref.isWhole_whole _) scE (Memref.isWhole_whole _) (hcCache1 t1 rfl) (hcCache2 t1 rfl) (hcCache3 t1 rfl) (hcCache4 t1 rfl) (hcCache5 t1 rfl) (iblk m c 0 t1) (iblk m c 1 t1) (iblk m c 2 t1) (iblk m c 3 t1) (iblk m c 4 t1) (iblk m c 5 t1) (iblk m c 6 t1) (iblk m c 7 t1) (iblk m c 8 t1) (iblk m c 9 t1) (iblk m c 10 t1) (hVal m c))
  unfold owns; iexists _; isplitr
  swap; · iexact H12
  ipureintro; exact View.read_writes_of_cover _ _ _ _ _ (coverCacheR c (grid0.coords t1) (ms0 t1) (hs0 t1) (ms1 t1) (hs1 t1) (ms2 t1) (hs2 t1) (ms3 t1) (hs3 t1) (ms4 t1) (hs4 t1) (ms5 t1) (hs5 t1) (ms6 t1) (hs6 t1) (ms7 t1) (hs7 t1) (ms8 t1) (hs8 t1) (ms9 t1) (hs9 t1) (ms10 t1) (hs10 t1) (ms11 t1) (hs11 t1) (ms12 t1) (hs12 t1) scH (Memref.isWhole_whole _) scE (Memref.isWhole_whole _) (hcCache1 t1 rfl) (hcCache2 t1 rfl) (hcCache3 t1 rfl) (hcCache4 t1 rfl) (hcCache5 t1 rfl) (iblk m c 0 t1) (iblk m c 1 t1) (iblk m c 2 t1) (iblk m c 3 t1) (iblk m c 4 t1) (iblk m c 5 t1) (iblk m c 6 t1) (iblk m c 7 t1) (iblk m c 8 t1) (iblk m c 9 t1) (iblk m c 10 t1) (hVal m c))

set_option maxHeartbeats 4000000 in
/-- The body at the third grid point: the product of the activations with the LAST block of the second head's weights is kept in the second scratch, then the point's streamed block is multiplied: the buffers it is handed are the run's, and what the run leaves is the next point's. -/
theorem soundTail (c : Dev nD)  :
    bodyPre m c t2 ⊢ wp frame (wpE (defs₀ (F := F)) Variants.none c none) Set.univ (bodyAt0 t2) (fun _ => bodyPost m c t2) := by
  unfold bodyPre bodyPost bodyAt0
  simp only [before_in0, before_in1, before_in2, before_in3, before_in4, before_in5, before_in6, before_in7, before_in8, before_in9, before_in10]
  rw [show (dats m 0 c).owesAt () (t2 : Fin cfg0.N).succ = (dats m 0 c).owesAt () (t2 : Fin cfg0.N).castSucc from rfl]
  rw [Phi_castSucc, Phi_succ]
  rw [PhiS_low m c t2.val (by decide) (by decide), PhiS_high m c (t2.val + 1) (by decide)]
  rw [leaves_in0, leaves_in1, leaves_in2, leaves_in3, leaves_in4, leaves_in5, leaves_in6, leaves_in7, leaves_in8, leaves_in9, leaves_in10, leaves11_idle m c t2 (by decide) (by decide), leaves12, recAt_tail m c t2 rfl]
  unfold outTailR eVal outTailE
  iintro ⟨⟨⟨HSH, HSE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runTail c (grid0.coords t2) (ms0 t2) (hs0 t2) (ms1 t2) (hs1 t2) (ms2 t2) (hs2 t2) (ms3 t2) (hs3 t2) (ms4 t2) (hs4 t2) (ms5 t2) (hs5 t2) (ms6 t2) (hs6 t2) (ms7 t2) (hs7 t2) (ms8 t2) (hs8 t2) (ms9 t2) (hs9 t2) (ms10 t2) (hs10 t2) (ms11 t2) (hs11 t2) (ms12 t2) (hs12 t2) scH (Memref.isWhole_whole _) scE (Memref.isWhole_whole _) (hcTail1 t2 rfl) (hcTail2 t2 rfl) (hcTail3 t2 rfl) (hcTail4 t2 rfl) (hcTail5 t2 rfl) (iblk m c 0 t2) (iblk m c 1 t2) (iblk m c 2 t2) (iblk m c 3 t2) (iblk m c 4 t2) (iblk m c 5 t2) (iblk m c 6 t2) (iblk m c 7 t2) (iblk m c 8 t2) (iblk m c 9 t2) (iblk m c 10 t2) (hVal m c)).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HSH]; · iexact HSH
  isplitl [HSE]; · iexact HSE
  iintro ⟨H0, H1, H2, H3, H4, H5, H6, H7, H8, H9, H10, H11, ⟨%e13, H12⟩, HSH, ⟨%e15, HSE⟩⟩
  isplitl [HSH HSE Hg]
  · isplitl [HSH HSE]
    · isplitl [HSH]
      · iexact HSH
      · unfold owns; iexists _; isplitr
        swap; · iexact HSE
        ipureintro; exact View.read_writes_of_cover _ _ _ _ _ (coverTailE c (grid0.coords t2) (ms0 t2) (hs0 t2) (ms1 t2) (hs1 t2) (ms2 t2) (hs2 t2) (ms3 t2) (hs3 t2) (ms4 t2) (hs4 t2) (ms5 t2) (hs5 t2) (ms6 t2) (hs6 t2) (ms7 t2) (hs7 t2) (ms8 t2) (hs8 t2) (ms9 t2) (hs9 t2) (ms10 t2) (hs10 t2) (ms11 t2) (hs11 t2) (ms12 t2) (hs12 t2) scH (Memref.isWhole_whole _) scE (Memref.isWhole_whole _) (hcTail1 t2 rfl) (hcTail2 t2 rfl) (hcTail3 t2 rfl) (hcTail4 t2 rfl) (hcTail5 t2 rfl) (iblk m c 0 t2) (iblk m c 1 t2) (iblk m c 2 t2) (iblk m c 3 t2) (iblk m c 4 t2) (iblk m c 5 t2) (iblk m c 6 t2) (iblk m c 7 t2) (iblk m c 8 t2) (iblk m c 9 t2) (iblk m c 10 t2) (hVal m c))
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; iexact H11
  unfold owns; iexists _; isplitr
  swap; · iexact H12
  ipureintro; exact View.read_writes_of_cover _ _ _ _ _ (coverTailR c (grid0.coords t2) (ms0 t2) (hs0 t2) (ms1 t2) (hs1 t2) (ms2 t2) (hs2 t2) (ms3 t2) (hs3 t2) (ms4 t2) (hs4 t2) (ms5 t2) (hs5 t2) (ms6 t2) (hs6 t2) (ms7 t2) (hs7 t2) (ms8 t2) (hs8 t2) (ms9 t2) (hs9 t2) (ms10 t2) (hs10 t2) (ms11 t2) (hs11 t2) (ms12 t2) (hs12 t2) scH (Memref.isWhole_whole _) scE (Memref.isWhole_whole _) (hcTail1 t2 rfl) (hcTail2 t2 rfl) (hcTail3 t2 rfl) (hcTail4 t2 rfl) (hcTail5 t2 rfl) (iblk m c 0 t2) (iblk m c 1 t2) (iblk m c 2 t2) (iblk m c 3 t2) (iblk m c 4 t2) (iblk m c 5 t2) (iblk m c 6 t2) (iblk m c 7 t2) (iblk m c 8 t2) (iblk m c 9 t2) (iblk m c 10 t2) (hVal m c))

set_option maxHeartbeats 4000000 in
/-- The body at a middle grid point: only the point's streamed block is multiplied: the buffers it is handed are the run's, and what the run leaves is the next point's. -/
theorem soundStream (c : Dev nD) (t : Fin cfg0.N) (h3 : 3 ≤ t.val) (h24 : t.val < 24) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8, before_in9, before_in10]
  rw [show (dats m 0 c).owesAt () (t : Fin cfg0.N).succ = (dats m 0 c).owesAt () (t : Fin cfg0.N).castSucc from rfl]
  rw [Phi_castSucc, Phi_succ]
  rw [PhiS_high m c t.val h3, PhiS_high m c (t.val + 1) (by omega)]
  rw [leaves_in0, leaves_in1, leaves_in2, leaves_in3, leaves_in4, leaves_in5, leaves_in6, leaves_in7, leaves_in8, leaves_in9, leaves_in10, leaves11_idle m c t (by omega) (by omega), leaves12, recAt_stream m c t h3 h24]
  unfold outStreamR
  iintro ⟨⟨⟨HSH, HSE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runStream c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scH (Memref.isWhole_whole _) scE (Memref.isWhole_whole _) (hcStream1 t h3 h24) (hcStream2 t h3 h24) (hcStream3 t h3 h24) (hcStream4 t h3 h24) (hcStream5 t h3 h24) (iblk m c 0 t) (iblk m c 1 t) (iblk m c 2 t) (iblk m c 3 t) (iblk m c 4 t) (iblk m c 5 t) (iblk m c 6 t) (iblk m c 7 t) (iblk m c 8 t) (iblk m c 9 t) (iblk m c 10 t) (hVal m c)).2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HSH]; · iexact HSH
  isplitl [HSE]; · iexact HSE
  iintro ⟨H0, H1, H2, H3, H4, H5, H6, H7, H8, H9, H10, H11, ⟨%e13, H12⟩, HSH, HSE⟩
  isplitl [HSH HSE Hg]
  · isplitl [HSH HSE]
    · isplitl [HSH]
      · iexact HSH
      · iexact HSE
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; iexact H11
  unfold owns; iexists _; isplitr
  swap; · iexact H12
  ipureintro; exact View.read_writes_of_cover _ _ _ _ _ (coverStreamR c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scH (Memref.isWhole_whole _) scE (Memref.isWhole_whole _) (hcStream1 t h3 h24) (hcStream2 t h3 h24) (hcStream3 t h3 h24) (hcStream4 t h3 h24) (hcStream5 t h3 h24) (iblk m c 0 t) (iblk m c 1 t) (iblk m c 2 t) (iblk m c 3 t) (iblk m c 4 t) (iblk m c 5 t) (iblk m c 6 t) (iblk m c 7 t) (iblk m c 8 t) (iblk m c 9 t) (iblk m c 10 t) (hVal m c))

set_option maxHeartbeats 4000000 in
/-- The body at the last grid point: the kept product plus the last block's bias is stored: the buffers it is handed are the run's, and what the run leaves is the next point's. -/
theorem soundLast (c : Dev nD)  :
    bodyPre m c t24 ⊢ wp frame (wpE (defs₀ (F := F)) Variants.none c none) Set.univ (bodyAt0 t24) (fun _ => bodyPost m c t24) := by
  unfold bodyPre bodyPost bodyAt0
  simp only [before_in0, before_in1, before_in2, before_in3, before_in4, before_in5, before_in6, before_in7, before_in8, before_in9, before_in10]
  simp only [before11 m c 24 (by decide) (by decide)]
  rw [show (dats m 0 c).owesAt () (t24 : Fin cfg0.N).succ = (dats m 0 c).owesAt () (t24 : Fin cfg0.N).castSucc from rfl]
  rw [Phi_castSucc, Phi_succ]
  rw [PhiS_high m c t24.val (by decide), PhiS_high m c (t24.val + 1) (by decide)]
  rw [leaves_in0, leaves_in1, leaves_in2, leaves_in3, leaves_in4, leaves_in5, leaves_in6, leaves_in7, leaves_in8, leaves_in9, leaves_in10, leaves11_last m c t24 rfl, leaves12, recAt_last m c t24 rfl]
  unfold outLastR
  iintro ⟨⟨⟨HSH, HSE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runLast c (grid0.coords t24) (ms0 t24) (hs0 t24) (ms1 t24) (hs1 t24) (ms2 t24) (hs2 t24) (ms3 t24) (hs3 t24) (ms4 t24) (hs4 t24) (ms5 t24) (hs5 t24) (ms6 t24) (hs6 t24) (ms7 t24) (hs7 t24) (ms8 t24) (hs8 t24) (ms9 t24) (hs9 t24) (ms10 t24) (hs10 t24) (ms11 t24) (hs11 t24) (ms12 t24) (hs12 t24) scH (Memref.isWhole_whole _) scE (Memref.isWhole_whole _) (hcLast1 t24 rfl) (hcLast2 t24 rfl) (hcLast3 t24 rfl) (hcLast4 t24 rfl) (hcLast5 t24 rfl) (iblk m c 0 t24) (iblk m c 1 t24) (iblk m c 2 t24) (iblk m c 3 t24) (iblk m c 4 t24) (iblk m c 5 t24) (iblk m c 6 t24) (iblk m c 7 t24) (iblk m c 8 t24) (iblk m c 9 t24) (iblk m c 10 t24) (eVal m c)).2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HSH]; · iexact HSH
  isplitl [HSE]; · iexact HSE
  iintro ⟨H0, H1, H2, H3, H4, H5, H6, H7, H8, H9, H10, H11, ⟨%e13, H12⟩, HSH, HSE⟩
  isplitl [HSH HSE Hg]
  · isplitl [HSH HSE]
    · isplitl [HSH]
      · iexact HSH
      · iexact HSE
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexact H11
  unfold owns; iexists _; isplitr
  swap; · iexact H12
  ipureintro; exact View.read_writes_of_cover _ _ _ _ _ (coverLastR c (grid0.coords t24) (ms0 t24) (hs0 t24) (ms1 t24) (hs1 t24) (ms2 t24) (hs2 t24) (ms3 t24) (hs3 t24) (ms4 t24) (hs4 t24) (ms5 t24) (hs5 t24) (ms6 t24) (hs6 t24) (ms7 t24) (hs7 t24) (ms8 t24) (hs8 t24) (ms9 t24) (hs9 t24) (ms10 t24) (hs10 t24) (ms11 t24) (hs11 t24) (ms12 t24) (hs12 t24) scH (Memref.isWhole_whole _) scE (Memref.isWhole_whole _) (hcLast1 t24 rfl) (hcLast2 t24 rfl) (hcLast3 t24 rfl) (hcLast4 t24 rfl) (hcLast5 t24 rfl) (iblk m c 0 t24) (iblk m c 1 t24) (iblk m c 2 t24) (iblk m c 3 t24) (iblk m c 4 t24) (iblk m c 5 t24) (iblk m c 6 t24) (iblk m c 7 t24) (iblk m c 8 t24) (iblk m c 9 t24) (iblk m c 10 t24) (eVal m c))

/-- The body at any point: the point is in one of the five cases. -/
theorem sound_body (c : Dev nD) (t : Fin cfg0.N) :
    bodyPre m c t ⊢ wp frame (wpE (defs₀ (F := F)) Variants.none c none) Set.univ (bodyAt0 t) (fun _ => bodyPost m c t) := by
  have hN := lt25 t
  by_cases h0 : t.val = 0
  · obtain rfl : t = t0 := Fin.ext h0
    exact soundTrunk m c
  by_cases h1 : t.val = 1
  · obtain rfl : t = t1 := Fin.ext h1
    exact soundCache m c
  by_cases h2 : t.val = 2
  · obtain rfl : t = t2 := Fin.ext h2
    exact soundTail m c
  by_cases h3 : t.val < 24
  · exact soundStream m c t (by omega) h3
  · obtain rfl : t = t24 := Fin.ext (by show t.val = 24; omega)
    exact soundLast m c

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiS_zero]
  try exact Idealize.SL.BI.Entails.refl _

/-- After the last point the invariant gives the scratch buffers back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_high m c _ (by rw [Fin.val_last, show cfg0.N = 25 from N_0]; omega), PhiA0_eq]
  iintro ⟨⟨HSH, HSE⟩, Hg⟩
  isplitr [Hg]
  · isplitl [HSH]
    · iexists _; iexact HSH
    · iexists _; iexact HSE
  iexact Hg

end Cert.Kernel.Mlp

end
-- ==== Proof.Kernel.GridLaunch.lean ====
/-
  The launch of the MLP program: the host re-lays the four bias vectors as rows, the kernel region runs its 25 grid
  points, the host re-lays the second head's 32 × 64000 result as 32 × 64 × 1000. Three of the region's windows read
  ONE array (the second head's weights), so that array is dealt among them in three shares; every other array is held
  whole. Every weakly fair execution terminates; each windowed array ends at what the write-backs of the proof data
  leave in it, the bias vectors end as launched, and the re-laid result is the host line's function of the streamed
  output's array.
-/
import proofs.«151329_g66365834658321_cont_9to1_m_1147_41_alg».proof.Proof.Kernel.GridBody

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry, dealt among the windows -/

/-- The distinct buffers behind the windows' arrays. -/
theorem arrSet_eq : Finset.univ.image (Pipeline.arrRef spec0)
    = ([main_arg0, main_arg1, main_v0, main_arg3, main_v1, main_arg5, main_v2, main_arg7, main_v3, main_v4_0, main_v4_1] : List (Ref sig .tc)).toFinset := by decide

/-- Those buffers at contents `Vv`, one by one. -/
theorem arrBufs_eq (c : Dev nD) (Vv : (b : Ref sig .tc) → Buf (Elt F) ((c.tc : Thread nD τ).loc b)) :
    (Pipeline.arrBufs spec0 c Vv : sProp 𝕄)
      = iprop((((c.tc : Thread nD τ).loc main_arg0) ↦{fullShare} Vv main_arg0) ∗ (((c.tc : Thread nD τ).loc main_arg1) ↦{fullShare} Vv main_arg1) ∗ (((c.tc : Thread nD τ).loc main_v0) ↦{fullShare} Vv main_v0) ∗ (((c.tc : Thread nD τ).loc main_arg3) ↦{fullShare} Vv main_arg3) ∗ (((c.tc : Thread nD τ).loc main_v1) ↦{fullShare} Vv main_v1) ∗ (((c.tc : Thread nD τ).loc main_arg5) ↦{fullShare} Vv main_arg5) ∗ (((c.tc : Thread nD τ).loc main_v2) ↦{fullShare} Vv main_v2) ∗ (((c.tc : Thread nD τ).loc main_arg7) ↦{fullShare} Vv main_arg7) ∗ (((c.tc : Thread nD τ).loc main_v3) ↦{fullShare} Vv main_v3) ∗ (((c.tc : Thread nD τ).loc main_v4_0) ↦{fullShare} Vv main_v4_0) ∗ (((c.tc : Thread nD τ).loc main_v4_1) ↦{fullShare} Vv main_v4_1)) :=
  bigSep_eq_bigSepL_of_eq [main_arg0, main_arg1, main_v0, main_arg3, main_v1, main_arg5, main_v2, main_arg7, main_v3, main_v4_0, main_v4_1] arrSet_eq (by decide) _

/-- A window's array is a whole buffer: a points-to over its view is the buffer's. -/
theorem arr_pt (c : Dev nD) (w : Fin 13) (q : PosShare TreeShare) (X : Buf (Elt F) ((cfg0.win w).arr.view.loc (c.tc : Thread nD τ))) :
    (((cfg0.win w).arr.view.loc (c.tc : Thread nD τ)) ↦[(cfg0.win w).arr.view.set]{q} X : sProp 𝕄)
      = (((c.tc : Thread nD τ).loc (Pipeline.arrRef spec0 w)) ↦{q} X) := by
  rw [Memref.IsWhole.set_eq_univ (show (cfg0.win w).arr.IsWhole from arr_whole0 w)]

/-- The share each window holds of its array: the three windows on the second head's weights a third share each, every
    other window its whole array. -/
theorem share0 (c : Dev nD) : (dats m 0 c).share 0 = fullShare := rfl
theorem share1 (c : Dev nD) : (dats m 0 c).share 1 = fullShare := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare.left := rfl
theorem share8 (c : Dev nD) : (dats m 0 c).share 8 = fullShare.right.left := rfl
theorem share9 (c : Dev nD) : (dats m 0 c).share 9 = fullShare.right.right := rfl
theorem share10 (c : Dev nD) : (dats m 0 c).share 10 = fullShare := rfl
theorem share11 (c : Dev nD) : (dats m 0 c).share 11 = fullShare := rfl
theorem share12 (c : Dev nD) : (dats m 0 c).share 12 = fullShare := rfl

set_option maxHeartbeats 4000000 in
/-- The buffers behind the arrays, each whole at its entry contents, are the proof data's arrays at entry. -/
theorem hsplit (c : Dev nD) : (Pipeline.arrBufs spec0 c (V m c) : sProp 𝕄) ⊢ (dats m 0 c).arrays ((dats m 0 c).arrAt · 0) := by
  unfold Dat.arrays
  rw [arrBufs_eq, bigSep_W0]
  rw [arr_pt c 0, share0 m c, arr_pt c 1, share1 m c, arr_pt c 2, share2 m c, arr_pt c 3, share3 m c, arr_pt c 4, share4 m c, arr_pt c 5, share5 m c, arr_pt c 6, share6 m c, arr_pt c 7, share7 m c, arr_pt c 8, share8 m c, arr_pt c 9, share9 m c, arr_pt c 10, share10 m c, arr_pt c 11, share11 m c, arr_pt c 12, share12 m c]
  dsimp only
  rw [show (dats m 0 c).arrAt 0 0 = V m c (Pipeline.arrRef spec0 0) from A_eq m c 0,
    show (dats m 0 c).arrAt 1 0 = V m c (Pipeline.arrRef spec0 1) from A_eq m c 1,
    show (dats m 0 c).arrAt 2 0 = V m c (Pipeline.arrRef spec0 2) from A_eq m c 2,
    show (dats m 0 c).arrAt 3 0 = V m c (Pipeline.arrRef spec0 3) from A_eq m c 3,
    show (dats m 0 c).arrAt 4 0 = V m c (Pipeline.arrRef spec0 4) from A_eq m c 4,
    show (dats m 0 c).arrAt 5 0 = V m c (Pipeline.arrRef spec0 5) from A_eq m c 5,
    show (dats m 0 c).arrAt 6 0 = V m c (Pipeline.arrRef spec0 6) from A_eq m c 6,
    show (dats m 0 c).arrAt 7 0 = V m c (Pipeline.arrRef spec0 7) from A_eq m c 7,
    show (dats m 0 c).arrAt 8 0 = V m c (Pipeline.arrRef spec0 8) from A_eq m c 8,
    show (dats m 0 c).arrAt 9 0 = V m c (Pipeline.arrRef spec0 9) from A_eq m c 9,
    show (dats m 0 c).arrAt 10 0 = V m c (Pipeline.arrRef spec0 10) from A_eq m c 10,
    show (dats m 0 c).arrAt 11 0 = V m c (Pipeline.arrRef spec0 11) from A_eq m c 11,
    show (dats m 0 c).arrAt 12 0 = V m c (Pipeline.arrRef spec0 12) from A_eq m c 12]
  iintro ⟨B0, B1, Bv0, B3, Bv1, B5, Bv2, B7, Bv3, Bo0, Bo1⟩
  ihave B7s := (pointsTo_share (PosShare.mem_left_op_right fullShare)).1 $$ B7
  icases B7s with ⟨B7a, B7r⟩
  ihave B7t := (pointsTo_share (PosShare.mem_left_op_right fullShare.right)).1 $$ B7r
  icases B7t with ⟨B7b, B7c⟩
  isplitl [B0]; · iexact B0
  isplitl [B1]; · iexact B1
  isplitl [Bv0]; · iexact Bv0
  isplitl [B3]; · iexact B3
  isplitl [Bv1]; · iexact Bv1
  isplitl [B5]; · iexact B5
  isplitl [Bv2]; · iexact Bv2
  isplitl [B7a]; · iexact B7a
  isplitl [B7b]; · iexact B7b
  isplitl [B7c]; · iexact B7c
  isplitl [Bv3]; · iexact Bv3
  isplitl [Bo0]; · iexact Bo0
  iexact Bo1

/-! ## The host line after the region -/

/-- The buffers the host line after the region runs within: the four bias vectors and the re-laid result, which bypass the
    region, and the streamed output's array. -/
abbrev tailL : List (DevRef τ sig) :=
  [Proc.devRef .tc main_arg2, Proc.devRef .tc main_arg4, Proc.devRef .tc main_arg6, Proc.devRef .tc main_arg8,
   Proc.devRef .tc main_v5, Proc.devRef .tc main_v4_1]

/-- The buffers' contents when the region is left: as the region found them, but the streamed output's array as the
    write-backs left it. -/
def Wout (c : Dev nD) : Valuation τ sig (Elt F) :=
  Function.update (V0 m c) (Proc.devRef .tc main_v4_1) ((dats m 0 c).arrAt 12 cfg0.N)

theorem Wout_out (c : Dev nD) : Wout m c (Proc.devRef .tc main_v4_1) = (dats m 0 c).arrAt 12 cfg0.N := by
  unfold Wout; exact Function.update_self _ _ _
theorem Wout_of_ne (c : Dev nD) (b : Ref sig .tc) (h : b ≠ main_v4_1) : Wout m c (Proc.devRef .tc b) = V m c b := by
  unfold Wout; exact Function.update_of_ne (fun e => h (Proc.devRef_injective _ e)) _ _

/-- What bypasses the region, as the region is entered, -/
abbrev Zin (c : Dev nD) : sProp 𝕄 :=
  Pipeline.unscopedRestP (Ix := Unit) (Name := ℕ) (U := UR sig nD τ) (Lvl := ℕ) Pipeline.Prefetch.none spec0 c (V m c)
/-- and after the host line that follows it. -/
abbrev Zout (c : Dev nD) : sProp 𝕄 :=
  Pipeline.unscopedRestP (Ix := Unit) (Name := ℕ) (U := UR sig nD τ) (Lvl := ℕ) Pipeline.Prefetch.none spec0 c
    (fun b => StableHlo.after hostOps1 (Wout m c) (Proc.devRef .tc b))

theorem tail_sub : ∀ ops ∈ ([hostOps1] : List (List (HloOp τ sig (Elt F)))), ∀ op ∈ ops, op.bufs ⊆ (tailL : List (DevRef τ sig)).toFinset := by
  intro ops hops op hop
  simp only [List.mem_cons, List.mem_nil_iff, or_false] at hops
  subst hops
  simp only [hostOps1, List.mem_cons, List.mem_nil_iff, or_false] at hop
  subst hop
  intro b hb
  simp only [StableHlo.reshape_bufs, Finset.mem_insert, Finset.mem_singleton] at hb
  rcases hb with rfl | rfl <;> simp [tailL]
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The host line writes only the re-laid result. -/
theorem after_keep (c : Dev nD) (W : Valuation τ sig (Elt F)) (b : Ref sig .tc) (h : b ≠ main_v5) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne h))

theorem after_rest (c : Dev nD) (b : Ref sig .tc) (h5 : b ≠ main_v5) (h4 : b ≠ main_v4_1) :
    StableHlo.after hostOps1 (Wout m c) (Proc.devRef .tc b) = V m c b :=
  (after_keep c (Wout m c) b h5).trans (Wout_of_ne m c b h4)
theorem after_out (c : Dev nD) :
    StableHlo.after hostOps1 (Wout m c) (Proc.devRef .tc main_v4_1) = (dats m 0 c).arrAt 12 cfg0.N :=
  (after_keep c (Wout m c) main_v4_1 (by decide)).trans (Wout_out m c)

theorem Wout_main_arg2 (c : Dev nD) : Wout m c (Proc.devRef .tc main_arg2) = V m c main_arg2 := Wout_of_ne m c main_arg2 (by decide)
theorem Wout_main_arg4 (c : Dev nD) : Wout m c (Proc.devRef .tc main_arg4) = V m c main_arg4 := Wout_of_ne m c main_arg4 (by decide)
theorem Wout_main_arg6 (c : Dev nD) : Wout m c (Proc.devRef .tc main_arg6) = V m c main_arg6 := Wout_of_ne m c main_arg6 (by decide)
theorem Wout_main_arg8 (c : Dev nD) : Wout m c (Proc.devRef .tc main_arg8) = V m c main_arg8 := Wout_of_ne m c main_arg8 (by decide)
theorem Wout_main_v5 (c : Dev nD) : Wout m c (Proc.devRef .tc main_v5) = V m c main_v5 := Wout_of_ne m c main_v5 (by decide)

/-- The six buffers held at a valuation, one by one. -/
theorem held_tail (c : Dev nD) (W : Valuation τ sig (Elt F)) :
    (StableHlo.held (c.tc : Thread nD τ) (tailL : List (DevRef τ sig)).toFinset W : sProp 𝕄)
      = iprop((((c.tc : Thread nD τ).loc main_arg2) ↦{fullShare} W (Proc.devRef .tc main_arg2)) ∗ (((c.tc : Thread nD τ).loc main_arg4) ↦{fullShare} W (Proc.devRef .tc main_arg4)) ∗ (((c.tc : Thread nD τ).loc main_arg6) ↦{fullShare} W (Proc.devRef .tc main_arg6)) ∗ (((c.tc : Thread nD τ).loc main_arg8) ↦{fullShare} W (Proc.devRef .tc main_arg8)) ∗ (((c.tc : Thread nD τ).loc main_v5) ↦{fullShare} W (Proc.devRef .tc main_v5)) ∗ (((c.tc : Thread nD τ).loc main_v4_1) ↦{fullShare} W (Proc.devRef .tc main_v4_1))) := by
  unfold StableHlo.held
  rw [bigSep_eq_bigSepL _ (by decide)]
  rfl

set_option backward.isDefEq.respectTransparency.types false in
/-- The host line after the region, run within the six buffers. -/
theorem tail_line (c : Dev nD) (K : PUnit → sProp 𝕄) :
    iprop(boundary (c.tc : Thread nD τ) ∗ (StableHlo.held (c.tc : Thread nD τ) (tailL : List (DevRef τ sig)).toFinset (Wout m c) : sProp 𝕄))
      ⊢ iprop((iprop(boundary (c.tc : Thread nD τ) ∗ (StableHlo.held (c.tc : Thread nD τ) (tailL : List (DevRef τ sig)).toFinset (StableHlo.after hostOps1 (Wout m c)) : sProp 𝕄)) -∗ K ⟨⟩)
        -∗ wp frame (wpE (Pipeline.defs (fun q => (cfgs q).toPCfg (Val := Elt F)) defs₀) (Variants.lift Variants.none) (c.tc : Thread nD τ) none) Set.univ
            (Pipeline.chain [StableHlo.seq hostOps1]) K) := by
  refine (Pipeline.wp_seqs_then (fun q => (cfgs q).toPCfg (Val := Elt F)) defs₀ Variants.none c (tailL : List (DevRef τ sig)).toFinset [] [hostOps1] tail_sub tail_fresh (Wout m c) (K := K)).trans ?_
  iintro H Hk
  iapply H
  iintro Hb
  rw [Pipeline.chain_nil, wp_pure]
  imodintro
  iapply Hk
  iexact Hb

set_option backward.isDefEq.respectTransparency.types false in
/-- From the region's exit — the arrays as written back, what bypassed the region — the host line runs, and hands the
    arrays back with the bypassing buffers at its results. -/
theorem htail (c : Dev nD) (Q' : PUnit → sProp 𝕄) :
    iprop((iprop((dats m 0 c).arrays ((dats m 0 c).arrAt · cfg0.N) ∗ Zout m c) -∗ Q' ⟨⟩)
        ∗ boundary (c.tc : Thread nD τ) ∗ (dats m 0 c).arrays ((dats m 0 c).arrAt · cfg0.N) ∗ Zin m c)
      ⊢ wp frame (wpE (Pipeline.defs (fun q => (cfgs q).toPCfg (Val := Elt F)) defs₀) (Variants.lift Variants.none) (c.tc : Thread nD τ) none) Set.univ
          (Pipeline.chain [StableHlo.seq hostOps1]) Q' := by
  unfold Dat.arrays Zin Zout
  rw [bigSep_W0, Pipeline.unscopedRestP_none, Pipeline.unscopedRestP_none, unscopedRest0_eq, unscopedRest0_eq]
  rw [arr_pt c 12, share12 m c]
  iintro ⟨Hk, Hb, ⟨A0, A1, A2, A3, A4, A5, A6, A7, A8, A9, A10, A11, A12⟩, ⟨R2, R4, R6, R8, R5⟩⟩
  iapply (tail_line m c Q') $$ [Hb R2 R4 R6 R8 R5 A12]
  · rw [held_tail]
    rw [Wout_out, Wout_main_arg2, Wout_main_arg4, Wout_main_arg6, Wout_main_arg8, Wout_main_v5]
    isplitl [Hb]; · iexact Hb
    isplitl [R2]; · iexact R2
    isplitl [R4]; · iexact R4
    isplitl [R6]; · iexact R6
    isplitl [R8]; · iexact R8
    isplitl [R5]; · iexact R5
    iexact A12
  rw [held_tail, after_out]
  iintro ⟨Hb, R2, R4, R6, R8, R5, A12⟩
  iapply Hk
  isplitl [A0 A1 A2 A3 A4 A5 A6 A7 A8 A9 A10 A11 A12]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    iexact A12
  isplitl [R2]; · iexact R2
  isplitl [R4]; · iexact R4
  isplitl [R6]; · iexact R6
  isplitl [R8]; · iexact R8
  iexact R5

/-! ## The run -/

/-- What every final state satisfies: each windowed array at what the proof data's write-backs leave in it, and every
    buffer that bypasses the region at the host line's result over the region's exit contents. -/
def RunPost (r : PUnit × MemSt nD τ sig (Elt F)) : Prop := ∀ c : Dev nD,
  (∀ w : Fin 13, r.2.mem (((cfg0.win w).arr.view.loc (c.tc : Thread nD τ))) = (dats m 0 c).arrAt w cfg0.N)
  ∧ ∀ b ∈ Pipeline.restRefsP sig Pipeline.Prefetch.none spec0,
      r.2.mem ((c.tc : Thread nD τ).loc b) = StableHlo.after hostOps1 (Wout m c) (Proc.devRef .tc b)

set_option backward.isDefEq.respectTransparency.types false in
set_option maxHeartbeats 4000000 in
/-- At the compiled mesh, from any memory with zero counters: every weakly fair execution of @main terminates in a state
    satisfying `RunPost`. -/
theorem run_main : θ_run defs (onTc (τ := τ) (main (F := F))) (s₀ m ρ) (RunPost m) := by
  classical
  exact Pipeline.θ_run_region_pf_tail (fun q => (cfgs q).toPCfg (Val := Elt F)) (fun q => (cfgs q).toPCfg_adm) (dats m) () cellOf_inj (0 : Fin 1) winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))
    (hu₀ := by
      iintro Hu; imodintro
      isplitl [Hu]; · iapply (show (ownU _ : sProp 𝕄) ⊢ BI.own (emb₁ (initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := Zin m) (Z' := Zout m)
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0,
      s.mem ((c.tc : Thread nD τ).loc b) = StableHlo.after hostOps1 (Wout m c) (Proc.devRef .tc b))
    (hY := fun c s' => by
      iintro ⟨-, HU, HSI⟩
      unfold Zout Pipeline.unscopedRestP
      imodintro
      iapply (pointsTo_read_all (Pipeline.restRefsP sig Pipeline.Prefetch.none spec0) (fun b => (c.tc : Thread nD τ).loc b)
        (fun b => StableHlo.after hostOps1 (Wout m c) (Proc.devRef .tc b)) s')
      isplitl [HU] <;> iassumption)
    (hQ := fun s h c => ⟨(h c).1, (h c).2.2⟩)

end Cert.Kernel.Mlp

end
-- ==== Proof.Kernel.GridFrame.lean ====
/-
  The frame of the MLP program: the nine argument arrays end as launched. Five of them are arrays of input windows,
  into which nothing is ever written back; the four bias vectors are read only by the host lines before the region
  and bypass the region and the host line after it.
-/
import proofs.«151329_g66365834658321_cont_9to1_m_1147_41_alg».proof.Proof.Kernel.GridLaunch

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host writes only the four bias rows before the region: any other array is found as launched. -/
theorem V_launched (c : Dev nD) (b : Ref sig .tc)
    (h : b ≠ main_v0 ∧ b ≠ main_v1 ∧ b ≠ main_v2 ∧ b ≠ main_v3) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    exact ⟨StableHlo.devRef_ne_of_ne h.1, StableHlo.devRef_ne_of_ne h.2.1, StableHlo.devRef_ne_of_ne h.2.2.1,
      StableHlo.devRef_ne_of_ne h.2.2.2⟩))

/-- An unscoped buffer that is no window's array bypasses the region. -/
theorem mem_rest (b : Ref sig .tc) (hs : b.isScoped = false) (ha : ∀ w, Pipeline.arrRef spec0 w ≠ b) :
    b ∈ Pipeline.restRefsP sig Pipeline.Prefetch.none spec0 := by
  unfold Pipeline.restRefsP
  exact Finset.mem_sdiff.mpr ⟨Pipeline.mem_restRefs_of b hs ha, fun h => by
    obtain ⟨k, -, -⟩ := Finset.mem_image.mp h; exact k.elim0⟩

/-- An input window's array is never written back into: it ends as the region found it, which is as launched. -/
theorem kept_in (c : Dev nD) (r : PUnit × MemSt nD τ sig (Elt F)) (h : RunPost m r) (w : Fin 13) (hw : (cfg0.win w).isOut = false)
    (b : Ref sig .tc) (hb : Pipeline.arrRef spec0 w = b)
    (hv : b ≠ main_v0 ∧ b ≠ main_v1 ∧ b ≠ main_v2 ∧ b ≠ main_v3) :
    r.2.mem ((c.tc : Thread nD τ).loc b) = m ((c.tc : Thread nD τ).loc b) := by
  subst hb
  exact (((h c).1 w).trans (((dats m 0 c).arrAt_in w hw _).trans (A_eq m c w))).trans (V_launched m c _ hv)

/-- A bias vector bypasses the region and the host line after it: it ends as launched. -/
theorem kept_rest (c : Dev nD) (r : PUnit × MemSt nD τ sig (Elt F)) (h : RunPost m r) (b : Ref sig .tc) (hs : b.isScoped = false)
    (ha : ∀ w, Pipeline.arrRef spec0 w ≠ b) (h5 : b ≠ main_v5) (h4 : b ≠ main_v4_1)
    (hv : b ≠ main_v0 ∧ b ≠ main_v1 ∧ b ≠ main_v2 ∧ b ≠ main_v3) :
    r.2.mem ((c.tc : Thread nD τ).loc b) = m ((c.tc : Thread nD τ).loc b) :=
  (((h c).2 b (mem_rest b hs ha)).trans (after_rest m c b h5 h4)).trans (V_launched m c b hv)

/-- THE FRAME: every weakly fair execution terminates, and the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
      kept_in m c r h 0 rfl main_arg0 rfl (by decide),
      kept_in m c r h 1 rfl main_arg1 rfl (by decide),
      kept_rest m c r h main_arg2 (by decide) (by decide) (by decide) (by decide) (by decide),
      kept_in m c r h 3 rfl main_arg3 rfl (by decide),
      kept_rest m c r h main_arg4 (by decide) (by decide) (by decide) (by decide) (by decide),
      kept_in m c r h 5 rfl main_arg5 rfl (by decide),
      kept_rest m c r h main_arg6 (by decide) (by decide) (by decide) (by decide) (by decide),
      kept_in m c r h 7 rfl main_arg7 rfl (by decide),
      kept_rest m c r h main_arg8 (by decide) (by decide) (by decide) (by decide) (by decide)⟩)
    (run_main m ρ)

end Cert.Kernel.Mlp

end
-- ==== Proof.KernelIdeal.PointDefs.lean ====
/-
  What every grid point of the MLP kernel shares: the arrays as the region finds them (the four bias vectors
  re-laid as rows by the host before it), each window's block at a point, the five branch conditions of the body in
  closed form over the 25 points (the trunk at point 0, the cache head at point 1, the last block's product at
  point 2, the streamed blocks at points 0..23, the copy of the kept product at point 24), where the two output
  windows are idle, and the staging and scratch memrefs the body is called with.
-/
import proofs.«151329_g66365834658321_cont_9to1_m_1147_41_alg».proof.Proof.Gen.KernelIdeal.Launch
import proofs.«151329_g66365834658321_cont_9to1_m_1147_41_alg».proof.Proof.Gen.KernelIdeal.Skeleton
import proofs.«151329_g66365834658321_cont_9to1_m_1147_41_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffer contents after the host operations before the region (the biases re-laid as rows). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the one host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not. -/
theorem before_in8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not. -/
theorem before_in9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, fetched there or not. -/
theorem before_in10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, in closed form over the grid -/

/-- The trunk runs where the grid coordinate is 0. -/
abbrev condTrunk (i : grid0.Coords) : Prop := (Scalar.cmpi .ne (Scalar.extui (Scalar.cmpi .eq (BitVec.ofNat 32 (i 0).val) 0#32)) 0#32) = 1#1
theorem hcondTrunk : ∀ t : Fin cfg0.N, condTrunk (grid0.coords t) ↔ t.val = 0 :=
  (by decide +kernel : ∀ t : Fin grid0.N, condTrunk (grid0.coords t) ↔ t.val = 0)
/-- The cache head runs where it is 1. -/
abbrev condCache (i : grid0.Coords) : Prop := k0_cond2 i = 1#1
theorem hcondCache : ∀ t : Fin cfg0.N, condCache (grid0.coords t) ↔ t.val = 1 :=
  (by decide +kernel : ∀ t : Fin grid0.N, condCache (grid0.coords t) ↔ t.val = 1)
/-- The last block's product is taken where it is 2. -/
abbrev condTail (i : grid0.Coords) : Prop := (Scalar.cmpi .ne (Scalar.extui (Scalar.cmpi .eq (BitVec.ofNat 32 (i 0).val) 2#32)) 0#32) = 1#1
theorem hcondTail : ∀ t : Fin cfg0.N, condTail (grid0.coords t) ↔ t.val = 2 :=
  (by decide +kernel : ∀ t : Fin grid0.N, condTail (grid0.coords t) ↔ t.val = 2)
/-- A streamed block is multiplied where it is below 24. -/
abbrev condStream (i : grid0.Coords) : Prop := k0_cond4 i = 1#1
theorem hcondStream : ∀ t : Fin cfg0.N, condStream (grid0.coords t) ↔ t.val < 24 :=
  (by decide +kernel : ∀ t : Fin grid0.N, condStream (grid0.coords t) ↔ t.val < 24)
/-- The kept product is copied out where it is 24. -/
abbrev condLast (i : grid0.Coords) : Prop := k0_cond5 i = 1#1
theorem hcondLast : ∀ t : Fin cfg0.N, condLast (grid0.coords t) ↔ t.val = 24 :=
  (by decide +kernel : ∀ t : Fin grid0.N, condLast (grid0.coords t) ↔ t.val = 24)

/-! ## Where the output windows are idle -/

/-- The cache window is stored at point 1 only. -/
theorem idle11 : ∀ t : Fin cfg0.N, cfg0.idle 11 (grid0.coords t) = !decide (t.val = 1) := by decide +kernel
/-- It is written back at the last point only. -/
theorem flush11 : ∀ t : Fin cfg0.N, (cfg0.win 11).flush t = decide (t.val = 24) := by decide +kernel
/-- The streamed output window is stored at every point, -/
theorem live12 : ∀ t : Fin cfg0.N, cfg0.idle 12 (grid0.coords t) = false := by decide +kernel
/-- and written back at every point. -/
theorem flush12 : ∀ t : Fin cfg0.N, (cfg0.win 12).flush t = true := by decide +kernel

/-! ## The memrefs the body is called with -/

abbrev ms0 (t : Fin cfg0.N) : Memref sig .tc .vmem S32x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1000x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1000 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1280x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1280x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S2560x1024 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x2560 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S32x1000 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S32x2560 .f32 := win0_12.stage (cfg0.slots t 12)
abbrev hs12 (t : Fin cfg0.N) : (ms12 t).IsWhole := hstage0_12 ((cfg0.slots t 12).cast nbuf0_12)
/-- The scratch that keeps the trunk's activations, and the one that keeps the last block's product. -/
abbrev scH : Memref sig .tc .vmem S32x1024 .f32 := Memref.whole cc0_scratch0
abbrev scE : Memref sig .tc .vmem S32x2560 .f32 := Memref.whole cc0_scratch1

/-- The region's invariant before the first point: both scratch buffers at some contents, the generator register at
    some state. -/
theorem PhiA0_eq (c : Dev nD) :
    (Pipeline.ΦA spec0 c : sProp 𝕄)
      = iprop(iprop((∃ d, owns (c : Thread nD τ) scH fullShare d) ∗ (∃ d, owns (c : Thread nD τ) scE fullShare d)) ∗ (∃ r, prngReg c r)) := by
  unfold Pipeline.ΦA; rw [scopedRest0_eq]; simp only [scH, scE, owns_whole]; try rfl

end Cert.KernelIdeal.Mlp

end
-- ==== Proof.KernelIdeal.PointStream.lean ====
/-
  The body of the MLP kernel at a middle grid point: only the point's streamed block is multiplied.
-/
import proofs.«151329_g66365834658321_cont_9to1_m_1147_41_alg».proof.Proof.KernelIdeal.PointDefs

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a middle grid point: only the point's streamed block is multiplied. On whole staging memrefs — the inputs' at their contents, a buffer the point
    does not touch at contents handed back as they were, a buffer it stores into at anything — the body runs to the
    continuation with the pieces its stores wrote (last first) in each buffer it stored into; the pieces are found by
    running the body. -/
noncomputable def runStream (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : ¬condTail i) (hc4 : condStream i) (hc5 : ¬condLast i)
    (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) :
    { L13 : List (View.Piece (Elt F) S32x2560 .f32) //
      ∀ (xi12 : Vec F S32x1000 .f32) (xi15 : Vec F S32x2560 .f32) (E : Set ℕ) (K : PUnit → sProp 𝕄),
        iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare xi12
            ∗ (∃ d, owns (c : Thread nD τ) arg13 fullShare d)
            ∗ owns (c : Thread nD τ) arg14 fullShare xs14
            ∗ owns (c : Thread nD τ) arg15 fullShare xi15
            ∗ (iprop(owns (c : Thread nD τ) arg1 fullShare x1
              ∗ owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ owns (c : Thread nD τ) arg11 fullShare x11
              ∗ owns (c : Thread nD τ) arg12 fullShare xi12
              ∗ (∃ f, arg13.view.loc (c : Thread nD τ) ↦[arg13.view.set]{fullShare} arg13.view.writes (Elt F) f L13)
              ∗ owns (c : Thread nD τ) arg14 fullShare xs14
              ∗ owns (c : Thread nD τ) arg15 fullShare xi15) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun xi12 xi15 E K => ?run⟩
  case run =>
    simp only [cc0__body_eq_skeleton]; unfold cc0__body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, Hcont⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg14.eq_unread hf14; obtain rfl := harg15.eq_unread hf15
    sl_exec (disch := first | exact hc1 | exact hc2 | exact hc3 | exact hc4 | exact hc5)
    sl_step
    iapply Hcont
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; iexact H13
    isplitl [H14]
    · iexists _; isplitr; · ipureintro; exact harg14.read_unread _
      iexact H14
    iexists _; isplitr; · ipureintro; exact harg15.read_unread _
    iexact H15

end Cert.KernelIdeal.Mlp

end
-- ==== Proof.KernelIdeal.PointLast.lean ====
/-
  The body of the MLP kernel at the last grid point: the kept product plus the last block's bias is stored.
-/
import proofs.«151329_g66365834658321_cont_9to1_m_1147_41_alg».proof.Proof.KernelIdeal.PointStream

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the last grid point: the kept product plus the last block's bias is stored. On whole staging memrefs — the inputs' at their contents, a buffer the point
    does not touch at contents handed back as they were, a buffer it stores into at anything — the body runs to the
    continuation with the pieces its stores wrote (last first) in each buffer it stored into; the pieces are found by
    running the body. -/
noncomputable def runLast (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : ¬condTail i) (hc4 : ¬condStream i) (hc5 : condLast i)
    (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs15 : Vec F S32x2560 .f32) :
    { L13 : List (View.Piece (Elt F) S32x2560 .f32) //
      ∀ (xi12 : Vec F S32x1000 .f32) (xi14 : Vec F S32x1024 .f32) (E : Set ℕ) (K : PUnit → sProp 𝕄),
        iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare xi12
            ∗ (∃ d, owns (c : Thread nD τ) arg13 fullShare d)
            ∗ owns (c : Thread nD τ) arg14 fullShare xi14
            ∗ owns (c : Thread nD τ) arg15 fullShare xs15
            ∗ (iprop(owns (c : Thread nD τ) arg1 fullShare x1
              ∗ owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ owns (c : Thread nD τ) arg11 fullShare x11
              ∗ owns (c : Thread nD τ) arg12 fullShare xi12
              ∗ (∃ f, arg13.view.loc (c : Thread nD τ) ↦[arg13.view.set]{fullShare} arg13.view.writes (Elt F) f L13)
              ∗ owns (c : Thread nD τ) arg14 fullShare xi14
              ∗ owns (c : Thread nD τ) arg15 fullShare xs15) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun xi12 xi14 E K => ?run⟩
  case run =>
    simp only [cc0__body_eq_skeleton]; unfold cc0__body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, Hcont⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg14.eq_unread hf14; obtain rfl := harg15.eq_unread hf15
    sl_exec (disch := first | exact hc1 | exact hc2 | exact hc3 | exact hc4 | exact hc5)
    sl_step
    iapply Hcont
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; iexact H13
    isplitl [H14]
    · iexists _; isplitr; · ipureintro; exact harg14.read_unread _
      iexact H14
    iexists _; isplitr; · ipureintro; exact harg15.read_unread _
    iexact H15

end Cert.KernelIdeal.Mlp

end
-- ==== Proof.KernelIdeal.PointTail.lean ====
/-
  The body of the MLP kernel at the third grid point: the product of the activations with the LAST block of the second head's weights is kept in the second scratch, then the point's streamed block is multiplied.
-/
import proofs.«151329_g66365834658321_cont_9to1_m_1147_41_alg».proof.Proof.KernelIdeal.PointLast

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the third grid point: the product of the activations with the LAST block of the second head's weights is kept in the second scratch, then the point's streamed block is multiplied. On whole staging memrefs — the inputs' at their contents, a buffer the point
    does not touch at contents handed back as they were, a buffer it stores into at anything — the body runs to the
    continuation with the pieces its stores wrote (last first) in each buffer it stored into; the pieces are found by
    running the body. -/
noncomputable def runTail (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : condTail i) (hc4 : condStream i) (hc5 : ¬condLast i)
    (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) :
    Σ' (L13 : List (View.Piece (Elt F) S32x2560 .f32)), { L15 : List (View.Piece (Elt F) S32x2560 .f32) //
      ∀ (xi12 : Vec F S32x1000 .f32) (E : Set ℕ) (K : PUnit → sProp 𝕄),
        iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare xi12
            ∗ (∃ d, owns (c : Thread nD τ) arg13 fullShare d)
            ∗ owns (c : Thread nD τ) arg14 fullShare xs14
            ∗ (∃ d, owns (c : Thread nD τ) arg15 fullShare d)
            ∗ (iprop(owns (c : Thread nD τ) arg1 fullShare x1
              ∗ owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ owns (c : Thread nD τ) arg11 fullShare x11
              ∗ owns (c : Thread nD τ) arg12 fullShare xi12
              ∗ (∃ f, arg13.view.loc (c : Thread nD τ) ↦[arg13.view.set]{fullShare} arg13.view.writes (Elt F) f L13)
              ∗ owns (c : Thread nD τ) arg14 fullShare xs14
              ∗ (∃ f, arg15.view.loc (c : Thread nD τ) ↦[arg15.view.set]{fullShare} arg15.view.writes (Elt F) f L15)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi12 E K => ?run⟩
  case run =>
    simp only [cc0__body_eq_skeleton]; unfold cc0__body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%d15, %f15, -, H15⟩, Hcont⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg14.eq_unread hf14
    sl_exec (disch := first | exact hc1 | exact hc2 | exact hc3 | exact hc4 | exact hc5)
    sl_step
    iapply Hcont
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; iexact H13
    isplitl [H14]
    · iexists _; isplitr; · ipureintro; exact harg14.read_unread _
      iexact H14
    iexists _; iexact H15

end Cert.KernelIdeal.Mlp

end
-- ==== Proof.KernelIdeal.PointCache.lean ====
/-
  The body of the MLP kernel at the second grid point: the first head is computed from the kept activations, then the point's streamed block is multiplied.
-/
import proofs.«151329_g66365834658321_cont_9to1_m_1147_41_alg».proof.Proof.KernelIdeal.PointTail

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the second grid point: the first head is computed from the kept activations, then the point's streamed block is multiplied. On whole staging memrefs — the inputs' at their contents, a buffer the point
    does not touch at contents handed back as they were, a buffer it stores into at anything — the body runs to the
    continuation with the pieces its stores wrote (last first) in each buffer it stored into; the pieces are found by
    running the body. -/
noncomputable def runCache (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : condCache i) (hc3 : ¬condTail i) (hc4 : condStream i) (hc5 : ¬condLast i)
    (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) :
    Σ' (L12 : List (View.Piece (Elt F) S32x1000 .f32)), { L13 : List (View.Piece (Elt F) S32x2560 .f32) //
      ∀ (xi15 : Vec F S32x2560 .f32) (E : Set ℕ) (K : PUnit → sProp 𝕄),
        iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ (∃ d, owns (c : Thread nD τ) arg12 fullShare d)
            ∗ (∃ d, owns (c : Thread nD τ) arg13 fullShare d)
            ∗ owns (c : Thread nD τ) arg14 fullShare xs14
            ∗ owns (c : Thread nD τ) arg15 fullShare xi15
            ∗ (iprop(owns (c : Thread nD τ) arg1 fullShare x1
              ∗ owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ owns (c : Thread nD τ) arg11 fullShare x11
              ∗ (∃ f, arg12.view.loc (c : Thread nD τ) ↦[arg12.view.set]{fullShare} arg12.view.writes (Elt F) f L12)
              ∗ (∃ f, arg13.view.loc (c : Thread nD τ) ↦[arg13.view.set]{fullShare} arg13.view.writes (Elt F) f L13)
              ∗ owns (c : Thread nD τ) arg14 fullShare xs14
              ∗ owns (c : Thread nD τ) arg15 fullShare xi15) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi15 E K => ?run⟩
  case run =>
    simp only [cc0__body_eq_skeleton]; unfold cc0__body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, Hcont⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg14.eq_unread hf14; obtain rfl := harg15.eq_unread hf15
    sl_exec (disch := first | exact hc1 | exact hc2 | exact hc3 | exact hc4 | exact hc5)
    sl_step
    iapply Hcont
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; iexact H12
    isplitl [H13]
    · iexists _; iexact H13
    isplitl [H14]
    · iexists _; isplitr; · ipureintro; exact harg14.read_unread _
      iexact H14
    iexists _; isplitr; · ipureintro; exact harg15.read_unread _
    iexact H15

end Cert.KernelIdeal.Mlp

end
-- ==== Proof.KernelIdeal.PointTrunk.lean ====
/-
  The body of the MLP kernel at the first grid point: the trunk's two layers are computed into the activation scratch, then the point's streamed block of the second head is multiplied.
-/
import proofs.«151329_g66365834658321_cont_9to1_m_1147_41_alg».proof.Proof.KernelIdeal.PointCache

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first grid point: the trunk's two layers are computed into the activation scratch, then the point's streamed block of the second head is multiplied. On whole staging memrefs — the inputs' at their contents, a buffer the point
    does not touch at contents handed back as they were, a buffer it stores into at anything — the body runs to the
    continuation with the pieces its stores wrote (last first) in each buffer it stored into; the pieces are found by
    running the body. -/
noncomputable def runTrunk (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : condTrunk i) (hc2 : ¬condCache i) (hc3 : ¬condTail i) (hc4 : condStream i) (hc5 : ¬condLast i)
    (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) :
    Σ' (L13 : List (View.Piece (Elt F) S32x2560 .f32)), { L14 : List (View.Piece (Elt F) S32x1024 .f32) //
      ∀ (xi12 : Vec F S32x1000 .f32) (xi15 : Vec F S32x2560 .f32) (E : Set ℕ) (K : PUnit → sProp 𝕄),
        iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare xi12
            ∗ (∃ d, owns (c : Thread nD τ) arg13 fullShare d)
            ∗ (∃ d, owns (c : Thread nD τ) arg14 fullShare d)
            ∗ owns (c : Thread nD τ) arg15 fullShare xi15
            ∗ (iprop(owns (c : Thread nD τ) arg1 fullShare x1
              ∗ owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ owns (c : Thread nD τ) arg11 fullShare x11
              ∗ owns (c : Thread nD τ) arg12 fullShare xi12
              ∗ (∃ f, arg13.view.loc (c : Thread nD τ) ↦[arg13.view.set]{fullShare} arg13.view.writes (Elt F) f L13)
              ∗ (∃ f, arg14.view.loc (c : Thread nD τ) ↦[arg14.view.set]{fullShare} arg14.view.writes (Elt F) f L14)
              ∗ owns (c : Thread nD τ) arg15 fullShare xi15) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi12 xi15 E K => ?run⟩
  case run =>
    simp only [cc0__body_eq_skeleton]; unfold cc0__body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, Hcont⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg15.eq_unread hf15
    sl_exec (disch := first | exact hc1 | exact hc2 | exact hc3 | exact hc4 | exact hc5)
    sl_step
    iapply Hcont
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; iexact H13
    isplitl [H14]
    · iexists _; iexact H14
    iexists _; isplitr; · ipureintro; exact harg15.read_unread _
    iexact H15

end Cert.KernelIdeal.Mlp

end
-- ==== Proof.KernelIdeal.GridValues.lean ====
/-
  What the MLP kernel's buffers hold point by point. The pieces each point's stores leave in a buffer cover it, so the
  buffer's contents after the point are those pieces read back; the trunk's activations (kept in the first scratch from
  point 0 on), the first head (kept in its output window's buffer from point 1 on) and the last block's product (kept in
  the second scratch from point 2 on) are the values three of the points leave; the streamed output window's block
  after point t is what that point's case stores. From these: the region's invariant between points and the proof data
  of the pipeline.
-/
import proofs.«151329_g66365834658321_cont_9to1_m_1147_41_alg».proof.Proof.KernelIdeal.PointTrunk

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The views the contents are stated through -/

abbrev VC : View sig .tc .vmem S32x1000 .f32 := (Memref.whole cc0_stg11_0 : Memref sig .tc .vmem S32x1000 .f32).view
abbrev VR : View sig .tc .vmem S32x2560 .f32 := (Memref.whole cc0_stg12_0 : Memref sig .tc .vmem S32x2560 .f32).view
abbrev VH : View sig .tc .vmem S32x1024 .f32 := scH.view
abbrev VE : View sig .tc .vmem S32x2560 .f32 := scE.view

/-! ## Per case: the pieces cover the buffer, and what they leave in it -/

/-- The pieces of this case's stores into the buffer tile it, so they cover it. -/
theorem coverTrunkR (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : condTrunk i) (hc2 : ¬condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (y : S32x2560.Idx) :
    ∃ pc ∈ (runTrunk c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11).1, y ∈ pc.1.set :=
  View.cover_of_tiledL (runTrunk c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11).1 S32x1280.size (by sl_kernel_rfl) y

/-- What this case leaves in the buffer: its pieces read back. -/
def outTrunkR (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : condTrunk i) (hc2 : ¬condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) : Vec F S32x2560 .f32 :=
  VR.read (Elt F) (VR.writes (Elt F) VR.junk (runTrunk c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11).1)

/-- The pieces of this case's stores into the buffer tile it, so they cover it. -/
theorem coverTrunkH (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : condTrunk i) (hc2 : ¬condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (y : S32x1024.Idx) :
    ∃ pc ∈ (runTrunk c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11).2.1, y ∈ pc.1.set :=
  View.cover_of_tiledL (runTrunk c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11).2.1 S32x1024.size (by sl_kernel_rfl) y

/-- What this case leaves in the buffer: its pieces read back. -/
def outTrunkH (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : condTrunk i) (hc2 : ¬condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) : Vec F S32x1024 .f32 :=
  VH.read (Elt F) (VH.writes (Elt F) VH.junk (runTrunk c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11).2.1)

/-- The pieces of this case's stores into the buffer tile it, so they cover it. -/
theorem coverCacheC (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) (y : S32x1000.Idx) :
    ∃ pc ∈ (runCache c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).1, y ∈ pc.1.set :=
  View.cover_of_tiledL (runCache c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).1 S32x1000.size (by sl_kernel_rfl) y

/-- What this case leaves in the buffer: its pieces read back. -/
def outCacheC (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) : Vec F S32x1000 .f32 :=
  VC.read (Elt F) (VC.writes (Elt F) VC.junk (runCache c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).1)

/-- The pieces of this case's stores into the buffer tile it, so they cover it. -/
theorem coverCacheR (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) (y : S32x2560.Idx) :
    ∃ pc ∈ (runCache c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).2.1, y ∈ pc.1.set :=
  View.cover_of_tiledL (runCache c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).2.1 S32x1280.size (by sl_kernel_rfl) y

/-- What this case leaves in the buffer: its pieces read back. -/
def outCacheR (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) : Vec F S32x2560 .f32 :=
  VR.read (Elt F) (VR.writes (Elt F) VR.junk (runCache c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).2.1)

/-- The pieces of this case's stores into the buffer tile it, so they cover it. -/
theorem coverTailR (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) (y : S32x2560.Idx) :
    ∃ pc ∈ (runTail c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).1, y ∈ pc.1.set :=
  View.cover_of_tiledL (runTail c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).1 S32x1280.size (by sl_kernel_rfl) y

/-- What this case leaves in the buffer: its pieces read back. -/
def outTailR (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) : Vec F S32x2560 .f32 :=
  VR.read (Elt F) (VR.writes (Elt F) VR.junk (runTail c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).1)

/-- The pieces of this case's stores into the buffer tile it, so they cover it. -/
theorem coverTailE (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) (y : S32x2560.Idx) :
    ∃ pc ∈ (runTail c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).2.1, y ∈ pc.1.set :=
  View.cover_of_tiledL (runTail c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).2.1 S32x2560.size (by sl_kernel_rfl) y

/-- What this case leaves in the buffer: its pieces read back. -/
def outTailE (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) : Vec F S32x2560 .f32 :=
  VE.read (Elt F) (VE.writes (Elt F) VE.junk (runTail c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).2.1)

/-- The pieces of this case's stores into the buffer tile it, so they cover it. -/
theorem coverStreamR (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) (y : S32x2560.Idx) :
    ∃ pc ∈ (runStream c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).1, y ∈ pc.1.set :=
  View.cover_of_tiledL (runStream c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).1 S32x1280.size (by sl_kernel_rfl) y

/-- What this case leaves in the buffer: its pieces read back. -/
def outStreamR (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) : Vec F S32x2560 .f32 :=
  VR.read (Elt F) (VR.writes (Elt F) VR.junk (runStream c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14).1)

/-- The pieces of this case's stores into the buffer tile it, so they cover it. -/
theorem coverLastR (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : ¬condTail i) (hc4 : ¬condStream i) (hc5 : condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs15 : Vec F S32x2560 .f32) (y : S32x2560.Idx) :
    ∃ pc ∈ (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs15).1, y ∈ pc.1.set :=
  View.cover_of_tiledL (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs15).1 S32x2560.size (by sl_kernel_rfl) y

/-- What this case leaves in the buffer: its pieces read back. -/
def outLastR (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : ¬condTail i) (hc4 : ¬condStream i) (hc5 : condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs15 : Vec F S32x2560 .f32) : Vec F S32x2560 .f32 :=
  VR.read (Elt F) (VR.writes (Elt F) VR.junk (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs15).1)

/-! ## The conditions at a point of each case -/
theorem hcTrunk1 (t : Fin cfg0.N) (h : t.val = 0) : condTrunk (grid0.coords t) :=
  (hcondTrunk t).mpr (by have := h; omega)
theorem hcTrunk2 (t : Fin cfg0.N) (h : t.val = 0) : ¬condCache (grid0.coords t) :=
  fun hh => by have := (hcondCache t).mp hh; have := h; omega
theorem hcTrunk3 (t : Fin cfg0.N) (h : t.val = 0) : ¬condTail (grid0.coords t) :=
  fun hh => by have := (hcondTail t).mp hh; have := h; omega
theorem hcTrunk4 (t : Fin cfg0.N) (h : t.val = 0) : condStream (grid0.coords t) :=
  (hcondStream t).mpr (by have := h; omega)
theorem hcTrunk5 (t : Fin cfg0.N) (h : t.val = 0) : ¬condLast (grid0.coords t) :=
  fun hh => by have := (hcondLast t).mp hh; have := h; omega
theorem hcCache1 (t : Fin cfg0.N) (h : t.val = 1) : ¬condTrunk (grid0.coords t) :=
  fun hh => by have := (hcondTrunk t).mp hh; have := h; omega
theorem hcCache2 (t : Fin cfg0.N) (h : t.val = 1) : condCache (grid0.coords t) :=
  (hcondCache t).mpr (by have := h; omega)
theorem hcCache3 (t : Fin cfg0.N) (h : t.val = 1) : ¬condTail (grid0.coords t) :=
  fun hh => by have := (hcondTail t).mp hh; have := h; omega
theorem hcCache4 (t : Fin cfg0.N) (h : t.val = 1) : condStream (grid0.coords t) :=
  (hcondStream t).mpr (by have := h; omega)
theorem hcCache5 (t : Fin cfg0.N) (h : t.val = 1) : ¬condLast (grid0.coords t) :=
  fun hh => by have := (hcondLast t).mp hh; have := h; omega
theorem hcTail1 (t : Fin cfg0.N) (h : t.val = 2) : ¬condTrunk (grid0.coords t) :=
  fun hh => by have := (hcondTrunk t).mp hh; have := h; omega
theorem hcTail2 (t : Fin cfg0.N) (h : t.val = 2) : ¬condCache (grid0.coords t) :=
  fun hh => by have := (hcondCache t).mp hh; have := h; omega
theorem hcTail3 (t : Fin cfg0.N) (h : t.val = 2) : condTail (grid0.coords t) :=
  (hcondTail t).mpr (by have := h; omega)
theorem hcTail4 (t : Fin cfg0.N) (h : t.val = 2) : condStream (grid0.coords t) :=
  (hcondStream t).mpr (by have := h; omega)
theorem hcTail5 (t : Fin cfg0.N) (h : t.val = 2) : ¬condLast (grid0.coords t) :=
  fun hh => by have := (hcondLast t).mp hh; have := h; omega
theorem hcStream1 (t : Fin cfg0.N) (h3 : 3 ≤ t.val) (h24 : t.val < 24) : ¬condTrunk (grid0.coords t) :=
  fun hh => by have := (hcondTrunk t).mp hh; have := h3; have := h24; omega
theorem hcStream2 (t : Fin cfg0.N) (h3 : 3 ≤ t.val) (h24 : t.val < 24) : ¬condCache (grid0.coords t) :=
  fun hh => by have := (hcondCache t).mp hh; have := h3; have := h24; omega
theorem hcStream3 (t : Fin cfg0.N) (h3 : 3 ≤ t.val) (h24 : t.val < 24) : ¬condTail (grid0.coords t) :=
  fun hh => by have := (hcondTail t).mp hh; have := h3; have := h24; omega
theorem hcStream4 (t : Fin cfg0.N) (h3 : 3 ≤ t.val) (h24 : t.val < 24) : condStream (grid0.coords t) :=
  (hcondStream t).mpr (by have := h3; have := h24; omega)
theorem hcStream5 (t : Fin cfg0.N) (h3 : 3 ≤ t.val) (h24 : t.val < 24) : ¬condLast (grid0.coords t) :=
  fun hh => by have := (hcondLast t).mp hh; have := h3; have := h24; omega
theorem hcLast1 (t : Fin cfg0.N) (h : t.val = 24) : ¬condTrunk (grid0.coords t) :=
  fun hh => by have := (hcondTrunk t).mp hh; have := h; omega
theorem hcLast2 (t : Fin cfg0.N) (h : t.val = 24) : ¬condCache (grid0.coords t) :=
  fun hh => by have := (hcondCache t).mp hh; have := h; omega
theorem hcLast3 (t : Fin cfg0.N) (h : t.val = 24) : ¬condTail (grid0.coords t) :=
  fun hh => by have := (hcondTail t).mp hh; have := h; omega
theorem hcLast4 (t : Fin cfg0.N) (h : t.val = 24) : ¬condStream (grid0.coords t) :=
  fun hh => by have := (hcondStream t).mp hh; have := h; omega
theorem hcLast5 (t : Fin cfg0.N) (h : t.val = 24) : condLast (grid0.coords t) :=
  (hcondLast t).mpr (by have := h; omega)

/-! ## The three values kept across points, and the streamed window's block after each point -/

abbrev t0 : Fin cfg0.N := ⟨0, by decide⟩
abbrev t1 : Fin cfg0.N := ⟨1, by decide⟩
abbrev t2 : Fin cfg0.N := ⟨2, by decide⟩
abbrev t24 : Fin cfg0.N := ⟨24, by decide⟩

/-- The trunk's activations, as point 0 leaves them in the first scratch. -/
def hVal (c : Dev nD) : Vec F S32x1024 .f32 := outTrunkH c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) (ms12 t0) (hs12 t0) scH (Memref.isWhole_whole _) scE (Memref.isWhole_whole _) (hcTrunk1 t0 rfl) (hcTrunk2 t0 rfl) (hcTrunk3 t0 rfl) (hcTrunk4 t0 rfl) (hcTrunk5 t0 rfl) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0)
/-- The first head, as point 1 leaves it in its window's buffer. -/
def cacheVal (c : Dev nD) : Vec F S32x1000 .f32 := outCacheC c (grid0.coords t1) (ms0 t1) (hs0 t1) (ms1 t1) (hs1 t1) (ms2 t1) (hs2 t1) (ms3 t1) (hs3 t1) (ms4 t1) (hs4 t1) (ms5 t1) (hs5 t1) (ms6 t1) (hs6 t1) (ms7 t1) (hs7 t1) (ms8 t1) (hs8 t1) (ms9 t1) (hs9 t1) (ms10 t1) (hs10 t1) (ms11 t1) (hs11 t1) (ms12 t1) (hs12 t1) scH (Memref.isWhole_whole _) scE (Memref.isWhole_whole _) (hcCache1 t1 rfl) (hcCache2 t1 rfl) (hcCache3 t1 rfl) (hcCache4 t1 rfl) (hcCache5 t1 rfl) (iblk m c 0 t1) (iblk m c 1 t1) (iblk m c 2 t1) (iblk m c 3 t1) (iblk m c 4 t1) (iblk m c 5 t1) (iblk m c 6 t1) (iblk m c 7 t1) (iblk m c 8 t1) (iblk m c 9 t1) (iblk m c 10 t1) (hVal m c)
/-- The activations' product with the last block of the second head's weights, as point 2 leaves it in the second scratch. -/
def eVal (c : Dev nD) : Vec F S32x2560 .f32 := outTailE c (grid0.coords t2) (ms0 t2) (hs0 t2) (ms1 t2) (hs1 t2) (ms2 t2) (hs2 t2) (ms3 t2) (hs3 t2) (ms4 t2) (hs4 t2) (ms5 t2) (hs5 t2) (ms6 t2) (hs6 t2) (ms7 t2) (hs7 t2) (ms8 t2) (hs8 t2) (ms9 t2) (hs9 t2) (ms10 t2) (hs10 t2) (ms11 t2) (hs11 t2) (ms12 t2) (hs12 t2) scH (Memref.isWhole_whole _) scE (Memref.isWhole_whole _) (hcTail1 t2 rfl) (hcTail2 t2 rfl) (hcTail3 t2 rfl) (hcTail4 t2 rfl) (hcTail5 t2 rfl) (iblk m c 0 t2) (iblk m c 1 t2) (iblk m c 2 t2) (iblk m c 3 t2) (iblk m c 4 t2) (iblk m c 5 t2) (iblk m c 6 t2) (iblk m c 7 t2) (iblk m c 8 t2) (iblk m c 9 t2) (iblk m c 10 t2) (hVal m c)

theorem lt25 (t : Fin cfg0.N) : t.val < 25 := lt_of_lt_of_eq t.isLt (show cfg0.N = 25 from N_0)

/-- The streamed output window's block after point `t`: what the point's case stores. -/
def recAt (c : Dev nD) (t : Fin cfg0.N) : Vec F S32x2560 .f32 :=
  if h0 : t.val = 0 then outTrunkR c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scH (Memref.isWhole_whole _) scE (Memref.isWhole_whole _) (hcTrunk1 t h0) (hcTrunk2 t h0) (hcTrunk3 t h0) (hcTrunk4 t h0) (hcTrunk5 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t)
  else if h1 : t.val = 1 then outCacheR c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scH (Memref.isWhole_whole _) scE (Memref.isWhole_whole _) (hcCache1 t h1) (hcCache2 t h1) (hcCache3 t h1) (hcCache4 t h1) (hcCache5 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (hVal m c)
  else if h2 : t.val = 2 then outTailR c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scH (Memref.isWhole_whole _) scE (Memref.isWhole_whole _) (hcTail1 t h2) (hcTail2 t h2) (hcTail3 t h2) (hcTail4 t h2) (hcTail5 t h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (hVal m c)
  else if h3 : t.val < 24 then outStreamR c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scH (Memref.isWhole_whole _) scE (Memref.isWhole_whole _) (hcStream1 t (by omega) h3) (hcStream2 t (by omega) h3) (hcStream3 t (by omega) h3) (hcStream4 t (by omega) h3) (hcStream5 t (by omega) h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (hVal m c)
  else outLastR c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scH (Memref.isWhole_whole _) scE (Memref.isWhole_whole _) (hcLast1 t (by have := lt25 t; omega)) (hcLast2 t (by have := lt25 t; omega)) (hcLast3 t (by have := lt25 t; omega)) (hcLast4 t (by have := lt25 t; omega)) (hcLast5 t (by have := lt25 t; omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (eVal m c)

theorem recAt_trunk (c : Dev nD) (t : Fin cfg0.N) (h : t.val = 0) :
    recAt m c t = outTrunkR c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scH (Memref.isWhole_whole _) scE (Memref.isWhole_whole _) (hcTrunk1 t h) (hcTrunk2 t h) (hcTrunk3 t h) (hcTrunk4 t h) (hcTrunk5 t h) (iblk m c 0 t) (iblk m c 1 t) (iblk m c 2 t) (iblk m c 3 t) (iblk m c 4 t) (iblk m c 5 t) (iblk m c 6 t) (iblk m c 7 t) (iblk m c 8 t) (iblk m c 9 t) (iblk m c 10 t) := dif_pos h
theorem recAt_cache (c : Dev nD) (t : Fin cfg0.N) (h : t.val = 1) :
    recAt m c t = outCacheR c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scH (Memref.isWhole_whole _) scE (Memref.isWhole_whole _) (hcCache1 t h) (hcCache2 t h) (hcCache3 t h) (hcCache4 t h) (hcCache5 t h) (iblk m c 0 t) (iblk m c 1 t) (iblk m c 2 t) (iblk m c 3 t) (iblk m c 4 t) (iblk m c 5 t) (iblk m c 6 t) (iblk m c 7 t) (iblk m c 8 t) (iblk m c 9 t) (iblk m c 10 t) (hVal m c) :=
  (dif_neg (by omega)).trans (dif_pos h)
theorem recAt_tail (c : Dev nD) (t : Fin cfg0.N) (h : t.val = 2) :
    recAt m c t = outTailR c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scH (Memref.isWhole_whole _) scE (Memref.isWhole_whole _) (hcTail1 t h) (hcTail2 t h) (hcTail3 t h) (hcTail4 t h) (hcTail5 t h) (iblk m c 0 t) (iblk m c 1 t) (iblk m c 2 t) (iblk m c 3 t) (iblk m c 4 t) (iblk m c 5 t) (iblk m c 6 t) (iblk m c 7 t) (iblk m c 8 t) (iblk m c 9 t) (iblk m c 10 t) (hVal m c) :=
  (dif_neg (by omega)).trans ((dif_neg (by omega)).trans (dif_pos h))
theorem recAt_stream (c : Dev nD) (t : Fin cfg0.N) (h3 : 3 ≤ t.val) (h24 : t.val < 24) :
    recAt m c t = outStreamR c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scH (Memref.isWhole_whole _) scE (Memref.isWhole_whole _) (hcStream1 t h3 h24) (hcStream2 t h3 h24) (hcStream3 t h3 h24) (hcStream4 t h3 h24) (hcStream5 t h3 h24) (iblk m c 0 t) (iblk m c 1 t) (iblk m c 2 t) (iblk m c 3 t) (iblk m c 4 t) (iblk m c 5 t) (iblk m c 6 t) (iblk m c 7 t) (iblk m c 8 t) (iblk m c 9 t) (iblk m c 10 t) (hVal m c) :=
  (dif_neg (by omega)).trans ((dif_neg (by omega)).trans ((dif_neg (by omega)).trans (dif_pos h24)))
theorem recAt_last (c : Dev nD) (t : Fin cfg0.N) (h : t.val = 24) :
    recAt m c t = outLastR c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scH (Memref.isWhole_whole _) scE (Memref.isWhole_whole _) (hcLast1 t h) (hcLast2 t h) (hcLast3 t h) (hcLast4 t h) (hcLast5 t h) (iblk m c 0 t) (iblk m c 1 t) (iblk m c 2 t) (iblk m c 3 t) (iblk m c 4 t) (iblk m c 5 t) (iblk m c 6 t) (iblk m c 7 t) (iblk m c 8 t) (iblk m c 9 t) (iblk m c 10 t) (eVal m c) :=
  (dif_neg (by omega)).trans ((dif_neg (by omega)).trans ((dif_neg (by omega)).trans (dif_neg (by omega))))

/-! ## The region's invariant between points -/

/-- Before point `n`: at the start both scratch buffers hold anything; from point 1 on the first holds the trunk's
    activations; from point 3 on the second holds the last block's product. The generator register is at some state. -/
def PhiS (c : Dev nD) (n : ℕ) : sProp 𝕄 :=
  if n = 0 then Pipeline.ΦA spec0 c
  else if n < 3 then iprop(iprop(owns (c : Thread nD τ) scH fullShare (hVal m c) ∗ (∃ d, owns (c : Thread nD τ) scE fullShare d)) ∗ (∃ r, prngReg c r))
  else iprop(iprop(owns (c : Thread nD τ) scH fullShare (hVal m c) ∗ owns (c : Thread nD τ) scE fullShare (eVal m c)) ∗ (∃ r, prngReg c r))

theorem PhiS_zero (c : Dev nD) : PhiS m c 0 = Pipeline.ΦA spec0 c := if_pos rfl
theorem PhiS_low (c : Dev nD) (n : ℕ) (h0 : n ≠ 0) (h3 : n < 3) :
    PhiS m c n = iprop(iprop(owns (c : Thread nD τ) scH fullShare (hVal m c) ∗ (∃ d, owns (c : Thread nD τ) scE fullShare d)) ∗ (∃ r, prngReg c r)) :=
  (if_neg h0).trans (if_pos h3)
theorem PhiS_high (c : Dev nD) (n : ℕ) (h3 : 3 ≤ n) :
    PhiS m c n = iprop(iprop(owns (c : Thread nD τ) scH fullShare (hVal m c) ∗ owns (c : Thread nD τ) scE fullShare (eVal m c)) ∗ (∃ r, prngReg c r)) :=
  (if_neg (by omega)).trans (if_neg (by omega))

/-! ## The pipeline's proof data -/

/-- The proof data on core `c`: the arrays as the region finds them; after the body each input's buffer at its block,
    the first head's window at the first head, the streamed window at the point's block; the invariant above; the three
    windows on the second head's weights hold a share of that array each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => cacheVal m c
    | ⟨12, _⟩ => recAt m c t
  Φ t := PhiS m c t.val
  q w := match w with
    | ⟨0, _⟩ => fullShare
    | ⟨1, _⟩ => fullShare
    | ⟨2, _⟩ => fullShare
    | ⟨3, _⟩ => fullShare
    | ⟨4, _⟩ => fullShare
    | ⟨5, _⟩ => fullShare
    | ⟨6, _⟩ => fullShare
    | ⟨7, _⟩ => fullShare.left
    | ⟨8, _⟩ => fullShare.right.left
    | ⟨9, _⟩ => fullShare.right.right
    | ⟨10, _⟩ => fullShare
    | ⟨11, _⟩ => fullShare
    | ⟨12, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

theorem after_in0 (c : Dev nD) (t : Fin cfg0.N) : (dats m 0 c).after 0 t = iblk m c 0 t := by dsimp only [dats]
theorem before_in0 (c : Dev nD) (t : Fin cfg0.N) (d) : (dats m 0 c).before 0 t d = iblk m c 0 t :=
  before_in0_of m (dats m 0 c) (A_eq m c 0) (after_in0 m c) t d
theorem leaves_in0 (c : Dev nD) (t : Fin cfg0.N) :
    (dats m 0 c).leavesExact 0 t = owns (c : Thread nD τ) (ms0 t) fullShare (iblk m c 0 t) := by
  unfold Dat.leavesExact; rw [show cfg0.idle 0 (grid0.coords t) = false from rfl, after_in0]
theorem after_in1 (c : Dev nD) (t : Fin cfg0.N) : (dats m 0 c).after 1 t = iblk m c 1 t := by dsimp only [dats]
theorem before_in1 (c : Dev nD) (t : Fin cfg0.N) (d) : (dats m 0 c).before 1 t d = iblk m c 1 t :=
  before_in1_of m (dats m 0 c) (A_eq m c 1) (after_in1 m c) t d
theorem leaves_in1 (c : Dev nD) (t : Fin cfg0.N) :
    (dats m 0 c).leavesExact 1 t = owns (c : Thread nD τ) (ms1 t) fullShare (iblk m c 1 t) := by
  unfold Dat.leavesExact; rw [show cfg0.idle 1 (grid0.coords t) = false from rfl, after_in1]
theorem after_in2 (c : Dev nD) (t : Fin cfg0.N) : (dats m 0 c).after 2 t = iblk m c 2 t := by dsimp only [dats]
theorem before_in2 (c : Dev nD) (t : Fin cfg0.N) (d) : (dats m 0 c).before 2 t d = iblk m c 2 t :=
  before_in2_of m (dats m 0 c) (A_eq m c 2) (after_in2 m c) t d
theorem leaves_in2 (c : Dev nD) (t : Fin cfg0.N) :
    (dats m 0 c).leavesExact 2 t = owns (c : Thread nD τ) (ms2 t) fullShare (iblk m c 2 t) := by
  unfold Dat.leavesExact; rw [show cfg0.idle 2 (grid0.coords t) = false from rfl, after_in2]
theorem after_in3 (c : Dev nD) (t : Fin cfg0.N) : (dats m 0 c).after 3 t = iblk m c 3 t := by dsimp only [dats]
theorem before_in3 (c : Dev nD) (t : Fin cfg0.N) (d) : (dats m 0 c).before 3 t d = iblk m c 3 t :=
  before_in3_of m (dats m 0 c) (A_eq m c 3) (after_in3 m c) t d
theorem leaves_in3 (c : Dev nD) (t : Fin cfg0.N) :
    (dats m 0 c).leavesExact 3 t = owns (c : Thread nD τ) (ms3 t) fullShare (iblk m c 3 t) := by
  unfold Dat.leavesExact; rw [show cfg0.idle 3 (grid0.coords t) = false from rfl, after_in3]
theorem after_in4 (c : Dev nD) (t : Fin cfg0.N) : (dats m 0 c).after 4 t = iblk m c 4 t := by dsimp only [dats]
theorem before_in4 (c : Dev nD) (t : Fin cfg0.N) (d) : (dats m 0 c).before 4 t d = iblk m c 4 t :=
  before_in4_of m (dats m 0 c) (A_eq m c 4) (after_in4 m c) t d
theorem leaves_in4 (c : Dev nD) (t : Fin cfg0.N) :
    (dats m 0 c).leavesExact 4 t = owns (c : Thread nD τ) (ms4 t) fullShare (iblk m c 4 t) := by
  unfold Dat.leavesExact; rw [show cfg0.idle 4 (grid0.coords t) = false from rfl, after_in4]
theorem after_in5 (c : Dev nD) (t : Fin cfg0.N) : (dats m 0 c).after 5 t = iblk m c 5 t := by dsimp only [dats]
theorem before_in5 (c : Dev nD) (t : Fin cfg0.N) (d) : (dats m 0 c).before 5 t d = iblk m c 5 t :=
  before_in5_of m (dats m 0 c) (A_eq m c 5) (after_in5 m c) t d
theorem leaves_in5 (c : Dev nD) (t : Fin cfg0.N) :
    (dats m 0 c).leavesExact 5 t = owns (c : Thread nD τ) (ms5 t) fullShare (iblk m c 5 t) := by
  unfold Dat.leavesExact; rw [show cfg0.idle 5 (grid0.coords t) = false from rfl, after_in5]
theorem after_in6 (c : Dev nD) (t : Fin cfg0.N) : (dats m 0 c).after 6 t = iblk m c 6 t := by dsimp only [dats]
theorem before_in6 (c : Dev nD) (t : Fin cfg0.N) (d) : (dats m 0 c).before 6 t d = iblk m c 6 t :=
  before_in6_of m (dats m 0 c) (A_eq m c 6) (after_in6 m c) t d
theorem leaves_in6 (c : Dev nD) (t : Fin cfg0.N) :
    (dats m 0 c).leavesExact 6 t = owns (c : Thread nD τ) (ms6 t) fullShare (iblk m c 6 t) := by
  unfold Dat.leavesExact; rw [show cfg0.idle 6 (grid0.coords t) = false from rfl, after_in6]
theorem after_in7 (c : Dev nD) (t : Fin cfg0.N) : (dats m 0 c).after 7 t = iblk m c 7 t := by dsimp only [dats]
theorem before_in7 (c : Dev nD) (t : Fin cfg0.N) (d) : (dats m 0 c).before 7 t d = iblk m c 7 t :=
  before_in7_of m (dats m 0 c) (A_eq m c 7) (after_in7 m c) t d
theorem leaves_in7 (c : Dev nD) (t : Fin cfg0.N) :
    (dats m 0 c).leavesExact 7 t = owns (c : Thread nD τ) (ms7 t) fullShare (iblk m c 7 t) := by
  unfold Dat.leavesExact; rw [show cfg0.idle 7 (grid0.coords t) = false from rfl, after_in7]
theorem after_in8 (c : Dev nD) (t : Fin cfg0.N) : (dats m 0 c).after 8 t = iblk m c 8 t := by dsimp only [dats]
theorem before_in8 (c : Dev nD) (t : Fin cfg0.N) (d) : (dats m 0 c).before 8 t d = iblk m c 8 t :=
  before_in8_of m (dats m 0 c) (A_eq m c 8) (after_in8 m c) t d
theorem leaves_in8 (c : Dev nD) (t : Fin cfg0.N) :
    (dats m 0 c).leavesExact 8 t = owns (c : Thread nD τ) (ms8 t) fullShare (iblk m c 8 t) := by
  unfold Dat.leavesExact; rw [show cfg0.idle 8 (grid0.coords t) = false from rfl, after_in8]
theorem after_in9 (c : Dev nD) (t : Fin cfg0.N) : (dats m 0 c).after 9 t = iblk m c 9 t := by dsimp only [dats]
theorem before_in9 (c : Dev nD) (t : Fin cfg0.N) (d) : (dats m 0 c).before 9 t d = iblk m c 9 t :=
  before_in9_of m (dats m 0 c) (A_eq m c 9) (after_in9 m c) t d
theorem leaves_in9 (c : Dev nD) (t : Fin cfg0.N) :
    (dats m 0 c).leavesExact 9 t = owns (c : Thread nD τ) (ms9 t) fullShare (iblk m c 9 t) := by
  unfold Dat.leavesExact; rw [show cfg0.idle 9 (grid0.coords t) = false from rfl, after_in9]
theorem after_in10 (c : Dev nD) (t : Fin cfg0.N) : (dats m 0 c).after 10 t = iblk m c 10 t := by dsimp only [dats]
theorem before_in10 (c : Dev nD) (t : Fin cfg0.N) (d) : (dats m 0 c).before 10 t d = iblk m c 10 t :=
  before_in10_of m (dats m 0 c) (A_eq m c 10) (after_in10 m c) t d
theorem leaves_in10 (c : Dev nD) (t : Fin cfg0.N) :
    (dats m 0 c).leavesExact 10 t = owns (c : Thread nD τ) (ms10 t) fullShare (iblk m c 10 t) := by
  unfold Dat.leavesExact; rw [show cfg0.idle 10 (grid0.coords t) = false from rfl, after_in10]

theorem after11 (c : Dev nD) (t : Fin cfg0.N) : (dats m 0 c).after 11 t = cacheVal m c := by dsimp only [dats]
theorem after12 (c : Dev nD) (t : Fin cfg0.N) : (dats m 0 c).after 12 t = recAt m c t := by dsimp only [dats]

/-! ## The two output windows -/

theorem idle11_off : ∀ t : Fin cfg0.N, t.val ≠ 1 → cfg0.idle 11 (grid0.coords t) = true := by decide +kernel
theorem idle11_on : ∀ t : Fin cfg0.N, t.val = 1 → cfg0.idle 11 (grid0.coords t) = false := by decide +kernel
theorem flush11_off : ∀ t : Fin cfg0.N, t.val ≠ 24 → (cfg0.win 11).flush t = false := by decide +kernel
theorem flush11_on : ∀ t : Fin cfg0.N, t.val = 24 → (cfg0.win 11).flush t = true := by decide +kernel

/-- At a point that neither stores the first head nor writes it back, its window's buffer is handed back as found. -/
theorem leaves11_idle (c : Dev nD) (t : Fin cfg0.N) (h1 : t.val ≠ 1) (h24 : t.val ≠ 24) :
    (dats m 0 c).leavesExact 11 t = iprop(∃ d, owns (c : Thread nD τ) (ms11 t) fullShare ((dats m 0 c).before 11 t d)) :=
  Dat.leavesExact_idle (dats m 0 c) 11 t (idle11_off t h1) (flush11_off t h24)
/-- At point 1 it is left at the first head, -/
theorem leaves11_store (c : Dev nD) (t : Fin cfg0.N) (h1 : t.val = 1) :
    (dats m 0 c).leavesExact 11 t = owns (c : Thread nD τ) (ms11 t) fullShare (cacheVal m c) := by
  unfold Dat.leavesExact; rw [idle11_on t h1, after11]
/-- and at the last point, which writes it back, it still is. -/
theorem leaves11_last (c : Dev nD) (t : Fin cfg0.N) (h24 : t.val = 24) :
    (dats m 0 c).leavesExact 11 t = owns (c : Thread nD τ) (ms11 t) fullShare (cacheVal m c) := by
  unfold Dat.leavesExact; rw [idle11_off t (by omega), flush11_on t h24, after11]
/-- The streamed window is stored at every point. -/
theorem leaves12 (c : Dev nD) (t : Fin cfg0.N) :
    (dats m 0 c).leavesExact 12 t = owns (c : Thread nD τ) (ms12 t) fullShare (recAt m c t) := by
  unfold Dat.leavesExact; rw [live12 t, after12]

/-- What a point that stored into the first head's window leaves there is what the next point finds (nothing is cut). -/
theorem kept11 (c : Dev nD) (t : Fin cfg0.N) (d) : (dats m 0 c).kept 11 t d = cacheVal m c := by
  unfold Dat.kept
  rw [Pipeline.fill_of_clip_none 11 _ (fun a => rfl) d ((dats m 0 c).after 11 t), Window.fill_cut, after11]

/-- From point 2 on the first head's window holds the first head: point 1 stored it, no later point before the last
    touches the buffer, and it is not written back before the last point. -/
theorem before11 (c : Dev nD) : ∀ (n : ℕ) (hn : n < cfg0.N), 2 ≤ n → ∀ d, (dats m 0 c).before 11 ⟨n, hn⟩ d = cacheVal m c := by
  intro n
  induction n with
  | zero => intro _ h; omega
  | succ k ih =>
    intro hn h2 d
    have hk : k < cfg0.N := Nat.lt_of_succ_lt hn
    have hk25 : k + 1 < 25 := lt_of_lt_of_eq hn (show cfg0.N = 25 from N_0)
    rw [Dat.before_of_pos (dats m 0 c) 11 ⟨k + 1, hn⟩ (Nat.succ_ne_zero k) ((cfg0.win 11).fetch_out rfl _) d]
    rw [show (⟨(⟨k + 1, hn⟩ : Fin cfg0.N).val - 1, Nat.lt_of_le_of_lt (Nat.sub_le _ _) (⟨k + 1, hn⟩ : Fin cfg0.N).isLt⟩ : Fin cfg0.N) = ⟨k, hk⟩ from rfl]
    rw [flush11_off ⟨k, hk⟩ (by simp only; omega), if_neg Bool.false_ne_true]
    unfold Dat.left
    by_cases h1 : k = 1
    · rw [idle11_on ⟨k, hk⟩ h1]; exact kept11 m c _ d
    · rw [idle11_off ⟨k, hk⟩ h1]; exact ih hk (by omega) d

end Cert.KernelIdeal.Mlp

end
-- ==== Proof.KernelIdeal.GridBody.lean ====
/-
  The body obligation of the MLP kernel's pipeline: at each of the 25 grid points the body, handed the invariant and
  every window's current buffer at what it then holds, runs to the next point's invariant with every buffer at what
  the proof data says the point leaves — by the case the point is in.
-/
import proofs.«151329_g66365834658321_cont_9to1_m_1147_41_alg».proof.Proof.KernelIdeal.GridValues

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 4000000 in
/-- The body at the first grid point: the trunk's two layers are computed into the activation scratch, then the point's streamed block of the second head is multiplied: the buffers it is handed are the run's, and what the run leaves is the next point's. -/
theorem soundTrunk (c : Dev nD)  :
    bodyPre m c t0 ⊢ wp frame (wpE (defs₀ (F := F)) Variants.none c none) Set.univ (bodyAt0 t0) (fun _ => bodyPost m c t0) := by
  unfold bodyPre bodyPost bodyAt0
  simp only [before_in0, before_in1, before_in2, before_in3, before_in4, before_in5, before_in6, before_in7, before_in8, before_in9, before_in10]
  rw [show (dats m 0 c).owesAt () (t0 : Fin cfg0.N).succ = (dats m 0 c).owesAt () (t0 : Fin cfg0.N).castSucc from rfl]
  rw [Phi_castSucc, Phi_succ]
  rw [PhiS_zero, PhiS_low m c (t0.val + 1) (by decide) (by decide), PhiA0_eq]
  rw [leaves_in0, leaves_in1, leaves_in2, leaves_in3, leaves_in4, leaves_in5, leaves_in6, leaves_in7, leaves_in8, leaves_in9, leaves_in10, leaves11_idle m c t0 (by decide) (by decide), leaves12, recAt_trunk m c t0 rfl]
  unfold outTrunkR hVal outTrunkH
  iintro ⟨⟨⟨HSH, ⟨%dE, HSE⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runTrunk c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) (ms12 t0) (hs12 t0) scH (Memref.isWhole_whole _) scE (Memref.isWhole_whole _) (hcTrunk1 t0 rfl) (hcTrunk2 t0 rfl) (hcTrunk3 t0 rfl) (hcTrunk4 t0 rfl) (hcTrunk5 t0 rfl) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0)).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HSH]; · iexact HSH
  isplitl [HSE]; · iexact HSE
  iintro ⟨H0, H1, H2, H3, H4, H5, H6, H7, H8, H9, H10, H11, ⟨%e13, H12⟩, ⟨%e14, HSH⟩, HSE⟩
  isplitl [HSH HSE Hg]
  · isplitl [HSH HSE]
    · isplitl [HSH]
      · unfold owns; iexists _; isplitr
        swap; · iexact HSH
        ipureintro; exact View.read_writes_of_cover _ _ _ _ _ (coverTrunkH c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) (ms12 t0) (hs12 t0) scH (Memref.isWhole_whole _) scE (Memref.isWhole_whole _) (hcTrunk1 t0 rfl) (hcTrunk2 t0 rfl) (hcTrunk3 t0 rfl) (hcTrunk4 t0 rfl) (hcTrunk5 t0 rfl) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0))
      · iexists _; iexact HSE
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; iexact H11
  unfold owns; iexists _; isplitr
  swap; · iexact H12
  ipureintro; exact View.read_writes_of_cover _ _ _ _ _ (coverTrunkR c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) (ms12 t0) (hs12 t0) scH (Memref.isWhole_whole _) scE (Memref.isWhole_whole _) (hcTrunk1 t0 rfl) (hcTrunk2 t0 rfl) (hcTrunk3 t0 rfl) (hcTrunk4 t0 rfl) (hcTrunk5 t0 rfl) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0))

set_option maxHeartbeats 4000000 in
/-- The body at the second grid point: the first head is computed from the kept activations, then the point's streamed block is multiplied: the buffers it is handed are the run's, and what the run leaves is the next point's. -/
theorem soundCache (c : Dev nD)  :
    bodyPre m c t1 ⊢ wp frame (wpE (defs₀ (F := F)) Variants.none c none) Set.univ (bodyAt0 t1) (fun _ => bodyPost m c t1) := by
  unfold bodyPre bodyPost bodyAt0
  simp only [before_in0, before_in1, before_in2, before_in3, before_in4, before_in5, before_in6, before_in7, before_in8, before_in9, before_in10]
  rw [show (dats m 0 c).owesAt () (t1 : Fin cfg0.N).succ = (dats m 0 c).owesAt () (t1 : Fin cfg0.N).castSucc from rfl]
  rw [Phi_castSucc, Phi_succ]
  rw [PhiS_low m c t1.val (by decide) (by decide), PhiS_low m c (t1.val + 1) (by decide) (by decide)]
  rw [leaves_in0, leaves_in1, leaves_in2, leaves_in3, leaves_in4, leaves_in5, leaves_in6, leaves_in7, leaves_in8, leaves_in9, leaves_in10, leaves11_store m c t1 rfl, leaves12, recAt_cache m c t1 rfl]
  unfold outCacheR cacheVal outCacheC
  iintro ⟨⟨⟨HSH, ⟨%dE, HSE⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runCache c (grid0.coords t1) (ms0 t1) (hs0 t1) (ms1 t1) (hs1 t1) (ms2 t1) (hs2 t1) (ms3 t1) (hs3 t1) (ms4 t1) (hs4 t1) (ms5 t1) (hs5 t1) (ms6 t1) (hs6 t1) (ms7 t1) (hs7 t1) (ms8 t1) (hs8 t1) (ms9 t1) (hs9 t1) (ms10 t1) (hs10 t1) (ms11 t1) (hs11 t1) (ms12 t1) (hs12 t1) scH (Memref.isWhole_whole _) scE (Memref.isWhole_whole _) (hcCache1 t1 rfl) (hcCache2 t1 rfl) (hcCache3 t1 rfl) (hcCache4 t1 rfl) (hcCache5 t1 rfl) (iblk m c 0 t1) (iblk m c 1 t1) (iblk m c 2 t1) (iblk m c 3 t1) (iblk m c 4 t1) (iblk m c 5 t1) (iblk m c 6 t1) (iblk m c 7 t1) (iblk m c 8 t1) (iblk m c 9 t1) (iblk m c 10 t1) (hVal m c)).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [HSH]; · iexact HSH
  isplitl [HSE]; · iexact HSE
  iintro ⟨H0, H1, H2, H3, H4, H5, H6, H7, H8, H9, H10, ⟨%e12, H11⟩, ⟨%e13, H12⟩, HSH, HSE⟩
  isplitl [HSH HSE Hg]
  · isplitl [HSH HSE]
    · isplitl [HSH]
      · iexact HSH
      · iexists _; iexact HSE
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (coverCacheC c (grid0.coords t1) (ms0 t1) (hs0 t1) (ms1 t1) (hs1 t1) (ms2 t1) (hs2 t1) (ms3 t1) (hs3 t1) (ms4 t1) (hs4 t1) (ms5 t1) (hs5 t1) (ms6 t1) (hs6 t1) (ms7 t1) (hs7 t1) (ms8 t1) (hs8 t1) (ms9 t1) (hs9 t1) (ms10 t1) (hs10 t1) (ms11 t1) (hs11 t1) (ms12 t1) (hs12 t1) scH (Memref.isWhole_whole _) scE (Memref.isWhole_whole _) (hcCache1 t1 rfl) (hcCache2 t1 rfl) (hcCache3 t1 rfl) (hcCache4 t1 rfl) (hcCache5 t1 rfl) (iblk m c 0 t1) (iblk m c 1 t1) (iblk m c 2 t1) (iblk m c 3 t1) (iblk m c 4 t1) (iblk m c 5 t1) (iblk m c 6 t1) (iblk m c 7 t1) (iblk m c 8 t1) (iblk m c 9 t1) (iblk m c 10 t1) (hVal m c))
  unfold owns; iexists _; isplitr
  swap; · iexact H12
  ipureintro; exact View.read_writes_of_cover _ _ _ _ _ (coverCacheR c (grid0.coords t1) (ms0 t1) (hs0 t1) (ms1 t1) (hs1 t1) (ms2 t1) (hs2 t1) (ms3 t1) (hs3 t1) (ms4 t1) (hs4 t1) (ms5 t1) (hs5 t1) (ms6 t1) (hs6 t1) (ms7 t1) (hs7 t1) (ms8 t1) (hs8 t1) (ms9 t1) (hs9 t1) (ms10 t1) (hs10 t1) (ms11 t1) (hs11 t1) (ms12 t1) (hs12 t1) scH (Memref.isWhole_whole _) scE (Memref.isWhole_whole _) (hcCache1 t1 rfl) (hcCache2 t1 rfl) (hcCache3 t1 rfl) (hcCache4 t1 rfl) (hcCache5 t1 rfl) (iblk m c 0 t1) (iblk m c 1 t1) (iblk m c 2 t1) (iblk m c 3 t1) (iblk m c 4 t1) (iblk m c 5 t1) (iblk m c 6 t1) (iblk m c 7 t1) (iblk m c 8 t1) (iblk m c 9 t1) (iblk m c 10 t1) (hVal m c))

set_option maxHeartbeats 4000000 in
/-- The body at the third grid point: the product of the activations with the LAST block of the second head's weights is kept in the second scratch, then the point's streamed block is multiplied: the buffers it is handed are the run's, and what the run leaves is the next point's. -/
theorem soundTail (c : Dev nD)  :
    bodyPre m c t2 ⊢ wp frame (wpE (defs₀ (F := F)) Variants.none c none) Set.univ (bodyAt0 t2) (fun _ => bodyPost m c t2) := by
  unfold bodyPre bodyPost bodyAt0
  simp only [before_in0, before_in1, before_in2, before_in3, before_in4, before_in5, before_in6, before_in7, before_in8, before_in9, before_in10]
  rw [show (dats m 0 c).owesAt () (t2 : Fin cfg0.N).succ = (dats m 0 c).owesAt () (t2 : Fin cfg0.N).castSucc from rfl]
  rw [Phi_castSucc, Phi_succ]
  rw [PhiS_low m c t2.val (by decide) (by decide), PhiS_high m c (t2.val + 1) (by decide)]
  rw [leaves_in0, leaves_in1, leaves_in2, leaves_in3, leaves_in4, leaves_in5, leaves_in6, leaves_in7, leaves_in8, leaves_in9, leaves_in10, leaves11_idle m c t2 (by decide) (by decide), leaves12, recAt_tail m c t2 rfl]
  unfold outTailR eVal outTailE
  iintro ⟨⟨⟨HSH, HSE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runTail c (grid0.coords t2) (ms0 t2) (hs0 t2) (ms1 t2) (hs1 t2) (ms2 t2) (hs2 t2) (ms3 t2) (hs3 t2) (ms4 t2) (hs4 t2) (ms5 t2) (hs5 t2) (ms6 t2) (hs6 t2) (ms7 t2) (hs7 t2) (ms8 t2) (hs8 t2) (ms9 t2) (hs9 t2) (ms10 t2) (hs10 t2) (ms11 t2) (hs11 t2) (ms12 t2) (hs12 t2) scH (Memref.isWhole_whole _) scE (Memref.isWhole_whole _) (hcTail1 t2 rfl) (hcTail2 t2 rfl) (hcTail3 t2 rfl) (hcTail4 t2 rfl) (hcTail5 t2 rfl) (iblk m c 0 t2) (iblk m c 1 t2) (iblk m c 2 t2) (iblk m c 3 t2) (iblk m c 4 t2) (iblk m c 5 t2) (iblk m c 6 t2) (iblk m c 7 t2) (iblk m c 8 t2) (iblk m c 9 t2) (iblk m c 10 t2) (hVal m c)).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HSH]; · iexact HSH
  isplitl [HSE]; · iexact HSE
  iintro ⟨H0, H1, H2, H3, H4, H5, H6, H7, H8, H9, H10, H11, ⟨%e13, H12⟩, HSH, ⟨%e15, HSE⟩⟩
  isplitl [HSH HSE Hg]
  · isplitl [HSH HSE]
    · isplitl [HSH]
      · iexact HSH
      · unfold owns; iexists _; isplitr
        swap; · iexact HSE
        ipureintro; exact View.read_writes_of_cover _ _ _ _ _ (coverTailE c (grid0.coords t2) (ms0 t2) (hs0 t2) (ms1 t2) (hs1 t2) (ms2 t2) (hs2 t2) (ms3 t2) (hs3 t2) (ms4 t2) (hs4 t2) (ms5 t2) (hs5 t2) (ms6 t2) (hs6 t2) (ms7 t2) (hs7 t2) (ms8 t2) (hs8 t2) (ms9 t2) (hs9 t2) (ms10 t2) (hs10 t2) (ms11 t2) (hs11 t2) (ms12 t2) (hs12 t2) scH (Memref.isWhole_whole _) scE (Memref.isWhole_whole _) (hcTail1 t2 rfl) (hcTail2 t2 rfl) (hcTail3 t2 rfl) (hcTail4 t2 rfl) (hcTail5 t2 rfl) (iblk m c 0 t2) (iblk m c 1 t2) (iblk m c 2 t2) (iblk m c 3 t2) (iblk m c 4 t2) (iblk m c 5 t2) (iblk m c 6 t2) (iblk m c 7 t2) (iblk m c 8 t2) (iblk m c 9 t2) (iblk m c 10 t2) (hVal m c))
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; iexact H11
  unfold owns; iexists _; isplitr
  swap; · iexact H12
  ipureintro; exact View.read_writes_of_cover _ _ _ _ _ (coverTailR c (grid0.coords t2) (ms0 t2) (hs0 t2) (ms1 t2) (hs1 t2) (ms2 t2) (hs2 t2) (ms3 t2) (hs3 t2) (ms4 t2) (hs4 t2) (ms5 t2) (hs5 t2) (ms6 t2) (hs6 t2) (ms7 t2) (hs7 t2) (ms8 t2) (hs8 t2) (ms9 t2) (hs9 t2) (ms10 t2) (hs10 t2) (ms11 t2) (hs11 t2) (ms12 t2) (hs12 t2) scH (Memref.isWhole_whole _) scE (Memref.isWhole_whole _) (hcTail1 t2 rfl) (hcTail2 t2 rfl) (hcTail3 t2 rfl) (hcTail4 t2 rfl) (hcTail5 t2 rfl) (iblk m c 0 t2) (iblk m c 1 t2) (iblk m c 2 t2) (iblk m c 3 t2) (iblk m c 4 t2) (iblk m c 5 t2) (iblk m c 6 t2) (iblk m c 7 t2) (iblk m c 8 t2) (iblk m c 9 t2) (iblk m c 10 t2) (hVal m c))

set_option maxHeartbeats 4000000 in
/-- The body at a middle grid point: only the point's streamed block is multiplied: the buffers it is handed are the run's, and what the run leaves is the next point's. -/
theorem soundStream (c : Dev nD) (t : Fin cfg0.N) (h3 : 3 ≤ t.val) (h24 : t.val < 24) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8, before_in9, before_in10]
  rw [show (dats m 0 c).owesAt () (t : Fin cfg0.N).succ = (dats m 0 c).owesAt () (t : Fin cfg0.N).castSucc from rfl]
  rw [Phi_castSucc, Phi_succ]
  rw [PhiS_high m c t.val h3, PhiS_high m c (t.val + 1) (by omega)]
  rw [leaves_in0, leaves_in1, leaves_in2, leaves_in3, leaves_in4, leaves_in5, leaves_in6, leaves_in7, leaves_in8, leaves_in9, leaves_in10, leaves11_idle m c t (by omega) (by omega), leaves12, recAt_stream m c t h3 h24]
  unfold outStreamR
  iintro ⟨⟨⟨HSH, HSE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runStream c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scH (Memref.isWhole_whole _) scE (Memref.isWhole_whole _) (hcStream1 t h3 h24) (hcStream2 t h3 h24) (hcStream3 t h3 h24) (hcStream4 t h3 h24) (hcStream5 t h3 h24) (iblk m c 0 t) (iblk m c 1 t) (iblk m c 2 t) (iblk m c 3 t) (iblk m c 4 t) (iblk m c 5 t) (iblk m c 6 t) (iblk m c 7 t) (iblk m c 8 t) (iblk m c 9 t) (iblk m c 10 t) (hVal m c)).2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HSH]; · iexact HSH
  isplitl [HSE]; · iexact HSE
  iintro ⟨H0, H1, H2, H3, H4, H5, H6, H7, H8, H9, H10, H11, ⟨%e13, H12⟩, HSH, HSE⟩
  isplitl [HSH HSE Hg]
  · isplitl [HSH HSE]
    · isplitl [HSH]
      · iexact HSH
      · iexact HSE
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; iexact H11
  unfold owns; iexists _; isplitr
  swap; · iexact H12
  ipureintro; exact View.read_writes_of_cover _ _ _ _ _ (coverStreamR c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scH (Memref.isWhole_whole _) scE (Memref.isWhole_whole _) (hcStream1 t h3 h24) (hcStream2 t h3 h24) (hcStream3 t h3 h24) (hcStream4 t h3 h24) (hcStream5 t h3 h24) (iblk m c 0 t) (iblk m c 1 t) (iblk m c 2 t) (iblk m c 3 t) (iblk m c 4 t) (iblk m c 5 t) (iblk m c 6 t) (iblk m c 7 t) (iblk m c 8 t) (iblk m c 9 t) (iblk m c 10 t) (hVal m c))

set_option maxHeartbeats 4000000 in
/-- The body at the last grid point: the kept product plus the last block's bias is stored: the buffers it is handed are the run's, and what the run leaves is the next point's. -/
theorem soundLast (c : Dev nD)  :
    bodyPre m c t24 ⊢ wp frame (wpE (defs₀ (F := F)) Variants.none c none) Set.univ (bodyAt0 t24) (fun _ => bodyPost m c t24) := by
  unfold bodyPre bodyPost bodyAt0
  simp only [before_in0, before_in1, before_in2, before_in3, before_in4, before_in5, before_in6, before_in7, before_in8, before_in9, before_in10]
  simp only [before11 m c 24 (by decide) (by decide)]
  rw [show (dats m 0 c).owesAt () (t24 : Fin cfg0.N).succ = (dats m 0 c).owesAt () (t24 : Fin cfg0.N).castSucc from rfl]
  rw [Phi_castSucc, Phi_succ]
  rw [PhiS_high m c t24.val (by decide), PhiS_high m c (t24.val + 1) (by decide)]
  rw [leaves_in0, leaves_in1, leaves_in2, leaves_in3, leaves_in4, leaves_in5, leaves_in6, leaves_in7, leaves_in8, leaves_in9, leaves_in10, leaves11_last m c t24 rfl, leaves12, recAt_last m c t24 rfl]
  unfold outLastR
  iintro ⟨⟨⟨HSH, HSE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runLast c (grid0.coords t24) (ms0 t24) (hs0 t24) (ms1 t24) (hs1 t24) (ms2 t24) (hs2 t24) (ms3 t24) (hs3 t24) (ms4 t24) (hs4 t24) (ms5 t24) (hs5 t24) (ms6 t24) (hs6 t24) (ms7 t24) (hs7 t24) (ms8 t24) (hs8 t24) (ms9 t24) (hs9 t24) (ms10 t24) (hs10 t24) (ms11 t24) (hs11 t24) (ms12 t24) (hs12 t24) scH (Memref.isWhole_whole _) scE (Memref.isWhole_whole _) (hcLast1 t24 rfl) (hcLast2 t24 rfl) (hcLast3 t24 rfl) (hcLast4 t24 rfl) (hcLast5 t24 rfl) (iblk m c 0 t24) (iblk m c 1 t24) (iblk m c 2 t24) (iblk m c 3 t24) (iblk m c 4 t24) (iblk m c 5 t24) (iblk m c 6 t24) (iblk m c 7 t24) (iblk m c 8 t24) (iblk m c 9 t24) (iblk m c 10 t24) (eVal m c)).2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HSH]; · iexact HSH
  isplitl [HSE]; · iexact HSE
  iintro ⟨H0, H1, H2, H3, H4, H5, H6, H7, H8, H9, H10, H11, ⟨%e13, H12⟩, HSH, HSE⟩
  isplitl [HSH HSE Hg]
  · isplitl [HSH HSE]
    · isplitl [HSH]
      · iexact HSH
      · iexact HSE
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexact H11
  unfold owns; iexists _; isplitr
  swap; · iexact H12
  ipureintro; exact View.read_writes_of_cover _ _ _ _ _ (coverLastR c (grid0.coords t24) (ms0 t24) (hs0 t24) (ms1 t24) (hs1 t24) (ms2 t24) (hs2 t24) (ms3 t24) (hs3 t24) (ms4 t24) (hs4 t24) (ms5 t24) (hs5 t24) (ms6 t24) (hs6 t24) (ms7 t24) (hs7 t24) (ms8 t24) (hs8 t24) (ms9 t24) (hs9 t24) (ms10 t24) (hs10 t24) (ms11 t24) (hs11 t24) (ms12 t24) (hs12 t24) scH (Memref.isWhole_whole _) scE (Memref.isWhole_whole _) (hcLast1 t24 rfl) (hcLast2 t24 rfl) (hcLast3 t24 rfl) (hcLast4 t24 rfl) (hcLast5 t24 rfl) (iblk m c 0 t24) (iblk m c 1 t24) (iblk m c 2 t24) (iblk m c 3 t24) (iblk m c 4 t24) (iblk m c 5 t24) (iblk m c 6 t24) (iblk m c 7 t24) (iblk m c 8 t24) (iblk m c 9 t24) (iblk m c 10 t24) (eVal m c))

/-- The body at any point: the point is in one of the five cases. -/
theorem sound_body (c : Dev nD) (t : Fin cfg0.N) :
    bodyPre m c t ⊢ wp frame (wpE (defs₀ (F := F)) Variants.none c none) Set.univ (bodyAt0 t) (fun _ => bodyPost m c t) := by
  have hN := lt25 t
  by_cases h0 : t.val = 0
  · obtain rfl : t = t0 := Fin.ext h0
    exact soundTrunk m c
  by_cases h1 : t.val = 1
  · obtain rfl : t = t1 := Fin.ext h1
    exact soundCache m c
  by_cases h2 : t.val = 2
  · obtain rfl : t = t2 := Fin.ext h2
    exact soundTail m c
  by_cases h3 : t.val < 24
  · exact soundStream m c t (by omega) h3
  · obtain rfl : t = t24 := Fin.ext (by show t.val = 24; omega)
    exact soundLast m c

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiS_zero]
  try exact Idealize.SL.BI.Entails.refl _

/-- After the last point the invariant gives the scratch buffers back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_high m c _ (by rw [Fin.val_last, show cfg0.N = 25 from N_0]; omega), PhiA0_eq]
  iintro ⟨⟨HSH, HSE⟩, Hg⟩
  isplitr [Hg]
  · isplitl [HSH]
    · iexists _; iexact HSH
    · iexists _; iexact HSE
  iexact Hg

end Cert.KernelIdeal.Mlp

end
-- ==== Proof.KernelIdeal.GridLaunch.lean ====
/-
  The launch of the MLP program: the host re-lays the four bias vectors as rows, the kernel region runs its 25 grid
  points, the host re-lays the second head's 32 × 64000 result as 32 × 64 × 1000. Three of the region's windows read
  ONE array (the second head's weights), so that array is dealt among them in three shares; every other array is held
  whole. Every weakly fair execution terminates; each windowed array ends at what the write-backs of the proof data
  leave in it, the bias vectors end as launched, and the re-laid result is the host line's function of the streamed
  output's array.
-/
import proofs.«151329_g66365834658321_cont_9to1_m_1147_41_alg».proof.Proof.KernelIdeal.GridBody

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry, dealt among the windows -/

/-- The distinct buffers behind the windows' arrays. -/
theorem arrSet_eq : Finset.univ.image (Pipeline.arrRef spec0)
    = ([main_arg0, main_arg1, main_v0, main_arg3, main_v1, main_arg5, main_v2, main_arg7, main_v3, main_v4_0, main_v4_1] : List (Ref sig .tc)).toFinset := by decide

/-- Those buffers at contents `Vv`, one by one. -/
theorem arrBufs_eq (c : Dev nD) (Vv : (b : Ref sig .tc) → Buf (Elt F) ((c.tc : Thread nD τ).loc b)) :
    (Pipeline.arrBufs spec0 c Vv : sProp 𝕄)
      = iprop((((c.tc : Thread nD τ).loc main_arg0) ↦{fullShare} Vv main_arg0) ∗ (((c.tc : Thread nD τ).loc main_arg1) ↦{fullShare} Vv main_arg1) ∗ (((c.tc : Thread nD τ).loc main_v0) ↦{fullShare} Vv main_v0) ∗ (((c.tc : Thread nD τ).loc main_arg3) ↦{fullShare} Vv main_arg3) ∗ (((c.tc : Thread nD τ).loc main_v1) ↦{fullShare} Vv main_v1) ∗ (((c.tc : Thread nD τ).loc main_arg5) ↦{fullShare} Vv main_arg5) ∗ (((c.tc : Thread nD τ).loc main_v2) ↦{fullShare} Vv main_v2) ∗ (((c.tc : Thread nD τ).loc main_arg7) ↦{fullShare} Vv main_arg7) ∗ (((c.tc : Thread nD τ).loc main_v3) ↦{fullShare} Vv main_v3) ∗ (((c.tc : Thread nD τ).loc main_v4_0) ↦{fullShare} Vv main_v4_0) ∗ (((c.tc : Thread nD τ).loc main_v4_1) ↦{fullShare} Vv main_v4_1)) :=
  bigSep_eq_bigSepL_of_eq [main_arg0, main_arg1, main_v0, main_arg3, main_v1, main_arg5, main_v2, main_arg7, main_v3, main_v4_0, main_v4_1] arrSet_eq (by decide) _

/-- A window's array is a whole buffer: a points-to over its view is the buffer's. -/
theorem arr_pt (c : Dev nD) (w : Fin 13) (q : PosShare TreeShare) (X : Buf (Elt F) ((cfg0.win w).arr.view.loc (c.tc : Thread nD τ))) :
    (((cfg0.win w).arr.view.loc (c.tc : Thread nD τ)) ↦[(cfg0.win w).arr.view.set]{q} X : sProp 𝕄)
      = (((c.tc : Thread nD τ).loc (Pipeline.arrRef spec0 w)) ↦{q} X) := by
  rw [Memref.IsWhole.set_eq_univ (show (cfg0.win w).arr.IsWhole from arr_whole0 w)]

/-- The share each window holds of its array: the three windows on the second head's weights a third share each, every
    other window its whole array. -/
theorem share0 (c : Dev nD) : (dats m 0 c).share 0 = fullShare := rfl
theorem share1 (c : Dev nD) : (dats m 0 c).share 1 = fullShare := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare.left := rfl
theorem share8 (c : Dev nD) : (dats m 0 c).share 8 = fullShare.right.left := rfl
theorem share9 (c : Dev nD) : (dats m 0 c).share 9 = fullShare.right.right := rfl
theorem share10 (c : Dev nD) : (dats m 0 c).share 10 = fullShare := rfl
theorem share11 (c : Dev nD) : (dats m 0 c).share 11 = fullShare := rfl
theorem share12 (c : Dev nD) : (dats m 0 c).share 12 = fullShare := rfl

set_option maxHeartbeats 4000000 in
/-- The buffers behind the arrays, each whole at its entry contents, are the proof data's arrays at entry. -/
theorem hsplit (c : Dev nD) : (Pipeline.arrBufs spec0 c (V m c) : sProp 𝕄) ⊢ (dats m 0 c).arrays ((dats m 0 c).arrAt · 0) := by
  unfold Dat.arrays
  rw [arrBufs_eq, bigSep_W0]
  rw [arr_pt c 0, share0 m c, arr_pt c 1, share1 m c, arr_pt c 2, share2 m c, arr_pt c 3, share3 m c, arr_pt c 4, share4 m c, arr_pt c 5, share5 m c, arr_pt c 6, share6 m c, arr_pt c 7, share7 m c, arr_pt c 8, share8 m c, arr_pt c 9, share9 m c, arr_pt c 10, share10 m c, arr_pt c 11, share11 m c, arr_pt c 12, share12 m c]
  dsimp only
  rw [show (dats m 0 c).arrAt 0 0 = V m c (Pipeline.arrRef spec0 0) from A_eq m c 0,
    show (dats m 0 c).arrAt 1 0 = V m c (Pipeline.arrRef spec0 1) from A_eq m c 1,
    show (dats m 0 c).arrAt 2 0 = V m c (Pipeline.arrRef spec0 2) from A_eq m c 2,
    show (dats m 0 c).arrAt 3 0 = V m c (Pipeline.arrRef spec0 3) from A_eq m c 3,
    show (dats m 0 c).arrAt 4 0 = V m c (Pipeline.arrRef spec0 4) from A_eq m c 4,
    show (dats m 0 c).arrAt 5 0 = V m c (Pipeline.arrRef spec0 5) from A_eq m c 5,
    show (dats m 0 c).arrAt 6 0 = V m c (Pipeline.arrRef spec0 6) from A_eq m c 6,
    show (dats m 0 c).arrAt 7 0 = V m c (Pipeline.arrRef spec0 7) from A_eq m c 7,
    show (dats m 0 c).arrAt 8 0 = V m c (Pipeline.arrRef spec0 8) from A_eq m c 8,
    show (dats m 0 c).arrAt 9 0 = V m c (Pipeline.arrRef spec0 9) from A_eq m c 9,
    show (dats m 0 c).arrAt 10 0 = V m c (Pipeline.arrRef spec0 10) from A_eq m c 10,
    show (dats m 0 c).arrAt 11 0 = V m c (Pipeline.arrRef spec0 11) from A_eq m c 11,
    show (dats m 0 c).arrAt 12 0 = V m c (Pipeline.arrRef spec0 12) from A_eq m c 12]
  iintro ⟨B0, B1, Bv0, B3, Bv1, B5, Bv2, B7, Bv3, Bo0, Bo1⟩
  ihave B7s := (pointsTo_share (PosShare.mem_left_op_right fullShare)).1 $$ B7
  icases B7s with ⟨B7a, B7r⟩
  ihave B7t := (pointsTo_share (PosShare.mem_left_op_right fullShare.right)).1 $$ B7r
  icases B7t with ⟨B7b, B7c⟩
  isplitl [B0]; · iexact B0
  isplitl [B1]; · iexact B1
  isplitl [Bv0]; · iexact Bv0
  isplitl [B3]; · iexact B3
  isplitl [Bv1]; · iexact Bv1
  isplitl [B5]; · iexact B5
  isplitl [Bv2]; · iexact Bv2
  isplitl [B7a]; · iexact B7a
  isplitl [B7b]; · iexact B7b
  isplitl [B7c]; · iexact B7c
  isplitl [Bv3]; · iexact Bv3
  isplitl [Bo0]; · iexact Bo0
  iexact Bo1

/-! ## The host line after the region -/

/-- The buffers the host line after the region runs within: the four bias vectors and the re-laid result, which bypass the
    region, and the streamed output's array. -/
abbrev tailL : List (DevRef τ sig) :=
  [Proc.devRef .tc main_arg2, Proc.devRef .tc main_arg4, Proc.devRef .tc main_arg6, Proc.devRef .tc main_arg8,
   Proc.devRef .tc main_v5, Proc.devRef .tc main_v4_1]

/-- The buffers' contents when the region is left: as the region found them, but the streamed output's array as the
    write-backs left it. -/
def Wout (c : Dev nD) : Valuation τ sig (Elt F) :=
  Function.update (V0 m c) (Proc.devRef .tc main_v4_1) ((dats m 0 c).arrAt 12 cfg0.N)

theorem Wout_out (c : Dev nD) : Wout m c (Proc.devRef .tc main_v4_1) = (dats m 0 c).arrAt 12 cfg0.N := by
  unfold Wout; exact Function.update_self _ _ _
theorem Wout_of_ne (c : Dev nD) (b : Ref sig .tc) (h : b ≠ main_v4_1) : Wout m c (Proc.devRef .tc b) = V m c b := by
  unfold Wout; exact Function.update_of_ne (fun e => h (Proc.devRef_injective _ e)) _ _

/-- What bypasses the region, as the region is entered, -/
abbrev Zin (c : Dev nD) : sProp 𝕄 :=
  Pipeline.unscopedRestP (Ix := Unit) (Name := ℕ) (U := UR sig nD τ) (Lvl := ℕ) Pipeline.Prefetch.none spec0 c (V m c)
/-- and after the host line that follows it. -/
abbrev Zout (c : Dev nD) : sProp 𝕄 :=
  Pipeline.unscopedRestP (Ix := Unit) (Name := ℕ) (U := UR sig nD τ) (Lvl := ℕ) Pipeline.Prefetch.none spec0 c
    (fun b => StableHlo.after hostOps1 (Wout m c) (Proc.devRef .tc b))

theorem tail_sub : ∀ ops ∈ ([hostOps1] : List (List (HloOp τ sig (Elt F)))), ∀ op ∈ ops, op.bufs ⊆ (tailL : List (DevRef τ sig)).toFinset := by
  intro ops hops op hop
  simp only [List.mem_cons, List.mem_nil_iff, or_false] at hops
  subst hops
  simp only [hostOps1, List.mem_cons, List.mem_nil_iff, or_false] at hop
  subst hop
  intro b hb
  simp only [StableHlo.reshape_bufs, Finset.mem_insert, Finset.mem_singleton] at hb
  rcases hb with rfl | rfl <;> simp [tailL]
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The host line writes only the re-laid result. -/
theorem after_keep (c : Dev nD) (W : Valuation τ sig (Elt F)) (b : Ref sig .tc) (h : b ≠ main_v5) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne h))

theorem after_rest (c : Dev nD) (b : Ref sig .tc) (h5 : b ≠ main_v5) (h4 : b ≠ main_v4_1) :
    StableHlo.after hostOps1 (Wout m c) (Proc.devRef .tc b) = V m c b :=
  (after_keep c (Wout m c) b h5).trans (Wout_of_ne m c b h4)
theorem after_out (c : Dev nD) :
    StableHlo.after hostOps1 (Wout m c) (Proc.devRef .tc main_v4_1) = (dats m 0 c).arrAt 12 cfg0.N :=
  (after_keep c (Wout m c) main_v4_1 (by decide)).trans (Wout_out m c)

theorem Wout_main_arg2 (c : Dev nD) : Wout m c (Proc.devRef .tc main_arg2) = V m c main_arg2 := Wout_of_ne m c main_arg2 (by decide)
theorem Wout_main_arg4 (c : Dev nD) : Wout m c (Proc.devRef .tc main_arg4) = V m c main_arg4 := Wout_of_ne m c main_arg4 (by decide)
theorem Wout_main_arg6 (c : Dev nD) : Wout m c (Proc.devRef .tc main_arg6) = V m c main_arg6 := Wout_of_ne m c main_arg6 (by decide)
theorem Wout_main_arg8 (c : Dev nD) : Wout m c (Proc.devRef .tc main_arg8) = V m c main_arg8 := Wout_of_ne m c main_arg8 (by decide)
theorem Wout_main_v5 (c : Dev nD) : Wout m c (Proc.devRef .tc main_v5) = V m c main_v5 := Wout_of_ne m c main_v5 (by decide)

/-- The six buffers held at a valuation, one by one. -/
theorem held_tail (c : Dev nD) (W : Valuation τ sig (Elt F)) :
    (StableHlo.held (c.tc : Thread nD τ) (tailL : List (DevRef τ sig)).toFinset W : sProp 𝕄)
      = iprop((((c.tc : Thread nD τ).loc main_arg2) ↦{fullShare} W (Proc.devRef .tc main_arg2)) ∗ (((c.tc : Thread nD τ).loc main_arg4) ↦{fullShare} W (Proc.devRef .tc main_arg4)) ∗ (((c.tc : Thread nD τ).loc main_arg6) ↦{fullShare} W (Proc.devRef .tc main_arg6)) ∗ (((c.tc : Thread nD τ).loc main_arg8) ↦{fullShare} W (Proc.devRef .tc main_arg8)) ∗ (((c.tc : Thread nD τ).loc main_v5) ↦{fullShare} W (Proc.devRef .tc main_v5)) ∗ (((c.tc : Thread nD τ).loc main_v4_1) ↦{fullShare} W (Proc.devRef .tc main_v4_1))) := by
  unfold StableHlo.held
  rw [bigSep_eq_bigSepL _ (by decide)]
  rfl

set_option backward.isDefEq.respectTransparency.types false in
/-- The host line after the region, run within the six buffers. -/
theorem tail_line (c : Dev nD) (K : PUnit → sProp 𝕄) :
    iprop(boundary (c.tc : Thread nD τ) ∗ (StableHlo.held (c.tc : Thread nD τ) (tailL : List (DevRef τ sig)).toFinset (Wout m c) : sProp 𝕄))
      ⊢ iprop((iprop(boundary (c.tc : Thread nD τ) ∗ (StableHlo.held (c.tc : Thread nD τ) (tailL : List (DevRef τ sig)).toFinset (StableHlo.after hostOps1 (Wout m c)) : sProp 𝕄)) -∗ K ⟨⟩)
        -∗ wp frame (wpE (Pipeline.defs (fun q => (cfgs q).toPCfg (Val := Elt F)) defs₀) (Variants.lift Variants.none) (c.tc : Thread nD τ) none) Set.univ
            (Pipeline.chain [StableHlo.seq hostOps1]) K) := by
  refine (Pipeline.wp_seqs_then (fun q => (cfgs q).toPCfg (Val := Elt F)) defs₀ Variants.none c (tailL : List (DevRef τ sig)).toFinset [] [hostOps1] tail_sub tail_fresh (Wout m c) (K := K)).trans ?_
  iintro H Hk
  iapply H
  iintro Hb
  rw [Pipeline.chain_nil, wp_pure]
  imodintro
  iapply Hk
  iexact Hb

set_option backward.isDefEq.respectTransparency.types false in
/-- From the region's exit — the arrays as written back, what bypassed the region — the host line runs, and hands the
    arrays back with the bypassing buffers at its results. -/
theorem htail (c : Dev nD) (Q' : PUnit → sProp 𝕄) :
    iprop((iprop((dats m 0 c).arrays ((dats m 0 c).arrAt · cfg0.N) ∗ Zout m c) -∗ Q' ⟨⟩)
        ∗ boundary (c.tc : Thread nD τ) ∗ (dats m 0 c).arrays ((dats m 0 c).arrAt · cfg0.N) ∗ Zin m c)
      ⊢ wp frame (wpE (Pipeline.defs (fun q => (cfgs q).toPCfg (Val := Elt F)) defs₀) (Variants.lift Variants.none) (c.tc : Thread nD τ) none) Set.univ
          (Pipeline.chain [StableHlo.seq hostOps1]) Q' := by
  unfold Dat.arrays Zin Zout
  rw [bigSep_W0, Pipeline.unscopedRestP_none, Pipeline.unscopedRestP_none, unscopedRest0_eq, unscopedRest0_eq]
  rw [arr_pt c 12, share12 m c]
  iintro ⟨Hk, Hb, ⟨A0, A1, A2, A3, A4, A5, A6, A7, A8, A9, A10, A11, A12⟩, ⟨R2, R4, R6, R8, R5⟩⟩
  iapply (tail_line m c Q') $$ [Hb R2 R4 R6 R8 R5 A12]
  · rw [held_tail]
    rw [Wout_out, Wout_main_arg2, Wout_main_arg4, Wout_main_arg6, Wout_main_arg8, Wout_main_v5]
    isplitl [Hb]; · iexact Hb
    isplitl [R2]; · iexact R2
    isplitl [R4]; · iexact R4
    isplitl [R6]; · iexact R6
    isplitl [R8]; · iexact R8
    isplitl [R5]; · iexact R5
    iexact A12
  rw [held_tail, after_out]
  iintro ⟨Hb, R2, R4, R6, R8, R5, A12⟩
  iapply Hk
  isplitl [A0 A1 A2 A3 A4 A5 A6 A7 A8 A9 A10 A11 A12]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    iexact A12
  isplitl [R2]; · iexact R2
  isplitl [R4]; · iexact R4
  isplitl [R6]; · iexact R6
  isplitl [R8]; · iexact R8
  iexact R5

/-! ## The run -/

/-- What every final state satisfies: each windowed array at what the proof data's write-backs leave in it, and every
    buffer that bypasses the region at the host line's result over the region's exit contents. -/
def RunPost (r : PUnit × MemSt nD τ sig (Elt F)) : Prop := ∀ c : Dev nD,
  (∀ w : Fin 13, r.2.mem (((cfg0.win w).arr.view.loc (c.tc : Thread nD τ))) = (dats m 0 c).arrAt w cfg0.N)
  ∧ ∀ b ∈ Pipeline.restRefsP sig Pipeline.Prefetch.none spec0,
      r.2.mem ((c.tc : Thread nD τ).loc b) = StableHlo.after hostOps1 (Wout m c) (Proc.devRef .tc b)

set_option backward.isDefEq.respectTransparency.types false in
set_option maxHeartbeats 4000000 in
/-- At the compiled mesh, from any memory with zero counters: every weakly fair execution of @main terminates in a state
    satisfying `RunPost`. -/
theorem run_main : θ_run defs (onTc (τ := τ) (main (F := F))) (s₀ m ρ) (RunPost m) := by
  classical
  exact Pipeline.θ_run_region_pf_tail (fun q => (cfgs q).toPCfg (Val := Elt F)) (fun q => (cfgs q).toPCfg_adm) (dats m) () cellOf_inj (0 : Fin 1) winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))
    (hu₀ := by
      iintro Hu; imodintro
      isplitl [Hu]; · iapply (show (ownU _ : sProp 𝕄) ⊢ BI.own (emb₁ (initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := Zin m) (Z' := Zout m)
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0,
      s.mem ((c.tc : Thread nD τ).loc b) = StableHlo.after hostOps1 (Wout m c) (Proc.devRef .tc b))
    (hY := fun c s' => by
      iintro ⟨-, HU, HSI⟩
      unfold Zout Pipeline.unscopedRestP
      imodintro
      iapply (pointsTo_read_all (Pipeline.restRefsP sig Pipeline.Prefetch.none spec0) (fun b => (c.tc : Thread nD τ).loc b)
        (fun b => StableHlo.after hostOps1 (Wout m c) (Proc.devRef .tc b)) s')
      isplitl [HU] <;> iassumption)
    (hQ := fun s h c => ⟨(h c).1, (h c).2.2⟩)

end Cert.KernelIdeal.Mlp

end
-- ==== Proof.KernelIdeal.GridFrame.lean ====
/-
  The frame of the MLP program: the nine argument arrays end as launched. Five of them are arrays of input windows,
  into which nothing is ever written back; the four bias vectors are read only by the host lines before the region
  and bypass the region and the host line after it.
-/
import proofs.«151329_g66365834658321_cont_9to1_m_1147_41_alg».proof.Proof.KernelIdeal.GridLaunch

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host writes only the four bias rows before the region: any other array is found as launched. -/
theorem V_launched (c : Dev nD) (b : Ref sig .tc)
    (h : b ≠ main_v0 ∧ b ≠ main_v1 ∧ b ≠ main_v2 ∧ b ≠ main_v3) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    exact ⟨StableHlo.devRef_ne_of_ne h.1, StableHlo.devRef_ne_of_ne h.2.1, StableHlo.devRef_ne_of_ne h.2.2.1,
      StableHlo.devRef_ne_of_ne h.2.2.2⟩))

/-- An unscoped buffer that is no window's array bypasses the region. -/
theorem mem_rest (b : Ref sig .tc) (hs : b.isScoped = false) (ha : ∀ w, Pipeline.arrRef spec0 w ≠ b) :
    b ∈ Pipeline.restRefsP sig Pipeline.Prefetch.none spec0 := by
  unfold Pipeline.restRefsP
  exact Finset.mem_sdiff.mpr ⟨Pipeline.mem_restRefs_of b hs ha, fun h => by
    obtain ⟨k, -, -⟩ := Finset.mem_image.mp h; exact k.elim0⟩

/-- An input window's array is never written back into: it ends as the region found it, which is as launched. -/
theorem kept_in (c : Dev nD) (r : PUnit × MemSt nD τ sig (Elt F)) (h : RunPost m r) (w : Fin 13) (hw : (cfg0.win w).isOut = false)
    (b : Ref sig .tc) (hb : Pipeline.arrRef spec0 w = b)
    (hv : b ≠ main_v0 ∧ b ≠ main_v1 ∧ b ≠ main_v2 ∧ b ≠ main_v3) :
    r.2.mem ((c.tc : Thread nD τ).loc b) = m ((c.tc : Thread nD τ).loc b) := by
  subst hb
  exact (((h c).1 w).trans (((dats m 0 c).arrAt_in w hw _).trans (A_eq m c w))).trans (V_launched m c _ hv)

/-- A bias vector bypasses the region and the host line after it: it ends as launched. -/
theorem kept_rest (c : Dev nD) (r : PUnit × MemSt nD τ sig (Elt F)) (h : RunPost m r) (b : Ref sig .tc) (hs : b.isScoped = false)
    (ha : ∀ w, Pipeline.arrRef spec0 w ≠ b) (h5 : b ≠ main_v5) (h4 : b ≠ main_v4_1)
    (hv : b ≠ main_v0 ∧ b ≠ main_v1 ∧ b ≠ main_v2 ∧ b ≠ main_v3) :
    r.2.mem ((c.tc : Thread nD τ).loc b) = m ((c.tc : Thread nD τ).loc b) :=
  (((h c).2 b (mem_rest b hs ha)).trans (after_rest m c b h5 h4)).trans (V_launched m c b hv)

/-- THE FRAME: every weakly fair execution terminates, and the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
      kept_in m c r h 0 rfl main_arg0 rfl (by decide),
      kept_in m c r h 1 rfl main_arg1 rfl (by decide),
      kept_rest m c r h main_arg2 (by decide) (by decide) (by decide) (by decide) (by decide),
      kept_in m c r h 3 rfl main_arg3 rfl (by decide),
      kept_rest m c r h main_arg4 (by decide) (by decide) (by decide) (by decide) (by decide),
      kept_in m c r h 5 rfl main_arg5 rfl (by decide),
      kept_rest m c r h main_arg6 (by decide) (by decide) (by decide) (by decide) (by decide),
      kept_in m c r h 7 rfl main_arg7 rfl (by decide),
      kept_rest m c r h main_arg8 (by decide) (by decide) (by decide) (by decide) (by decide)⟩)
    (run_main m ρ)

end Cert.KernelIdeal.Mlp

end
-- ==== Proof.MlpPieces.lean ====
/-
  What each control case of the kernel body leaves in a buffer, as the body's stored values.

  At a grid point the body's stores into a buffer are a short list of pieces (a rectangle of the buffer and the
  value stored there) that cover the buffer; what the buffer then holds is, at each index, the value of the last
  piece whose rectangle holds the index. A piece that is the whole buffer leaves its value. The streamed output
  block `[32, 2560]` is written as two halves of 1280 columns, the left half first and the right half last, the
  rectangles disjoint: columns `r < 1280` hold the left store's value at column `r`, columns `1280 + r` the right
  store's value at column `r`. Each stored value is the body's payload of what the body loaded; a load of a whole
  buffer reads its contents, a load of the trunk's activations after the trunk's own store reads the value just
  stored, and the two loads of half the `[1, 2560]` bias row read its columns `r` and `1280 + r`.
-/
import proofs.«151329_g66365834658321_cont_9to1_m_1147_41_alg».proof.Proof.KernelIdeal.GridValues
import Idealize.ShloMosaic.Lib.Pipeline.Value
import Idealize.ShloMosaic.Lib.Pipeline.FrameBody
import Idealize.ShloMosaic.Lib.ValueIdx

set_option maxRecDepth 16384

noncomputable section

namespace Cert.MlpPieces

open Cert.KernelIdeal Cert.KernelIdeal.Gen Cert.KernelIdeal.Mlp
open Idealize.ShloMosaic Idealize.ShloMosaic.TcCoe Idealize.ShloMosaic.Tactic Idealize.ShloMosaic.ValueIdx
open Idealize.SL.Sem

variable {F : FTy → Type} [FloatOps F]

/-- Both offsets of a whole-buffer rectangle are zero. -/
theorem hz : (![0, 0] : Fin 2 → Nat) = fun _ => 0 := funext fun a => by fin_cases a <;> rfl

/-! ## A buffer written in two halves -/

section Halves
variable {α : EltTy → Type} [∀ e, Nonempty (α e)]

/-- Column `1280 + r` of a `[32, 2560]` buffer is column `r` of its right half. -/
theorem right_emb (inb : ∀ a, (![0, 1280] : Fin 2 → Nat) a + (![32, 1280] : Fin 2 → Nat) a ≤ S32x2560.size a)
    (b : Fin 32) (r : Fin 1280) :
    (Rect.unit (s := S32x2560) ![0, 1280] ![32, 1280] inb).emb (ix2 b r)
      = (ix2 b (⟨1280 + r.val, by have := r.isLt; omega⟩ : Fin 2560) : S32x2560.Idx) :=
  funext fun a => Fin.ext (by
    match a with
    | ⟨0, _⟩ => show 0 + 1 * b.val = b.val; omega
    | ⟨1, _⟩ => show 1280 + 1 * r.val = 1280 + r.val; omega)

/-- Column `r < 1280` of a `[32, 2560]` buffer is column `r` of its left half. -/
theorem left_emb (inb : ∀ a, (![0, 0] : Fin 2 → Nat) a + (![32, 1280] : Fin 2 → Nat) a ≤ S32x2560.size a)
    (b : Fin 32) (r : Fin 1280) :
    (Rect.unit (s := S32x2560) ![0, 0] ![32, 1280] inb).emb (ix2 b r)
      = (ix2 b (⟨r.val, by have := r.isLt; omega⟩ : Fin 2560) : S32x2560.Idx) :=
  funext fun a => Fin.ext (by
    match a with
    | ⟨0, _⟩ => show 0 + 1 * b.val = b.val; omega
    | ⟨1, _⟩ => show 0 + 1 * r.val = r.val; omega)

/-- The right half written last: the buffer's right half is that store's value. -/
theorem canon_right (inbR inbL) (wR : (Rect.unit (s := S32x2560) ![0, 1280] ![32, 1280] inbR).shape.Idx → α .f32)
    (wL : (Rect.unit (s := S32x2560) ![0, 0] ![32, 1280] inbL).shape.Idx → α .f32) (b : Fin 32) (r : Fin 1280) :
    View.canon [(⟨Rect.unit (s := S32x2560) ![0, 1280] ![32, 1280] inbR, wR⟩ : View.Piece α S32x2560 .f32),
        ⟨Rect.unit (s := S32x2560) ![0, 0] ![32, 1280] inbL, wL⟩]
      (ix2 b (⟨1280 + r.val, by have := r.isLt; omega⟩ : Fin 2560)) = wR (ix2 b r) := by
  rw [← right_emb inbR b r]
  exact View.canon_cons_emb _ wR _ (ix2 b r)

/-- The left half written first and not overwritten: the buffer's left half is that store's value. -/
theorem canon_left (inbR inbL) (wR : (Rect.unit (s := S32x2560) ![0, 1280] ![32, 1280] inbR).shape.Idx → α .f32)
    (wL : (Rect.unit (s := S32x2560) ![0, 0] ![32, 1280] inbL).shape.Idx → α .f32) (b : Fin 32) (r : Fin 1280) :
    View.canon [(⟨Rect.unit (s := S32x2560) ![0, 1280] ![32, 1280] inbR, wR⟩ : View.Piece α S32x2560 .f32),
        ⟨Rect.unit (s := S32x2560) ![0, 0] ![32, 1280] inbL, wL⟩]
      (ix2 b (⟨r.val, by have := r.isLt; omega⟩ : Fin 2560)) = wL (ix2 b r) := by
  rw [View.canon_cons_of_not_mem]
  · rw [← left_emb inbL b r]
    exact View.canon_cons_emb _ wL _ (ix2 b r)
  · intro h
    have h1 := ((Rect.mem_set_unit (inb := inbR)).mp h) 1
    have : (1280 : Nat) ≤ r.val := h1.1
    have := r.isLt
    omega

end Halves

/-! ## The two halves of the bias row -/

/-- The left half of the `[1, 2560]` bias row at column `r` is the row at column `r`. -/
theorem ld_bias_left (x11 : Vec F S1x2560 .f32) (r : Fin 1280) :
    View.ld x11 (Rect.unit (s := S1x2560) ![0, 0] ![1, 1280] inb_S1x2560_S1x1280_0_0) (ix2 (0 : Fin 1) r)
      = x11 (ix2 (0 : Fin 1) (⟨r.val, by have := r.isLt; omega⟩ : Fin 2560)) :=
  congrArg x11 (funext fun a => Fin.ext (by
    match a with
    | ⟨0, _⟩ => show 0 + 1 * 0 = 0; omega
    | ⟨1, _⟩ => show 0 + 1 * r.val = r.val; omega))

/-- The right half of the `[1, 2560]` bias row at column `r` is the row at column `1280 + r`. -/
theorem ld_bias_right (x11 : Vec F S1x2560 .f32) (r : Fin 1280) :
    View.ld x11 (Rect.unit (s := S1x2560) ![0, 1280] ![1, 1280] inb_S1x2560_S1x1280_0_1280) (ix2 (0 : Fin 1) r)
      = x11 (ix2 (0 : Fin 1) (⟨1280 + r.val, by have := r.isLt; omega⟩ : Fin 2560)) :=
  congrArg x11 (funext fun a => Fin.ext (by
    match a with
    | ⟨0, _⟩ => show 0 + 1 * 0 = 0; omega
    | ⟨1, _⟩ => show 1280 + 1 * r.val = 1280 + r.val; omega))

/-! ## Buffers a case stores whole -/

/-- The trunk's case leaves the second hidden layer's stored value in the activations' scratch. -/
theorem outTrunkH_eq (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : condTrunk i) (hc2 : ¬condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) :
    outTrunkH c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 = k0_pay1 x1 x2 x3 x4 x5 := by
  unfold outTrunkH
  rw [View.read_writes_eq_canon _ _ _ (coverTrunkH c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11)]
  unfold runTrunk
  dsimp only
  sl_unfold_words
  rw [View.canon_unit_zero hz]
  simp only [View.readAt_eq_ld, harg1.read_unread, harg2.read_unread, harg3.read_unread, harg4.read_unread, harg5.read_unread,
    View.ld_unit_zero (S := S32x256) hz, View.ld_unit_zero (S := S1024x256) hz, View.ld_unit_zero (S := S1x1024) hz,
    View.ld_unit_zero (S := S1024x1024) hz]

/-- The first head's case leaves the head's stored value, of the kept activations, in its output buffer. -/
theorem outCacheC_eq (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) :
    outCacheC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14 = k0_pay2 xs14 x6 x7 := by
  unfold outCacheC
  rw [View.read_writes_eq_canon _ _ _ (coverCacheC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14)]
  unfold runCache
  dsimp only
  rw [View.canon_unit_zero hz]
  simp only [View.readAt_eq_ld, harg14.read_unread, harg6.read_unread, harg7.read_unread,
    View.ld_unit_zero (S := S32x1024) hz, View.ld_unit_zero (S := S1000x1024) hz, View.ld_unit_zero (S := S1x1000) hz]

/-- The last block's case leaves the product of the kept activations with the last block in the second scratch. -/
theorem outTailE_eq (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) :
    outTailE c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14 = k0_pay3 xs14 x10 := by
  unfold outTailE
  rw [View.read_writes_eq_canon _ _ _ (coverTailE c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14)]
  unfold runTail
  dsimp only
  rw [View.canon_unit_zero hz]
  simp only [View.readAt_eq_ld, harg14.read_unread, harg10.read_unread,
    View.ld_unit_zero (S := S32x1024) hz, View.ld_unit_zero (S := S2560x1024) hz]

/-- The last point's case leaves the kept product plus the bias row in the streamed output block. -/
theorem outLastR_eq (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : ¬condTail i) (hc4 : ¬condStream i) (hc5 : condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs15 : Vec F S32x2560 .f32) :
    outLastR c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs15 = k0_pay6 xs15 x11 := by
  unfold outLastR
  rw [View.read_writes_eq_canon _ _ _ (coverLastR c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs15)]
  unfold runLast
  dsimp only
  rw [View.canon_unit_zero hz]
  simp only [View.readAt_eq_ld, harg15.read_unread, harg11.read_unread,
    View.ld_unit_zero (S := S32x2560) hz, View.ld_unit_zero (S := S1x2560) hz]

/-! ## The streamed output block, written in two halves -/

/-- At the trunk's point the two half stores use the activations the trunk has just stored. -/
theorem outTrunkR_canon (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : condTrunk i) (hc2 : ¬condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) :
    outTrunkR c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11
      = View.canon [(⟨Rect.unit (s := S32x2560) ![0, 1280] ![32, 1280] inb_S32x2560_S32x1280_0_1280,
            k0_pay5 (k0_pay1 x1 x2 x3 x4 x5) x9 (View.ld x11 (Rect.unit (s := S1x2560) ![0, 1280] ![1, 1280] inb_S1x2560_S1x1280_0_1280))⟩ : View.Piece (Elt F) S32x2560 .f32),
          ⟨Rect.unit (s := S32x2560) ![0, 0] ![32, 1280] inb_S32x2560_S32x1280_0_0,
            k0_pay4 (k0_pay1 x1 x2 x3 x4 x5) x8 (View.ld x11 (Rect.unit (s := S1x2560) ![0, 0] ![1, 1280] inb_S1x2560_S1x1280_0_0))⟩] := by
  unfold outTrunkR
  rw [View.read_writes_eq_canon _ _ _ (coverTrunkR c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11)]
  unfold runTrunk
  dsimp only
  sl_unfold_words
  rw [View.readCov_unit_zero (S := S32x1024) _ hz]
  simp only [View.readAt_eq_ld, harg1.read_unread, harg2.read_unread, harg3.read_unread, harg4.read_unread, harg5.read_unread,
    harg8.read_unread, harg9.read_unread, harg11.read_unread,
    View.ld_unit_zero (S := S32x256) hz, View.ld_unit_zero (S := S1024x256) hz, View.ld_unit_zero (S := S1x1024) hz,
    View.ld_unit_zero (S := S1024x1024) hz, View.ld_unit_zero (S := S1280x1024) hz]

/-- At the first head's point the two half stores use the kept activations. -/
theorem outCacheR_canon (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) :
    outCacheR c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14
      = View.canon [(⟨Rect.unit (s := S32x2560) ![0, 1280] ![32, 1280] inb_S32x2560_S32x1280_0_1280,
            k0_pay5 xs14 x9 (View.ld x11 (Rect.unit (s := S1x2560) ![0, 1280] ![1, 1280] inb_S1x2560_S1x1280_0_1280))⟩ : View.Piece (Elt F) S32x2560 .f32),
          ⟨Rect.unit (s := S32x2560) ![0, 0] ![32, 1280] inb_S32x2560_S32x1280_0_0,
            k0_pay4 xs14 x8 (View.ld x11 (Rect.unit (s := S1x2560) ![0, 0] ![1, 1280] inb_S1x2560_S1x1280_0_0))⟩] := by
  unfold outCacheR
  rw [View.read_writes_eq_canon _ _ _ (coverCacheR c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14)]
  unfold runCache
  dsimp only
  simp only [View.readAt_eq_ld, harg14.read_unread, harg8.read_unread, harg9.read_unread, harg11.read_unread,
    View.ld_unit_zero (S := S32x1024) hz, View.ld_unit_zero (S := S1280x1024) hz]

/-- At the last block's point the two half stores use the kept activations. -/
theorem outTailR_canon (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) :
    outTailR c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14
      = View.canon [(⟨Rect.unit (s := S32x2560) ![0, 1280] ![32, 1280] inb_S32x2560_S32x1280_0_1280,
            k0_pay5 xs14 x9 (View.ld x11 (Rect.unit (s := S1x2560) ![0, 1280] ![1, 1280] inb_S1x2560_S1x1280_0_1280))⟩ : View.Piece (Elt F) S32x2560 .f32),
          ⟨Rect.unit (s := S32x2560) ![0, 0] ![32, 1280] inb_S32x2560_S32x1280_0_0,
            k0_pay4 xs14 x8 (View.ld x11 (Rect.unit (s := S1x2560) ![0, 0] ![1, 1280] inb_S1x2560_S1x1280_0_0))⟩] := by
  unfold outTailR
  rw [View.read_writes_eq_canon _ _ _ (coverTailR c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14)]
  unfold runTail
  dsimp only
  simp only [View.readAt_eq_ld, harg14.read_unread, harg8.read_unread, harg9.read_unread, harg11.read_unread,
    View.ld_unit_zero (S := S32x1024) hz, View.ld_unit_zero (S := S1280x1024) hz]

/-- At a middle point the two half stores use the kept activations. -/
theorem outStreamR_canon (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) :
    outStreamR c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14
      = View.canon [(⟨Rect.unit (s := S32x2560) ![0, 1280] ![32, 1280] inb_S32x2560_S32x1280_0_1280,
            k0_pay5 xs14 x9 (View.ld x11 (Rect.unit (s := S1x2560) ![0, 1280] ![1, 1280] inb_S1x2560_S1x1280_0_1280))⟩ : View.Piece (Elt F) S32x2560 .f32),
          ⟨Rect.unit (s := S32x2560) ![0, 0] ![32, 1280] inb_S32x2560_S32x1280_0_0,
            k0_pay4 xs14 x8 (View.ld x11 (Rect.unit (s := S1x2560) ![0, 0] ![1, 1280] inb_S1x2560_S1x1280_0_0))⟩] := by
  unfold outStreamR
  rw [View.read_writes_eq_canon _ _ _ (coverStreamR c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14)]
  unfold runStream
  dsimp only
  simp only [View.readAt_eq_ld, harg14.read_unread, harg8.read_unread, harg9.read_unread, harg11.read_unread,
    View.ld_unit_zero (S := S32x1024) hz, View.ld_unit_zero (S := S1280x1024) hz]

/-- The trunk's point: columns `r < 1280` of the streamed output block are the first half block's affine form. -/
theorem outTrunkR_left (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : condTrunk i) (hc2 : ¬condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (b : Fin 32) (r : Fin 1280) :
    outTrunkR c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 (ix2 b (⟨r.val, by have := r.isLt; omega⟩ : Fin 2560))
      = k0_pay4 (k0_pay1 x1 x2 x3 x4 x5) x8 (View.ld x11 (Rect.unit (s := S1x2560) ![0, 0] ![1, 1280] inb_S1x2560_S1x1280_0_0)) (ix2 b r) := by
  rw [outTrunkR_canon]
  exact canon_left _ _ _ _ b r

/-- The trunk's point: columns `1280 + r` of the streamed output block are the second half block's affine form. -/
theorem outTrunkR_right (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : condTrunk i) (hc2 : ¬condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (b : Fin 32) (r : Fin 1280) :
    outTrunkR c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 (ix2 b (⟨1280 + r.val, by have := r.isLt; omega⟩ : Fin 2560))
      = k0_pay5 (k0_pay1 x1 x2 x3 x4 x5) x9 (View.ld x11 (Rect.unit (s := S1x2560) ![0, 1280] ![1, 1280] inb_S1x2560_S1x1280_0_1280)) (ix2 b r) := by
  rw [outTrunkR_canon]
  exact canon_right _ _ _ _ b r

/-- The first head's point: columns `r < 1280` of the streamed output block are the first half block's affine form. -/
theorem outCacheR_left (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) (b : Fin 32) (r : Fin 1280) :
    outCacheR c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14 (ix2 b (⟨r.val, by have := r.isLt; omega⟩ : Fin 2560))
      = k0_pay4 xs14 x8 (View.ld x11 (Rect.unit (s := S1x2560) ![0, 0] ![1, 1280] inb_S1x2560_S1x1280_0_0)) (ix2 b r) := by
  rw [outCacheR_canon]
  exact canon_left _ _ _ _ b r

/-- The first head's point: columns `1280 + r` of the streamed output block are the second half block's affine form. -/
theorem outCacheR_right (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) (b : Fin 32) (r : Fin 1280) :
    outCacheR c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14 (ix2 b (⟨1280 + r.val, by have := r.isLt; omega⟩ : Fin 2560))
      = k0_pay5 xs14 x9 (View.ld x11 (Rect.unit (s := S1x2560) ![0, 1280] ![1, 1280] inb_S1x2560_S1x1280_0_1280)) (ix2 b r) := by
  rw [outCacheR_canon]
  exact canon_right _ _ _ _ b r

/-- The last block's point: columns `r < 1280` of the streamed output block are the first half block's affine form. -/
theorem outTailR_left (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) (b : Fin 32) (r : Fin 1280) :
    outTailR c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14 (ix2 b (⟨r.val, by have := r.isLt; omega⟩ : Fin 2560))
      = k0_pay4 xs14 x8 (View.ld x11 (Rect.unit (s := S1x2560) ![0, 0] ![1, 1280] inb_S1x2560_S1x1280_0_0)) (ix2 b r) := by
  rw [outTailR_canon]
  exact canon_left _ _ _ _ b r

/-- The last block's point: columns `1280 + r` of the streamed output block are the second half block's affine form. -/
theorem outTailR_right (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) (b : Fin 32) (r : Fin 1280) :
    outTailR c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14 (ix2 b (⟨1280 + r.val, by have := r.isLt; omega⟩ : Fin 2560))
      = k0_pay5 xs14 x9 (View.ld x11 (Rect.unit (s := S1x2560) ![0, 1280] ![1, 1280] inb_S1x2560_S1x1280_0_1280)) (ix2 b r) := by
  rw [outTailR_canon]
  exact canon_right _ _ _ _ b r

/-- A middle point: columns `r < 1280` of the streamed output block are the first half block's affine form. -/
theorem outStreamR_left (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) (b : Fin 32) (r : Fin 1280) :
    outStreamR c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14 (ix2 b (⟨r.val, by have := r.isLt; omega⟩ : Fin 2560))
      = k0_pay4 xs14 x8 (View.ld x11 (Rect.unit (s := S1x2560) ![0, 0] ![1, 1280] inb_S1x2560_S1x1280_0_0)) (ix2 b r) := by
  rw [outStreamR_canon]
  exact canon_left _ _ _ _ b r

/-- A middle point: columns `1280 + r` of the streamed output block are the second half block's affine form. -/
theorem outStreamR_right (c : Dev nD) (i : grid0.Coords) (arg1 : Memref sig .tc .vmem S32x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1000x1024 .f32) (harg6 : arg6.IsWhole) (arg7 : Memref sig .tc .vmem S1x1000 .f32) (harg7 : arg7.IsWhole) (arg8 : Memref sig .tc .vmem S1280x1024 .f32) (harg8 : arg8.IsWhole) (arg9 : Memref sig .tc .vmem S1280x1024 .f32) (harg9 : arg9.IsWhole) (arg10 : Memref sig .tc .vmem S2560x1024 .f32) (harg10 : arg10.IsWhole) (arg11 : Memref sig .tc .vmem S1x2560 .f32) (harg11 : arg11.IsWhole) (arg12 : Memref sig .tc .vmem S32x1000 .f32) (harg12 : arg12.IsWhole) (arg13 : Memref sig .tc .vmem S32x2560 .f32) (harg13 : arg13.IsWhole) (arg14 : Memref sig .tc .vmem S32x1024 .f32) (harg14 : arg14.IsWhole) (arg15 : Memref sig .tc .vmem S32x2560 .f32) (harg15 : arg15.IsWhole)
    (hc1 : ¬condTrunk i) (hc2 : ¬condCache i) (hc3 : ¬condTail i) (hc4 : condStream i) (hc5 : ¬condLast i) (x1 : Vec F S32x256 .f32) (x2 : Vec F S1024x256 .f32) (x3 : Vec F S1x1024 .f32) (x4 : Vec F S1024x1024 .f32) (x5 : Vec F S1x1024 .f32) (x6 : Vec F S1000x1024 .f32) (x7 : Vec F S1x1000 .f32) (x8 : Vec F S1280x1024 .f32) (x9 : Vec F S1280x1024 .f32) (x10 : Vec F S2560x1024 .f32) (x11 : Vec F S1x2560 .f32) (xs14 : Vec F S32x1024 .f32) (b : Fin 32) (r : Fin 1280) :
    outStreamR c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x1 x2 x3 x4 x5 x6 x7 x8 x9 x10 x11 xs14 (ix2 b (⟨1280 + r.val, by have := r.isLt; omega⟩ : Fin 2560))
      = k0_pay5 xs14 x9 (View.ld x11 (Rect.unit (s := S1x2560) ![0, 1280] ![1, 1280] inb_S1x2560_S1x1280_0_1280)) (ix2 b r) := by
  rw [outStreamR_canon]
  exact canon_right _ _ _ _ b r

end Cert.MlpPieces

end
-- ==== Proof.MlpBlocks.lean ====
/-
  Each input window's block at a grid point, read at an index off the memory the program is launched with.

  Before the region the host re-lays the four bias vectors as one-row matrices; nothing else is written, so every
  other array is found as launched, and a bias row at column `j` is the bias vector at `j`. A window's block
  at point `t` starts, on each axis, at (block index) × (block extent). Seven windows are whole arrays (block
  index 0 on both axes at every point). The large weight matrix `[64000, 1024]` is read three ways: in blocks
  of 1280 rows at block index `min (2 t) 46`, in blocks of 1280 rows at block index `min (2 t + 1) 47`, and
  as the one block of 2560 rows at block index 24; so for `t < 24` the first two are rows `2560 t + r` and
  `2560 t + 1280 + r`, and the third is rows `61440 + r`. The last bias row `[1, 64000]` is read in blocks
  of 2560 columns at block index `t`: columns `2560 t + r`.
-/
import proofs.«151329_g66365834658321_cont_9to1_m_1147_41_alg».proof.Proof.KernelIdeal.PointDefs
import Idealize.ShloMosaic.Lib.ValueIdx
import Idealize.ShloMosaic.Lib.Pipeline.Value

set_option maxRecDepth 16384

noncomputable section

namespace Cert.MlpBlocks

open Cert.KernelIdeal Cert.KernelIdeal.Gen Cert.KernelIdeal.Mlp
open Idealize.ShloMosaic Idealize.ShloMosaic.TcCoe Idealize.ShloMosaic.Tactic Idealize.ShloMosaic.ValueIdx
open Idealize.SL.Sem

variable {F : FTy → Type} [FloatOps F]
variable (m : (ℓ : Loc nD τ sig) → Buf (Elt F) ℓ)

/-! ## The arrays as the region finds them -/

/-- The host writes only the four bias rows before the region: any other array is found as launched. -/
theorem V_arg (c : Dev nD) (r : Ref sig .tc)
    (h : r ≠ main_v0 ∧ r ≠ main_v1 ∧ r ≠ main_v2 ∧ r ≠ main_v3) : V m c r = m ((c : Thread nD τ).loc r) :=
  StableHlo.after_of_forall_not_mem (b := Proc.devRef .tc r) _ _ (List.forall_iff_forall_mem.mp (by
    simp only [hostOps0, List.flatten_cons, List.flatten_nil, List.append_nil, List.cons_append,
      List.nil_append, List.Forall, StableHlo.reshape_writes, Finset.mem_singleton]
    exact ⟨StableHlo.devRef_ne_of_ne h.1, StableHlo.devRef_ne_of_ne h.2.1, StableHlo.devRef_ne_of_ne h.2.2.1,
      StableHlo.devRef_ne_of_ne h.2.2.2⟩))

/-- The first layer's bias row is the bias vector re-laid as `[1, 1024]`. -/
theorem V_v0 (c : Dev nD) : (V m c main_v0 : S1x1024.Idx → Elt F .f32)
    = shapeCast S1x1024 (m ((c : Thread nD τ).loc main_arg2)) shapeCasts_S1024_S1x1024 := by
  show StableHlo.after hostOps0 (fun b => m (c, b)) (Proc.devRef .tc main_v0) = _
  after_results
  rfl
/-- The second layer's bias row is the bias vector re-laid as `[1, 1024]`. -/
theorem V_v1 (c : Dev nD) : (V m c main_v1 : S1x1024.Idx → Elt F .f32)
    = shapeCast S1x1024 (m ((c : Thread nD τ).loc main_arg4)) shapeCasts_S1024_S1x1024 := by
  show StableHlo.after hostOps0 (fun b => m (c, b)) (Proc.devRef .tc main_v1) = _
  after_results
  rfl
/-- The first head's bias row is the bias vector re-laid as `[1, 1000]`. -/
theorem V_v2 (c : Dev nD) : (V m c main_v2 : S1x1000.Idx → Elt F .f32)
    = shapeCast S1x1000 (m ((c : Thread nD τ).loc main_arg6)) shapeCasts_S1000_S1x1000 := by
  show StableHlo.after hostOps0 (fun b => m (c, b)) (Proc.devRef .tc main_v2) = _
  after_results
  rfl
/-- The second head's bias row is the bias vector re-laid as `[1, 64000]`. -/
theorem V_v3 (c : Dev nD) : (V m c main_v3 : S1x64000.Idx → Elt F .f32)
    = shapeCast S1x64000 (m ((c : Thread nD τ).loc main_arg8)) shapeCasts_S64000_S1x64000 := by
  show StableHlo.after hostOps0 (fun b => m (c, b)) (Proc.devRef .tc main_v3) = _
  after_results
  rfl

/-- A vector re-laid as one row reads, at column `j`, the vector at `j`. -/
theorem row_apply {n : Nat} {α : Type} (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) := by
  refine shapeCast_apply _ _ _ _ ?_
  rw [Shape.rowMajor_val_one, Shape.rowMajor_val_two]
  show j.val = 0 * n + j.val
  omega

/-! ## The windows' block indices over the grid -/

/-- The seven whole-array windows sit at block index 0 on both axes at every point. -/
theorem idx_whole : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The streamed windows' block indices: the two half blocks of the large weight matrix at `min (2 t) 46` and
    `min (2 t + 1) 47`, its last double block at 24, and the bias row's block at `t`. -/
theorem idx_stream : ∀ t : Fin cfg0.N,
    win0_7.index t (0 : Fin 2) = min (2 * t.val) 46 ∧ win0_7.index t (1 : Fin 2) = 0
    ∧ win0_8.index t (0 : Fin 2) = min (2 * t.val + 1) 47 ∧ win0_8.index t (1 : Fin 2) = 0
    ∧ win0_9.index t (0 : Fin 2) = 24 ∧ win0_9.index t (1 : Fin 2) = 0
    ∧ win0_10.index t (0 : Fin 2) = 0 ∧ win0_10.index t (1 : Fin 2) = t.val :=
  (by decide +kernel : ∀ t : Fin grid0.N, _)

/-! ## The whole-array windows -/

/-- Window 0 is the whole of the state array. -/
theorem blk0_apply (c : Dev nD) (t : Fin cfg0.N) (p : Fin 32) (k : Fin 256) :
    (iblk m c 0 t : Vec F S32x256 .f32) (ix2 p k)
      = (m ((c : Thread nD τ).loc main_arg0) : S32x256.Idx → Elt F .f32) (ix2 p k) := by
  unfold iblk
  rw [View.read_apply]
  show V m c main_arg0 (((cfg0.win 0).blk t).view.emb (ix2 p k)) = _
  rw [V_arg m c main_arg0 (by decide)]
  refine congrArg (m ((c : Thread nD τ).loc main_arg0)) (funext fun a => Fin.ext ?_)
  match a with
  | ⟨0, _⟩ => show win0_0.index t (0 : Fin 2) * 32 + 1 * p.val = p.val; rw [(idx_whole t).1]; omega
  | ⟨1, _⟩ => show win0_0.index t (1 : Fin 2) * 256 + 1 * k.val = k.val; rw [(idx_whole t).2.1]; omega

/-- Window 1 is the whole of the first layer's weights. -/
theorem blk1_apply (c : Dev nD) (t : Fin cfg0.N) (p : Fin 1024) (k : Fin 256) :
    (iblk m c 1 t : Vec F S1024x256 .f32) (ix2 p k)
      = (m ((c : Thread nD τ).loc main_arg1) : S1024x256.Idx → Elt F .f32) (ix2 p k) := by
  unfold iblk
  rw [View.read_apply]
  show V m c main_arg1 (((cfg0.win 1).blk t).view.emb (ix2 p k)) = _
  rw [V_arg m c main_arg1 (by decide)]
  refine congrArg (m ((c : Thread nD τ).loc main_arg1)) (funext fun a => Fin.ext ?_)
  match a with
  | ⟨0, _⟩ => show win0_1.index t (0 : Fin 2) * 1024 + 1 * p.val = p.val; rw [(idx_whole t).2.2.1]; omega
  | ⟨1, _⟩ => show win0_1.index t (1 : Fin 2) * 256 + 1 * k.val = k.val; rw [(idx_whole t).2.2.2.1]; omega

/-- Window 3 is the whole of the second layer's weights. -/
theorem blk3_apply (c : Dev nD) (t : Fin cfg0.N) (p : Fin 1024) (k : Fin 1024) :
    (iblk m c 3 t : Vec F S1024x1024 .f32) (ix2 p k)
      = (m ((c : Thread nD τ).loc main_arg3) : S1024x1024.Idx → Elt F .f32) (ix2 p k) := by
  unfold iblk
  rw [View.read_apply]
  show V m c main_arg3 (((cfg0.win 3).blk t).view.emb (ix2 p k)) = _
  rw [V_arg m c main_arg3 (by decide)]
  refine congrArg (m ((c : Thread nD τ).loc main_arg3)) (funext fun a => Fin.ext ?_)
  match a with
  | ⟨0, _⟩ => show win0_3.index t (0 : Fin 2) * 1024 + 1 * p.val = p.val; rw [(idx_whole t).2.2.2.2.2.2.1]; omega
  | ⟨1, _⟩ => show win0_3.index t (1 : Fin 2) * 1024 + 1 * k.val = k.val; rw [(idx_whole t).2.2.2.2.2.2.2.1]; omega

/-- Window 5 is the whole of the first head's weights. -/
theorem blk5_apply (c : Dev nD) (t : Fin cfg0.N) (p : Fin 1000) (k : Fin 1024) :
    (iblk m c 5 t : Vec F S1000x1024 .f32) (ix2 p k)
      = (m ((c : Thread nD τ).loc main_arg5) : S1000x1024.Idx → Elt F .f32) (ix2 p k) := by
  unfold iblk
  rw [View.read_apply]
  show V m c main_arg5 (((cfg0.win 5).blk t).view.emb (ix2 p k)) = _
  rw [V_arg m c main_arg5 (by decide)]
  refine congrArg (m ((c : Thread nD τ).loc main_arg5)) (funext fun a => Fin.ext ?_)
  match a with
  | ⟨0, _⟩ => show win0_5.index t (0 : Fin 2) * 1000 + 1 * p.val = p.val; rw [(idx_whole t).2.2.2.2.2.2.2.2.2.2.1]; omega
  | ⟨1, _⟩ => show win0_5.index t (1 : Fin 2) * 1024 + 1 * k.val = k.val; rw [(idx_whole t).2.2.2.2.2.2.2.2.2.2.2.1]; omega

/-! ## The bias rows -/

/-- Window 2 is the first layer's bias row: at column `j` it is the bias vector at `j`. -/
theorem blk2_apply (c : Dev nD) (t : Fin cfg0.N) (j : Fin 1024) :
    (iblk m c 2 t : Vec F S1x1024 .f32) (ix2 (0 : Fin 1) j)
      = (m ((c : Thread nD τ).loc main_arg2) : S1024.Idx → Elt F .f32) (ix1 j) := by
  unfold iblk
  rw [View.read_apply]
  show (V m c main_v0 : S1x1024.Idx → Elt F .f32) (((cfg0.win 2).blk t).view.emb (ix2 (0 : Fin 1) j)) = _
  have e : ((cfg0.win 2).blk t).view.emb (ix2 (0 : Fin 1) j) = (ix2 (0 : Fin 1) j : S1x1024.Idx) :=
    funext fun a => Fin.ext (by
      match a with
      | ⟨0, _⟩ => show win0_2.index t (0 : Fin 2) * 1 + 1 * 0 = 0; rw [(idx_whole t).2.2.2.2.1]
      | ⟨1, _⟩ => show win0_2.index t (1 : Fin 2) * 1024 + 1 * j.val = j.val; rw [(idx_whole t).2.2.2.2.2.1]; omega)
  rw [e, V_v0]
  exact row_apply _ _ j

/-- Window 4 is the second layer's bias row: at column `j` it is the bias vector at `j`. -/
theorem blk4_apply (c : Dev nD) (t : Fin cfg0.N) (j : Fin 1024) :
    (iblk m c 4 t : Vec F S1x1024 .f32) (ix2 (0 : Fin 1) j)
      = (m ((c : Thread nD τ).loc main_arg4) : S1024.Idx → Elt F .f32) (ix1 j) := by
  unfold iblk
  rw [View.read_apply]
  show (V m c main_v1 : S1x1024.Idx → Elt F .f32) (((cfg0.win 4).blk t).view.emb (ix2 (0 : Fin 1) j)) = _
  have e : ((cfg0.win 4).blk t).view.emb (ix2 (0 : Fin 1) j) = (ix2 (0 : Fin 1) j : S1x1024.Idx) :=
    funext fun a => Fin.ext (by
      match a with
      | ⟨0, _⟩ => show win0_4.index t (0 : Fin 2) * 1 + 1 * 0 = 0; rw [(idx_whole t).2.2.2.2.2.2.2.2.1]
      | ⟨1, _⟩ => show win0_4.index t (1 : Fin 2) * 1024 + 1 * j.val = j.val; rw [(idx_whole t).2.2.2.2.2.2.2.2.2.1]; omega)
  rw [e, V_v1]
  exact row_apply _ _ j

/-- Window 6 is the first head's bias row: at column `j` it is the bias vector at `j`. -/
theorem blk6_apply (c : Dev nD) (t : Fin cfg0.N) (j : Fin 1000) :
    (iblk m c 6 t : Vec F S1x1000 .f32) (ix2 (0 : Fin 1) j)
      = (m ((c : Thread nD τ).loc main_arg6) : S1000.Idx → Elt F .f32) (ix1 j) := by
  unfold iblk
  rw [View.read_apply]
  show (V m c main_v2 : S1x1000.Idx → Elt F .f32) (((cfg0.win 6).blk t).view.emb (ix2 (0 : Fin 1) j)) = _
  have e : ((cfg0.win 6).blk t).view.emb (ix2 (0 : Fin 1) j) = (ix2 (0 : Fin 1) j : S1x1000.Idx) :=
    funext fun a => Fin.ext (by
      match a with
      | ⟨0, _⟩ => show win0_6.index t (0 : Fin 2) * 1 + 1 * 0 = 0; rw [(idx_whole t).2.2.2.2.2.2.2.2.2.2.2.2.1]
      | ⟨1, _⟩ => show win0_6.index t (1 : Fin 2) * 1000 + 1 * j.val = j.val; rw [(idx_whole t).2.2.2.2.2.2.2.2.2.2.2.2.2]; omega)
  rw [e, V_v2]
  exact row_apply _ _ j

/-! ## The streamed windows -/

/-- Before the last point, window 7's block is rows `2560 t + r` of the large weight matrix. -/
theorem blk7_apply (c : Dev nD) (t : Fin cfg0.N) (ht : t.val < 24) (r : Fin 1280) (k : Fin 1024) :
    (iblk m c 7 t : Vec F S1280x1024 .f32) (ix2 r k)
      = (m ((c : Thread nD τ).loc main_arg7) : S64000x1024.Idx → Elt F .f32)
          (ix2 (⟨2560 * t.val + r.val, by have := r.isLt; omega⟩ : Fin 64000) k) := by
  unfold iblk
  rw [View.read_apply]
  show V m c main_arg7 (((cfg0.win 7).blk t).view.emb (ix2 r k)) = _
  rw [V_arg m c main_arg7 (by decide)]
  refine congrArg (m ((c : Thread nD τ).loc main_arg7)) (funext fun a => Fin.ext ?_)
  match a with
  | ⟨0, _⟩ => show win0_7.index t (0 : Fin 2) * 1280 + 1 * r.val = 2560 * t.val + r.val; rw [(idx_stream t).1]; omega
  | ⟨1, _⟩ => show win0_7.index t (1 : Fin 2) * 1024 + 1 * k.val = k.val; rw [(idx_stream t).2.1]; omega

/-- Before the last point, window 8's block is rows `2560 t + 1280 + r` of the large weight matrix. -/
theorem blk8_apply (c : Dev nD) (t : Fin cfg0.N) (ht : t.val < 24) (r : Fin 1280) (k : Fin 1024) :
    (iblk m c 8 t : Vec F S1280x1024 .f32) (ix2 r k)
      = (m ((c : Thread nD τ).loc main_arg7) : S64000x1024.Idx → Elt F .f32)
          (ix2 (⟨2560 * t.val + 1280 + r.val, by have := r.isLt; omega⟩ : Fin 64000) k) := by
  unfold iblk
  rw [View.read_apply]
  show V m c main_arg7 (((cfg0.win 8).blk t).view.emb (ix2 r k)) = _
  rw [V_arg m c main_arg7 (by decide)]
  refine congrArg (m ((c : Thread nD τ).loc main_arg7)) (funext fun a => Fin.ext ?_)
  match a with
  | ⟨0, _⟩ => show win0_8.index t (0 : Fin 2) * 1280 + 1 * r.val = 2560 * t.val + 1280 + r.val; rw [(idx_stream t).2.2.1]; omega
  | ⟨1, _⟩ => show win0_8.index t (1 : Fin 2) * 1024 + 1 * k.val = k.val; rw [(idx_stream t).2.2.2.1]; omega

/-- At every point, window 9's block is the last 2560 rows, `61440 + r`, of the large weight matrix. -/
theorem blk9_apply (c : Dev nD) (t : Fin cfg0.N) (r : Fin 2560) (k : Fin 1024) :
    (iblk m c 9 t : Vec F S2560x1024 .f32) (ix2 r k)
      = (m ((c : Thread nD τ).loc main_arg7) : S64000x1024.Idx → Elt F .f32)
          (ix2 (⟨61440 + r.val, by have := r.isLt; omega⟩ : Fin 64000) k) := by
  unfold iblk
  rw [View.read_apply]
  show V m c main_arg7 (((cfg0.win 9).blk t).view.emb (ix2 r k)) = _
  rw [V_arg m c main_arg7 (by decide)]
  refine congrArg (m ((c : Thread nD τ).loc main_arg7)) (funext fun a => Fin.ext ?_)
  match a with
  | ⟨0, _⟩ => show win0_9.index t (0 : Fin 2) * 2560 + 1 * r.val = 61440 + r.val; rw [(idx_stream t).2.2.2.2.1]; omega
  | ⟨1, _⟩ => show win0_9.index t (1 : Fin 2) * 1024 + 1 * k.val = k.val; rw [(idx_stream t).2.2.2.2.2.1]; omega

/-- Window 10's block at point `t` is columns `2560 t + r` of the second head's bias row, that is, the bias
    vector at `2560 t + r`. -/
theorem blk10_apply (c : Dev nD) (t : Fin cfg0.N) (r : Fin 2560) :
    (iblk m c 10 t : Vec F S1x2560 .f32) (ix2 (0 : Fin 1) r)
      = (m ((c : Thread nD τ).loc main_arg8) : S64000.Idx → Elt F .f32)
          (ix1 (⟨2560 * t.val + r.val, by
            have := r.isLt; have := lt_of_lt_of_eq t.isLt (show cfg0.N = 25 from N_0); omega⟩ : Fin 64000)) := by
  have ht : t.val < 25 := lt_of_lt_of_eq t.isLt (show cfg0.N = 25 from N_0)
  unfold iblk
  rw [View.read_apply]
  show (V m c main_v3 : S1x64000.Idx → Elt F .f32) (((cfg0.win 10).blk t).view.emb (ix2 (0 : Fin 1) r)) = _
  have e : ((cfg0.win 10).blk t).view.emb (ix2 (0 : Fin 1) r)
      = (ix2 (0 : Fin 1) (⟨2560 * t.val + r.val, by have := r.isLt; omega⟩ : Fin 64000) : S1x64000.Idx) :=
    funext fun a => Fin.ext (by
      match a with
      | ⟨0, _⟩ => show win0_10.index t (0 : Fin 2) * 1 + 1 * 0 = 0; rw [(idx_stream t).2.2.2.2.2.2.1]
      | ⟨1, _⟩ => show win0_10.index t (1 : Fin 2) * 2560 + 1 * r.val = 2560 * t.val + r.val; rw [(idx_stream t).2.2.2.2.2.2.2]; omega)
  rw [e, V_v3]
  exact row_apply _ _ _

end Cert.MlpBlocks

end
-- ==== Proof.MlpSpec.lean ====
/-
  The mathematics of the program, index by index, over the extended reals.

  A two-layer perceptron trunk with two linear heads. The arguments are a batch of 32 state vectors of
  length 256, the two layers' weights and biases (1024 hidden units each), and the weights and biases of the
  two heads: a head with 1000 outputs, and a head with 64000 outputs that is read as 64 groups of 1000.

    hid1 (b, j)     = max ( (∑ k < 256,  s (b, k)    * W1 (j, k)) + b1 j , 0 )
    hid2 (b, j)     = max ( (∑ k < 1024, hid1 (b, k) * W2 (j, k)) + b2 j , 0 )
    cache (b, f)    =       (∑ k < 1024, hid2 (b, k) * Wc (f, k)) + bc f
    rec (b, v, f)   =       (∑ k < 1024, hid2 (b, k) * Wr (1000 v + f, k)) + br (1000 v + f)

  Every weight matrix is stored with the OUTPUT unit as its row, so each layer contracts the activation's
  second coordinate with the weight's second coordinate. In each product the activation is the left factor;
  the bias is added on the right of the finished sum; the rectifier's zero is written as the float word the
  programs write (the all-zero 32-bit word), never evaluated. All sums are sums of extended reals in the
  order of the index type, so the two programs meet in these terms without any finiteness hypothesis.
-/
import Idealize.ShloMosaic.PureOps.Ideal
import Idealize.ShloMosaic.PureOps.Ideal.Laws
import Idealize.ShloMosaic.Lib.ValueIdx

noncomputable section

namespace Cert.MlpSpec

open Idealize.ShloMosaic Idealize.ShloMosaic.ValueIdx
open scoped BigOperators

/-- The first hidden layer: unit `j` of batch row `b` is the rectified affine form
    `max ((∑ k, s (b, k) * W1 (j, k)) + b1 j) 0`, the zero being the all-zero float word. -/
def hid1 (s : (⟨2, ![32, 256]⟩ : Shape).Idx → EReal) (W1 : (⟨2, ![1024, 256]⟩ : Shape).Idx → EReal)
    (b1 : (⟨1, ![1024]⟩ : Shape).Idx → EReal) (b : Fin 32) (j : Fin 1024) : EReal :=
  max ((∑ k : Fin 256, s (ix2 b k) * W1 (ix2 j k)) + b1 (ix1 j)) (Ideal.ofBits .f32 0x00000000#32)

/-- The second hidden layer: unit `j` of batch row `b` is
    `max ((∑ k, hid1 (b, k) * W2 (j, k)) + b2 j) 0`, the zero being the all-zero float word. -/
def hid2 (s : (⟨2, ![32, 256]⟩ : Shape).Idx → EReal) (W1 : (⟨2, ![1024, 256]⟩ : Shape).Idx → EReal)
    (b1 : (⟨1, ![1024]⟩ : Shape).Idx → EReal) (W2 : (⟨2, ![1024, 1024]⟩ : Shape).Idx → EReal)
    (b2 : (⟨1, ![1024]⟩ : Shape).Idx → EReal) (b : Fin 32) (j : Fin 1024) : EReal :=
  max ((∑ k : Fin 1024, hid1 s W1 b1 b k * W2 (ix2 j k)) + b2 (ix1 j)) (Ideal.ofBits .f32 0x00000000#32)

/-- The first head, a `32 × 1000` array: at `(b, f)` it is `(∑ k, hid2 (b, k) * Wc (f, k)) + bc f`. -/
def cacheOut (s : (⟨2, ![32, 256]⟩ : Shape).Idx → EReal) (W1 : (⟨2, ![1024, 256]⟩ : Shape).Idx → EReal)
    (b1 : (⟨1, ![1024]⟩ : Shape).Idx → EReal) (W2 : (⟨2, ![1024, 1024]⟩ : Shape).Idx → EReal)
    (b2 : (⟨1, ![1024]⟩ : Shape).Idx → EReal) (Wc : (⟨2, ![1000, 1024]⟩ : Shape).Idx → EReal)
    (bc : (⟨1, ![1000]⟩ : Shape).Idx → EReal) : (⟨2, ![32, 1000]⟩ : Shape).Idx → EReal :=
  fun i => (∑ k : Fin 1024, hid2 s W1 b1 W2 b2 (i 0) k * Wc (ix2 (i 1) k)) + bc (ix1 (i 1))

/-- The position `1000 v + f` of entry `f` of group `v` among the 64000 outputs of the second head. -/
def flatCol (v : Fin 64) (f : Fin 1000) : Fin 64000 := ⟨1000 * v.val + f.val, by omega⟩

/-- The second head before it is cut into groups, a `32 × 64000` array: at `(b, c)` it is
    `(∑ k, hid2 (b, k) * Wr (c, k)) + br c`. -/
def recFlat (s : (⟨2, ![32, 256]⟩ : Shape).Idx → EReal) (W1 : (⟨2, ![1024, 256]⟩ : Shape).Idx → EReal)
    (b1 : (⟨1, ![1024]⟩ : Shape).Idx → EReal) (W2 : (⟨2, ![1024, 1024]⟩ : Shape).Idx → EReal)
    (b2 : (⟨1, ![1024]⟩ : Shape).Idx → EReal) (Wr : (⟨2, ![64000, 1024]⟩ : Shape).Idx → EReal)
    (br : (⟨1, ![64000]⟩ : Shape).Idx → EReal) : (⟨2, ![32, 64000]⟩ : Shape).Idx → EReal :=
  fun i => (∑ k : Fin 1024, hid2 s W1 b1 W2 b2 (i 0) k * Wr (ix2 (i 1) k)) + br (ix1 (i 1))

/-- The second head, a `32 × 64 × 1000` array: at `(b, v, f)` it is
    `(∑ k, hid2 (b, k) * Wr (1000 v + f, k)) + br (1000 v + f)`. -/
def recOut (s : (⟨2, ![32, 256]⟩ : Shape).Idx → EReal) (W1 : (⟨2, ![1024, 256]⟩ : Shape).Idx → EReal)
    (b1 : (⟨1, ![1024]⟩ : Shape).Idx → EReal) (W2 : (⟨2, ![1024, 1024]⟩ : Shape).Idx → EReal)
    (b2 : (⟨1, ![1024]⟩ : Shape).Idx → EReal) (Wr : (⟨2, ![64000, 1024]⟩ : Shape).Idx → EReal)
    (br : (⟨1, ![64000]⟩ : Shape).Idx → EReal) : (⟨3, ![32, 64, 1000]⟩ : Shape).Idx → EReal :=
  fun i => (∑ k : Fin 1024, hid2 s W1 b1 W2 b2 (i 0) k * Wr (ix2 (flatCol (i 1) (i 2)) k))
    + br (ix1 (flatCol (i 1) (i 2)))

variable (s : (⟨2, ![32, 256]⟩ : Shape).Idx → EReal) (W1 : (⟨2, ![1024, 256]⟩ : Shape).Idx → EReal)
  (b1 : (⟨1, ![1024]⟩ : Shape).Idx → EReal) (W2 : (⟨2, ![1024, 1024]⟩ : Shape).Idx → EReal)
  (b2 : (⟨1, ![1024]⟩ : Shape).Idx → EReal)

/-- The first head at the index with coordinates `b`, `f`. -/
theorem cacheOut_ix2 (Wc : (⟨2, ![1000, 1024]⟩ : Shape).Idx → EReal) (bc : (⟨1, ![1000]⟩ : Shape).Idx → EReal)
    (b : Fin 32) (f : Fin 1000) :
    cacheOut s W1 b1 W2 b2 Wc bc (ix2 b f)
      = (∑ k : Fin 1024, hid2 s W1 b1 W2 b2 b k * Wc (ix2 f k)) + bc (ix1 f) := rfl

/-- The uncut second head at the index with coordinates `b`, `c`. -/
theorem recFlat_ix2 (Wr : (⟨2, ![64000, 1024]⟩ : Shape).Idx → EReal) (br : (⟨1, ![64000]⟩ : Shape).Idx → EReal)
    (b : Fin 32) (c : Fin 64000) :
    recFlat s W1 b1 W2 b2 Wr br (ix2 b c)
      = (∑ k : Fin 1024, hid2 s W1 b1 W2 b2 b k * Wr (ix2 c k)) + br (ix1 c) := rfl

/-- The second head at the index with coordinates `b`, `v`, `f`. -/
theorem recOut_ix3 (Wr : (⟨2, ![64000, 1024]⟩ : Shape).Idx → EReal) (br : (⟨1, ![64000]⟩ : Shape).Idx → EReal)
    (b : Fin 32) (v : Fin 64) (f : Fin 1000) :
    recOut s W1 b1 W2 b2 Wr br (ix3 b v f)
      = (∑ k : Fin 1024, hid2 s W1 b1 W2 b2 b k * Wr (ix2 (flatCol v f) k)) + br (ix1 (flatCol v f)) := rfl

/-- Cutting the 64000 outputs of the second head into 64 groups of 1000 moves nothing: entry `(b, v, f)` of the
    cut array is entry `(b, 1000 v + f)` of the uncut one. -/
theorem recOut_eq_recFlat (Wr : (⟨2, ![64000, 1024]⟩ : Shape).Idx → EReal) (br : (⟨1, ![64000]⟩ : Shape).Idx → EReal)
    (i : (⟨3, ![32, 64, 1000]⟩ : Shape).Idx) :
    recOut s W1 b1 W2 b2 Wr br i = recFlat s W1 b1 W2 b2 Wr br (ix2 (i 0) (flatCol (i 1) (i 2))) := rfl

end Cert.MlpSpec

end
-- ==== Proof.MlpPayloads.lean ====
/-
  The kernel body's stored values, index by index, over the extended reals.

  The body has six stored values. Each is built from one shape of term: a matrix product that contracts the
  SECOND coordinate of both operands (the weight matrices are stored with the output unit as the row), taken
  into a zero accumulator; a bias kept as a one-row matrix and spread over the 32 batch rows; a sum; and, in
  the trunk, a maximum with a spread zero. At the index `(p, q)`:

    product          (x · wᵀ) (p, q)            = ∑ k, x (p, k) * w (q, k)
    affine           (x · wᵀ + row) (p, q)      = (∑ k, x (p, k) * w (q, k)) + row (0, q)
    rectified affine max (x · wᵀ + row) 0 (p, q) = max ((∑ k, x (p, k) * w (q, k)) + row (0, q)) 0

  the zero of the maximum being the all-zero float word, kept as a word; the zero accumulator is the additive
  zero and disappears. The trunk's stored value is the rectified affine form applied twice, which is the
  second hidden layer of `Cert.MlpSpec` once each bias row is read as the bias vector.
-/
import proofs.«151329_g66365834658321_cont_9to1_m_1147_41_alg».proof.Proof.Gen.KernelIdeal.Skeleton
import proofs.«151329_g66365834658321_cont_9to1_m_1147_41_alg».proof.Proof.MlpSpec
import Idealize.ShloMosaic.PureOps.Ideal.Laws
import Idealize.ShloMosaic.Lib.ValueIdx
import Idealize.ShloMosaic.Lib.Pipeline.Value
import Idealize.ShloMosaic.Lib.ValueLayout

noncomputable section

namespace Cert.MlpPayloads

open Idealize.ShloMosaic Idealize.ShloMosaic.ValueIdx
open scoped BigOperators

/-! ## A product contracting the second coordinate of both operands -/

section Dot
variable {m n K : Nat} (d : DotDims ⟨2, ![m, K]⟩ ⟨2, ![n, K]⟩ ⟨2, ![m, n]⟩)

/-- With no batch axis and the left operand's rows as its free axis, the left operand is read in the row of the
    result's first coordinate. -/
theorem lhs_row (hlb : d.lhsBatch = []) (hln : d.lhsNonContracting = [0])
    (j : (⟨2, ![m, n]⟩ : Shape).Idx) (q : d.contr.Idx) : (d.lhsIdx j q 0).val = (j 0).val := by
  have hb : (0 : Fin (⟨2, ![m, K]⟩ : Shape).rank) ∉ d.lhsBatch := by rw [hlb]; exact List.not_mem_nil
  have hn : (0 : Fin (⟨2, ![m, K]⟩ : Shape).rank) ∈ d.lhsNonContracting := by rw [hln]; exact List.mem_singleton.mpr rfl
  unfold DotDims.lhsIdx
  rw [dif_neg hb, dif_pos hn]
  simp only [Fin.val_cast]
  have key : ∀ (p p' : Nat) (hp : p < (⟨2, ![m, n]⟩ : Shape).rank) (hp' : p' < (⟨2, ![m, n]⟩ : Shape).rank), p = p' →
      (j ⟨p, hp⟩).val = (j ⟨p', hp'⟩).val := fun p p' hp hp' h => by subst h; rfl
  exact key _ 0 _ Nat.zero_lt_two (by simp [hlb, hln])

/-- With no batch axis and each operand's rows as its free axis, the right operand is read in the row of the
    result's second coordinate. -/
theorem rhs_row (hlb : d.lhsBatch = []) (hrb : d.rhsBatch = []) (hln : d.lhsNonContracting = [0])
    (hrn : d.rhsNonContracting = [0]) (j : (⟨2, ![m, n]⟩ : Shape).Idx) (q : d.contr.Idx) :
    (d.rhsIdx j q 0).val = (j 1).val := by
  have hb : (0 : Fin (⟨2, ![n, K]⟩ : Shape).rank) ∉ d.rhsBatch := by rw [hrb]; exact List.not_mem_nil
  have hn : (0 : Fin (⟨2, ![n, K]⟩ : Shape).rank) ∈ d.rhsNonContracting := by rw [hrn]; exact List.mem_singleton.mpr rfl
  unfold DotDims.rhsIdx
  rw [dif_neg hb, dif_pos hn]
  simp only [Fin.val_cast]
  have key : ∀ (p p' : Nat) (hp : p < (⟨2, ![m, n]⟩ : Shape).rank) (hp' : p' < (⟨2, ![m, n]⟩ : Shape).rank), p = p' →
      (j ⟨p, hp⟩).val = (j ⟨p', hp'⟩).val := fun p p' hp hp' h => by subst h; rfl
  exact key _ 1 _ Nat.one_lt_two (by simp [hlb, hln, hrn])

variable (hlc : d.lhsContracting = [1]) (hrc : d.rhsContracting = [1])
  (hln : d.lhsNonContracting = [0]) (hrn : d.rhsNonContracting = [0]) (hlb : d.lhsBatch = []) (hrb : d.rhsBatch = [])
  (hr : d.contr.rank = 1) (hs : d.contr.size ⟨0, by omega⟩ = K)
include hlc hrc hln hrn hlb hrb hr hs

/-- The product into a zero accumulator: at `(p, q)` it is `∑ k, x (p, k) * w (q, k)`. -/
theorem matmul_nt (x : FVec Ideal ⟨2, ![m, K]⟩ .f32) (w : FVec Ideal ⟨2, ![n, K]⟩ .f32) (p : Fin m) (q : Fin n) :
    matmul (F := Ideal) d none x w (constant (F := Ideal) ⟨2, ![m, n]⟩ .f32 0x00000000#32) (ix2 p q)
      = ∑ k : Fin K, x (ix2 p k) * w (ix2 q k) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hrb hln hrn _ _
    | ⟨1, _⟩ => exact (d.rhsIdx_val_of_single hrc _ _).trans hk)
  rw [el, er]

/-- The product plus a one-row bias spread over the rows: at `(p, q)` it is
    `(∑ k, x (p, k) * w (q, k)) + row (0, q)`. -/
theorem affine_apply (x : FVec Ideal ⟨2, ![m, K]⟩ .f32) (w : FVec Ideal ⟨2, ![n, K]⟩ .f32)
    (row : FVec Ideal ⟨2, ![1, n]⟩ .f32) (hsc : (⟨2, ![1, n]⟩ : Shape).ShapeCasts ⟨2, ![1, n]⟩)
    (hbc : (⟨2, ![1, n]⟩ : Shape).Broadcasts ⟨2, ![m, n]⟩) (p : Fin m) (q : Fin n) :
    addf (matmul (F := Ideal) d none x w (constant (F := Ideal) ⟨2, ![m, n]⟩ .f32 0x00000000#32))
        (broadcastTo ⟨2, ![m, n]⟩ (shapeCast ⟨2, ![1, n]⟩ row hsc) hbc) (ix2 p q)
      = (∑ k : Fin K, x (ix2 p k) * w (ix2 q k)) + row (ix2 (0 : Fin 1) q) := by
  rw [addf_apply, matmul_nt d hlc hrc hln hrn hlb hrb hr hs, shapeCast_self, broadcastTo_1b_ab_apply]

/-- The same under a maximum with the spread zero word: at `(p, q)` it is
    `max ((∑ k, x (p, k) * w (q, k)) + row (0, q)) 0`, the zero kept as the word. -/
theorem relu_affine_apply (x : FVec Ideal ⟨2, ![m, K]⟩ .f32) (w : FVec Ideal ⟨2, ![n, K]⟩ .f32)
    (row : FVec Ideal ⟨2, ![1, n]⟩ .f32) (hsc : (⟨2, ![1, n]⟩ : Shape).ShapeCasts ⟨2, ![1, n]⟩)
    (hbc : (⟨2, ![1, n]⟩ : Shape).Broadcasts ⟨2, ![m, n]⟩) (p : Fin m) (q : Fin n) :
    maximumf (addf (matmul (F := Ideal) d none x w (constant (F := Ideal) ⟨2, ![m, n]⟩ .f32 0x00000000#32))
          (broadcastTo ⟨2, ![m, n]⟩ (shapeCast ⟨2, ![1, n]⟩ row hsc) hbc))
        (broadcast ⟨2, ![m, n]⟩ (Scalar.ofBits (F := Ideal) .f32 0x00000000#32)) (ix2 p q)
      = max ((∑ k : Fin K, x (ix2 p k) * w (ix2 q k)) + row (ix2 (0 : Fin 1) q)) (Ideal.ofBits .f32 0x00000000#32) := by
  rw [maximumf_apply, affine_apply d hlc hrc hln hrn hlb hrb hr hs, broadcast_apply]
  rfl

end Dot

/-! ## The six stored values -/

open Cert.KernelIdeal Cert.KernelIdeal.Gen Cert.KernelIdeal.Facts₀

/-- The trunk's stored value at `(b, j)` is the second hidden layer, each one-row bias read as the bias vector. -/
theorem pay1_apply (s : FVec Ideal S32x256 .f32) (W1 : FVec Ideal S1024x256 .f32) (b1row : FVec Ideal S1x1024 .f32)
    (W2 : FVec Ideal S1024x1024 .f32) (b2row : FVec Ideal S1x1024 .f32)
    (b1 b2 : (⟨1, ![1024]⟩ : Shape).Idx → EReal)
    (h1 : ∀ j : Fin 1024, b1row (ix2 (0 : Fin 1) j) = b1 (ix1 j))
    (h2 : ∀ j : Fin 1024, b2row (ix2 (0 : Fin 1) j) = b2 (ix1 j)) (b : Fin 32) (j : Fin 1024) :
    k0_pay1 (F := Ideal) s W1 b1row W2 b2row (ix2 b j) = Cert.MlpSpec.hid2 s W1 b1 W2 b2 b j := by
  unfold k0_pay1
  rw [shapeCast_self, relu_affine_apply dot_S32x1024_S1024x1024_S32x1024_1_1_0_0_n_n rfl rfl rfl rfl rfl rfl rfl rfl, h2 j]
  refine congrArg (fun t => max (t + b2 (ix1 j)) (Ideal.ofBits .f32 0x00000000#32)) (Finset.sum_congr rfl fun k _ => ?_)
  rw [relu_affine_apply dot_S32x256_S1024x256_S32x1024_1_1_0_0_n_n rfl rfl rfl rfl rfl rfl rfl rfl, h1 k]
  rfl

/-- The first head's stored value at `(b, f)`. -/
theorem pay2_apply (h : FVec Ideal S32x1024 .f32) (Wc : FVec Ideal S1000x1024 .f32) (bcrow : FVec Ideal S1x1000 .f32)
    (b : Fin 32) (f : Fin 1000) :
    k0_pay2 (F := Ideal) h Wc bcrow (ix2 b f)
      = (∑ k : Fin 1024, h (ix2 b k) * Wc (ix2 f k)) + bcrow (ix2 (0 : Fin 1) f) := by
  unfold k0_pay2
  exact affine_apply dot_S32x1024_S1000x1024_S32x1000_1_1_0_0_n_n rfl rfl rfl rfl rfl rfl rfl rfl h Wc bcrow _ _ b f

/-- A block of 2560 columns of the second head before its bias, at `(b, r)`. -/
theorem pay3_apply (h : FVec Ideal S32x1024 .f32) (E : FVec Ideal S2560x1024 .f32) (b : Fin 32) (r : Fin 2560) :
    k0_pay3 (F := Ideal) h E (ix2 b r) = ∑ k : Fin 1024, h (ix2 b k) * E (ix2 r k) := by
  unfold k0_pay3
  rw [shapeCast_self]
  exact matmul_nt dot_S32x1024_S2560x1024_S32x2560_1_1_0_0_n_n rfl rfl rfl rfl rfl rfl rfl rfl h E b r

/-- Half a block (1280 columns) of the second head with its bias, at `(b, r)`: the first half. -/
theorem pay4_apply (h : FVec Ideal S32x1024 .f32) (Wk : FVec Ideal S1280x1024 .f32) (brk : FVec Ideal S1x1280 .f32)
    (b : Fin 32) (r : Fin 1280) :
    k0_pay4 (F := Ideal) h Wk brk (ix2 b r)
      = (∑ k : Fin 1024, h (ix2 b k) * Wk (ix2 r k)) + brk (ix2 (0 : Fin 1) r) := by
  unfold k0_pay4
  exact affine_apply dot_S32x1024_S1280x1024_S32x1280_1_1_0_0_n_n rfl rfl rfl rfl rfl rfl rfl rfl h Wk brk _ _ b r

/-- Half a block (1280 columns) of the second head with its bias, at `(b, r)`: the second half. -/
theorem pay5_apply (h : FVec Ideal S32x1024 .f32) (Wk : FVec Ideal S1280x1024 .f32) (brk : FVec Ideal S1x1280 .f32)
    (b : Fin 32) (r : Fin 1280) :
    k0_pay5 (F := Ideal) h Wk brk (ix2 b r)
      = (∑ k : Fin 1024, h (ix2 b k) * Wk (ix2 r k)) + brk (ix2 (0 : Fin 1) r) := by
  unfold k0_pay5
  exact affine_apply dot_S32x1024_S1280x1024_S32x1280_1_1_0_0_n_n rfl rfl rfl rfl rfl rfl rfl rfl h Wk brk _ _ b r

/-- A block of the second head given its bias afterwards, at `(b, r)`. -/
theorem pay6_apply (e : FVec Ideal S32x2560 .f32) (brow : FVec Ideal S1x2560 .f32) (b : Fin 32) (r : Fin 2560) :
    k0_pay6 (F := Ideal) e brow (ix2 b r) = e (ix2 b r) + brow (ix2 (0 : Fin 1) r) := by
  unfold k0_pay6
  rw [addf_apply, shapeCast_self, broadcastTo_1b_ab_apply]

end Cert.MlpPayloads

end
-- ==== Proof.MlpKernelValue.lean ====
/-
  The kernel's two results as the specification's functions of the nine argument arrays, at the exact values
  (every float an extended real, every operation the exact one).

  The trunk's activations kept from the first grid point on are the second hidden layer; the first head's window
  holds the first head from the second point on and is written back once, at the end, whole; the streamed window's
  block after point t is columns 2560 t … 2560 t + 2559 of the second head before it is cut into groups — for t < 24
  two products of 1280 columns each with the two streamed weight blocks, for t = 24 the product kept since the third
  point plus the last block's bias — and the 25 blocks written back tile the 32 × 64000 array. The host line after
  the region re-lays that array as 32 × 64 × 1000 without moving anything.
-/
import proofs.«151329_g66365834658321_cont_9to1_m_1147_41_alg».proof.Proof.KernelIdeal.GridFrame
import proofs.«151329_g66365834658321_cont_9to1_m_1147_41_alg».proof.Proof.MlpPieces
import proofs.«151329_g66365834658321_cont_9to1_m_1147_41_alg».proof.Proof.MlpBlocks
import proofs.«151329_g66365834658321_cont_9to1_m_1147_41_alg».proof.Proof.MlpPayloads
import proofs.«151329_g66365834658321_cont_9to1_m_1147_41_alg».proof.Proof.MlpSpec
import Idealize.ShloMosaic.Lib.Pipeline.Value
import Idealize.ShloMosaic.Lib.StableHlo.Run

set_option maxRecDepth 16384

noncomputable section

namespace Cert.MlpValue

open Cert.KernelIdeal Cert.KernelIdeal.Gen Cert.KernelIdeal.Mlp
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (c : Dev nD)

/-! ## The argument arrays as launched -/

abbrev aS : S32x256.Idx → EReal := m ((c : Thread nD τ).loc main_arg0)
abbrev aW1 : S1024x256.Idx → EReal := m ((c : Thread nD τ).loc main_arg1)
abbrev ab1 : S1024.Idx → EReal := m ((c : Thread nD τ).loc main_arg2)
abbrev aW2 : S1024x1024.Idx → EReal := m ((c : Thread nD τ).loc main_arg3)
abbrev ab2 : S1024.Idx → EReal := m ((c : Thread nD τ).loc main_arg4)
abbrev aWc : S1000x1024.Idx → EReal := m ((c : Thread nD τ).loc main_arg5)
abbrev abc : S1000.Idx → EReal := m ((c : Thread nD τ).loc main_arg6)
abbrev aWr : S64000x1024.Idx → EReal := m ((c : Thread nD τ).loc main_arg7)
abbrev abr : S64000.Idx → EReal := m ((c : Thread nD τ).loc main_arg8)

/-! ## The whole-array windows' blocks are the arrays -/

theorem blkS (t : Fin cfg0.N) : (iblk m c 0 t : Vec Ideal S32x256 .f32) = aS m c := by
  funext i; obtain ⟨p, q, rfl⟩ : ∃ (p : Fin 32) (q : Fin 256), i = ix2 p q := ⟨i 0, i 1, eq_ix2 i⟩
  exact Cert.MlpBlocks.blk0_apply m c t p q
theorem blkW1 (t : Fin cfg0.N) : (iblk m c 1 t : Vec Ideal S1024x256 .f32) = aW1 m c := by
  funext i; obtain ⟨p, q, rfl⟩ : ∃ (p : Fin 1024) (q : Fin 256), i = ix2 p q := ⟨i 0, i 1, eq_ix2 i⟩
  exact Cert.MlpBlocks.blk1_apply m c t p q
theorem blkW2 (t : Fin cfg0.N) : (iblk m c 3 t : Vec Ideal S1024x1024 .f32) = aW2 m c := by
  funext i; obtain ⟨p, q, rfl⟩ : ∃ (p : Fin 1024) (q : Fin 1024), i = ix2 p q := ⟨i 0, i 1, eq_ix2 i⟩
  exact Cert.MlpBlocks.blk3_apply m c t p q
theorem blkWc (t : Fin cfg0.N) : (iblk m c 5 t : Vec Ideal S1000x1024 .f32) = aWc m c := by
  funext i; obtain ⟨p, q, rfl⟩ : ∃ (p : Fin 1000) (q : Fin 1024), i = ix2 p q := ⟨i 0, i 1, eq_ix2 i⟩
  exact Cert.MlpBlocks.blk5_apply m c t p q

/-! ## The three kept values -/

theorem hVal_eq : hVal m c = k0_pay1 (iblk m c 0 t0) (iblk m c 1 t0) (iblk m c 2 t0) (iblk m c 3 t0) (iblk m c 4 t0) := by
  unfold hVal; exact Cert.MlpPieces.outTrunkH_eq ..
theorem cacheVal_eq : cacheVal m c = k0_pay2 (hVal m c) (iblk m c 5 t1) (iblk m c 6 t1) := by
  unfold cacheVal; exact Cert.MlpPieces.outCacheC_eq ..
theorem eVal_eq : eVal m c = k0_pay3 (hVal m c) (iblk m c 9 t2) := by
  unfold eVal; exact Cert.MlpPieces.outTailE_eq ..

/-- The trunk's payload of any point's blocks is the second hidden layer of the launched arrays. -/
theorem trunk_apply (t : Fin cfg0.N) (b : Fin 32) (j : Fin 1024) :
    k0_pay1 (F := Ideal) (iblk m c 0 t) (iblk m c 1 t) (iblk m c 2 t) (iblk m c 3 t) (iblk m c 4 t) (ix2 b j)
      = Cert.MlpSpec.hid2 (aS m c) (aW1 m c) (ab1 m c) (aW2 m c) (ab2 m c) b j := by
  rw [show (iblk m c 0 t : Vec Ideal S32x256 .f32) = aS m c from blkS m c t,
    show (iblk m c 1 t : Vec Ideal S1024x256 .f32) = aW1 m c from blkW1 m c t,
    show (iblk m c 3 t : Vec Ideal S1024x1024 .f32) = aW2 m c from blkW2 m c t]
  exact Cert.MlpPayloads.pay1_apply _ _ _ _ _ (ab1 m c) (ab2 m c) (fun j => Cert.MlpBlocks.blk2_apply m c t j)
    (fun j => Cert.MlpBlocks.blk4_apply m c t j) b j

/-- The kept activations are the second hidden layer. -/
theorem hVal_apply (b : Fin 32) (j : Fin 1024) : hVal m c (ix2 b j) = Cert.MlpSpec.hid2 (aS m c) (aW1 m c) (ab1 m c) (aW2 m c) (ab2 m c) b j := by
  rw [hVal_eq]; exact trunk_apply m c t0 b j

/-- The first head's window holds the first head. -/
theorem cacheVal_apply (b : Fin 32) (f : Fin 1000) :
    cacheVal m c (ix2 b f) = Cert.MlpSpec.cacheOut (aS m c) (aW1 m c) (ab1 m c) (aW2 m c) (ab2 m c) (aWc m c) (abc m c) (ix2 b f) := by
  rw [cacheVal_eq, Cert.MlpSpec.cacheOut_ix2]
  refine (Cert.MlpPayloads.pay2_apply _ _ _ b f).trans ?_
  refine congrArg₂ (· + ·) (Finset.sum_congr rfl fun k _ => ?_) (Cert.MlpBlocks.blk6_apply m c t1 f)
  rw [hVal_apply, show (iblk m c 5 t1 : Vec Ideal S1000x1024 .f32) (ix2 f k) = _ from Cert.MlpBlocks.blk5_apply m c t1 f k]

/-- The kept product is the activations' product with the last 2560 rows of the second head's weights. -/
theorem eVal_apply (b : Fin 32) (q : Fin 2560) :
    eVal m c (ix2 b q) = ∑ k : Fin 1024, Cert.MlpSpec.hid2 (aS m c) (aW1 m c) (ab1 m c) (aW2 m c) (ab2 m c) b k
      * aWr m c (ix2 (⟨61440 + q.val, by have := q.isLt; omega⟩ : Fin 64000) k) := by
  rw [eVal_eq]
  refine (Cert.MlpPayloads.pay3_apply _ _ b q).trans (Finset.sum_congr rfl fun k _ => ?_)
  rw [hVal_apply, show (iblk m c 9 t2 : Vec Ideal S2560x1024 .f32) (ix2 q k) = _ from Cert.MlpBlocks.blk9_apply m c t2 q k]

/-! ## The streamed window's block after each point -/

/-- The second head before it is cut into groups, of the launched arrays. -/
abbrev GR : S32x64000.Idx → EReal := Cert.MlpSpec.recFlat (aS m c) (aW1 m c) (ab1 m c) (aW2 m c) (ab2 m c) (aWr m c) (abr m c)
/-- The first head, of the launched arrays. -/
abbrev GC : S32x1000.Idx → EReal := Cert.MlpSpec.cacheOut (aS m c) (aW1 m c) (ab1 m c) (aW2 m c) (ab2 m c) (aWc m c) (abc m c)

/-- The left half of a streamed block: 1280 columns from the first streamed weight block. -/
theorem stream_left (t : Fin cfg0.N) (ht : t.val < 24) (H : Vec Ideal S32x1024 .f32)
    (hH : ∀ (b : Fin 32) (k : Fin 1024), H (ix2 b k) = Cert.MlpSpec.hid2 (aS m c) (aW1 m c) (ab1 m c) (aW2 m c) (ab2 m c) b k) (b : Fin 32) (r : Fin 1280) :
    k0_pay4 (F := Ideal) H (iblk m c 7 t) (View.ld (iblk m c 10 t) (Rect.unit (s := S1x2560) ![0, 0] ![1, 1280] inb_S1x2560_S1x1280_0_0)) (ix2 b r)
      = GR m c (ix2 b (⟨2560 * t.val + r.val, by have := r.isLt; omega⟩ : Fin 64000)) := by
  refine (Cert.MlpPayloads.pay4_apply _ _ _ b r).trans ?_
  unfold GR
  rw [Cert.MlpSpec.recFlat_ix2]
  refine congrArg₂ (· + ·) (Finset.sum_congr rfl fun k _ => ?_)
    ((Cert.MlpPieces.ld_bias_left _ r).trans (Cert.MlpBlocks.blk10_apply m c t _))
  rw [hH, show (iblk m c 7 t : Vec Ideal S1280x1024 .f32) (ix2 r k) = _ from Cert.MlpBlocks.blk7_apply m c t ht r k]

/-- The right half: 1280 columns from the second streamed weight block. -/
theorem stream_right (t : Fin cfg0.N) (ht : t.val < 24) (H : Vec Ideal S32x1024 .f32)
    (hH : ∀ (b : Fin 32) (k : Fin 1024), H (ix2 b k) = Cert.MlpSpec.hid2 (aS m c) (aW1 m c) (ab1 m c) (aW2 m c) (ab2 m c) b k) (b : Fin 32) (r : Fin 1280) :
    k0_pay5 (F := Ideal) H (iblk m c 8 t) (View.ld (iblk m c 10 t) (Rect.unit (s := S1x2560) ![0, 1280] ![1, 1280] inb_S1x2560_S1x1280_0_1280)) (ix2 b r)
      = GR m c (ix2 b (⟨2560 * t.val + 1280 + r.val, by have := r.isLt; omega⟩ : Fin 64000)) := by
  refine (Cert.MlpPayloads.pay5_apply _ _ _ b r).trans ?_
  unfold GR
  rw [Cert.MlpSpec.recFlat_ix2]
  refine congrArg₂ (· + ·) (Finset.sum_congr rfl fun k _ => ?_)
    (((Cert.MlpPieces.ld_bias_right _ r).trans (Cert.MlpBlocks.blk10_apply m c t _)).trans
      (congrArg (fun q : Fin 64000 => abr m c (ix1 q)) (Fin.ext (by show 2560 * t.val + (1280 + r.val) = 2560 * t.val + 1280 + r.val; omega))))
  rw [hH, show (iblk m c 8 t : Vec Ideal S1280x1024 .f32) (ix2 r k) = _ from Cert.MlpBlocks.blk8_apply m c t ht r k]

/-- A block given by its two halves is the block of the uncut second head at columns 2560 t …. -/
theorem of_halves (X : Vec Ideal S32x2560 .f32) (t : Fin cfg0.N) (ht : t.val < 24) (H : Vec Ideal S32x1024 .f32)
    (hH : ∀ (b : Fin 32) (k : Fin 1024), H (ix2 b k) = Cert.MlpSpec.hid2 (aS m c) (aW1 m c) (ab1 m c) (aW2 m c) (ab2 m c) b k)
    (hl : ∀ (b : Fin 32) (r : Fin 1280), X (ix2 b (⟨r.val, by have := r.isLt; omega⟩ : Fin 2560))
      = k0_pay4 (F := Ideal) H (iblk m c 7 t) (View.ld (iblk m c 10 t) (Rect.unit (s := S1x2560) ![0, 0] ![1, 1280] inb_S1x2560_S1x1280_0_0)) (ix2 b r))
    (hr : ∀ (b : Fin 32) (r : Fin 1280), X (ix2 b (⟨1280 + r.val, by have := r.isLt; omega⟩ : Fin 2560))
      = k0_pay5 (F := Ideal) H (iblk m c 8 t) (View.ld (iblk m c 10 t) (Rect.unit (s := S1x2560) ![0, 1280] ![1, 1280] inb_S1x2560_S1x1280_0_1280)) (ix2 b r))
    (b : Fin 32) (q : Fin 2560) :
    X (ix2 b q) = GR m c (ix2 b (⟨2560 * t.val + q.val, by have := q.isLt; omega⟩ : Fin 64000)) := by
  by_cases h : q.val < 1280
  · exact (hl b ⟨q.val, h⟩).trans (stream_left m c t ht H hH b ⟨q.val, h⟩)
  · have hq : q.val < 2560 := q.isLt
    have hr' : q.val - 1280 < 1280 := by omega
    have e : (⟨1280 + (q.val - 1280), by omega⟩ : Fin 2560) = q := Fin.ext (by show 1280 + (q.val - 1280) = q.val; omega)
    refine (congrArg (fun q' : Fin 2560 => X (ix2 b q')) e.symm).trans ?_
    refine ((hr b ⟨q.val - 1280, hr'⟩).trans (stream_right m c t ht H hH b ⟨q.val - 1280, hr'⟩)).trans ?_
    exact congrArg (fun q' : Fin 64000 => GR m c (ix2 b q'))
      (Fin.ext (by show 2560 * t.val + 1280 + (q.val - 1280) = 2560 * t.val + q.val; omega))

/-- After point `t` the streamed window's buffer holds columns 2560 t … 2560 t + 2559 of the uncut second head. -/
theorem recAt_apply (t : Fin cfg0.N) (b : Fin 32) (q : Fin 2560) :
    recAt m c t (ix2 b q) = GR m c (ix2 b (⟨2560 * t.val + q.val, by have := q.isLt; have := lt25 t; omega⟩ : Fin 64000)) := by
  have hN := lt25 t
  by_cases h0 : t.val = 0
  · rw [recAt_trunk m c t h0]
    exact of_halves m c _ t (by omega) _ (fun b k => trunk_apply m c t b k)
      (fun b r => Cert.MlpPieces.outTrunkR_left _ _ _ _ _ _ _ _ _ _ _ _ _ _ _ _ _ _ _ _ _ _ _ _ _ _ _ _ _ _ _ _ _ _ _ _ _ _ _ _ _ _ _ _ _ _ _ _ b r) (fun b r => Cert.MlpPieces.outTrunkR_right _ _ _ _ _ _ _ _ _ _ _ _ _ _ _ _ _ _ _ _ _ _ _ _ _ _ _ _ _ _ _ _ _ _ _ _ _ _ _ _ _ _ _ _ _ _ _ _ b r) b q
  by_cases h1 : t.val = 1
  · rw [recAt_cache m c t h1]
    exact of_halves m c _ t (by omega) _ (fun b k => hVal_apply m c b k)
      (fun b r => Cert.MlpPieces.outCacheR_left _ _ _ _ _ _ _ _ _ _ _ _ _ _ _ _ _ _ _ _ _ _ _ _ _ _ _ _ _ _ _ _ _ _ _ _ _ _ _ _ _ _ _ _ _ _ _ _ _ b r) (fun b r => Cert.MlpPieces.outCacheR_right _ _ _ _ _ _ _ _ _ _ _ _ _ _ _ _ _ _ _ _ _ _ _ _ _ _ _ _ _ _ _ _ _ _ _ _ _ _ _ _ _ _ _ _ _ _ _ _ _ b r) b q
  by_cases h2 : t.val = 2
  · rw [recAt_tail m c t h2]
    exact of_halves m c _ t (by omega) _ (fun b k => hVal_apply m c b k)
      (fun b r => Cert.MlpPieces.outTailR_left _ _ _ _ _ _ _ _ _ _ _ _ _ _ _ _ _ _ _ _ _ _ _ _ _ _ _ _ _ _ _ _ _ _ _ _ _ _ _ _ _ _ _ _ _ _ _ _ _ b r) (fun b r => Cert.MlpPieces.outTailR_right _ _ _ _ _ _ _ _ _ _ _ _ _ _ _ _ _ _ _ _ _ _ _ _ _ _ _ _ _ _ _ _ _ _ _ _ _ _ _ _ _ _ _ _ _ _ _ _ _ b r) b q
  by_cases h3 : t.val < 24
  · rw [recAt_stream m c t (by omega) h3]
    exact of_halves m c _ t h3 _ (fun b k => hVal_apply m c b k)
      (fun b r => Cert.MlpPieces.outStreamR_left _ _ _ _ _ _ _ _ _ _ _ _ _ _ _ _ _ _ _ _ _ _ _ _ _ _ _ _ _ _ _ _ _ _ _ _ _ _ _ _ _ _ _ _ _ _ _ _ _ b r) (fun b r => Cert.MlpPieces.outStreamR_right _ _ _ _ _ _ _ _ _ _ _ _ _ _ _ _ _ _ _ _ _ _ _ _ _ _ _ _ _ _ _ _ _ _ _ _ _ _ _ _ _ _ _ _ _ _ _ _ _ b r) b q
  · have h24 : t.val = 24 := by omega
    rw [recAt_last m c t h24, Cert.MlpPieces.outLastR_eq]
    unfold GR
    rw [Cert.MlpSpec.recFlat_ix2]
    refine (Cert.MlpPayloads.pay6_apply _ _ b q).trans ?_
    refine congrArg₂ (· + ·) ((eVal_apply m c b q).trans (Finset.sum_congr rfl fun k _ => ?_)) (Cert.MlpBlocks.blk10_apply m c t q)
    exact congrArg (fun q' : Fin 64000 => Cert.MlpSpec.hid2 (aS m c) (aW1 m c) (ab1 m c) (aW2 m c) (ab2 m c) b k * aWr m c (ix2 q' k))
      (Fin.ext (by show 61440 + q.val = 2560 * t.val + q.val; omega))

/-- The same at any index of the block. -/
theorem recAt_idx (t : Fin cfg0.N) (y : S32x2560.Idx) :
    recAt m c t y = GR m c (ix2 (y 0) (⟨2560 * t.val + (y 1).val, by have h1 : (y 1).val < 2560 := (y 1).isLt; have := lt25 t; omega⟩ : Fin 64000)) := by
  obtain ⟨b, q, rfl⟩ : ∃ (b : Fin 32) (q : Fin 2560), y = ix2 b q := ⟨y 0, y 1, eq_ix2 y⟩
  exact recAt_apply m c t b q
theorem cacheVal_idx (y : S32x1000.Idx) : cacheVal m c y = GC m c y := by
  obtain ⟨b, f, rfl⟩ : ∃ (b : Fin 32) (f : Fin 1000), y = ix2 b f := ⟨y 0, y 1, eq_ix2 y⟩
  exact cacheVal_apply m c b f

/-! ## From the blocks written back to the arrays -/

theorem idx12 : ∀ t : Fin cfg0.N, win0_12.index t (0 : Fin 2) = 0 ∧ win0_12.index t (1 : Fin 2) = t.val :=
  (by decide +kernel : ∀ t : Fin grid0.N, win0_12.index t (0 : Fin 2) = 0 ∧ win0_12.index t (1 : Fin 2) = t.val)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-- What point `t` writes back of the streamed window is block `t` of the uncut second head. -/
theorem flushed12_eq (t : Fin cfg0.N) :
    (dats m 0 c).flushed 12 t = ((cfg0.win 12).blk t).view.read (Elt Ideal) (GR m c) := by
  show (cfg0.win 12).cut (grid0.coords t) ((dats m 0 c).after 12 t) = _
  rw [after12]
  obtain ⟨e0, e1⟩ := idx12 t
  funext j
  show recAt m c t j = GR m c (((cfg0.win 12).blk t).view.emb j)
  refine (recAt_idx m c t j).trans (congrArg (GR m c) ?_)
  funext a; apply Fin.ext
  match a with
  | ⟨0, _⟩ => show (j 0).val = win0_12.index t (0 : Fin 2) * 32 + 1 * (j 0).val; omega
  | ⟨1, _⟩ => show 2560 * t.val + (j 1).val = win0_12.index t (1 : Fin 2) * 2560 + 1 * (j 1).val; omega

/-- What a point writes back of the first head's window is the first head (the window's one block is its array). -/
theorem flushed11_eq (t : Fin cfg0.N) :
    (dats m 0 c).flushed 11 t = ((cfg0.win 11).blk t).view.read (Elt Ideal) (GC m c) := by
  show (cfg0.win 11).cut (grid0.coords t) ((dats m 0 c).after 11 t) = _
  rw [after11]
  obtain ⟨e0, e1⟩ := idx11 t
  funext j
  show cacheVal m c j = GC m c (((cfg0.win 11).blk t).view.emb j)
  refine (cacheVal_idx m c j).trans (congrArg (GC m c) ?_)
  funext a; apply Fin.ext
  match a with
  | ⟨0, _⟩ => show (j 0).val = win0_11.index t (0 : Fin 2) * 32 + 1 * (j 0).val; omega
  | ⟨1, _⟩ => show (j 1).val = win0_11.index t (1 : Fin 2) * 1000 + 1 * (j 1).val; omega

theorem mem_blk12 (t : Fin cfg0.N) (i : S32x64000.Idx) :
    i ∈ ((cfg0.win 12).blk t).view.set ↔ ∀ a : Fin 2, win0_12.index t a * S32x2560.size a ≤ (i a).val ∧ (i a).val < win0_12.index t a * S32x2560.size a + S32x2560.size a := by
  show i ∈ ((View.whole main_v4_1).slice (win0_12.rect t)).set ↔ _
  rw [View.set_slice_whole, Rect.mem_set_unit]
  exact Iff.rfl
theorem mem_blk11 (t : Fin cfg0.N) (i : S32x1000.Idx) :
    i ∈ ((cfg0.win 11).blk t).view.set ↔ ∀ a : Fin 2, win0_11.index t a * S32x1000.size a ≤ (i a).val ∧ (i a).val < win0_11.index t a * S32x1000.size a + S32x1000.size a := by
  show i ∈ ((View.whole main_v4_0).slice (win0_11.rect t)).set ↔ _
  rw [View.set_slice_whole, Rect.mem_set_unit]
  exact Iff.rfl

/-- Every column of the 32 × 64000 array is in the block of the point that is its quotient by 2560. -/
theorem cover12 (i : S32x64000.Idx) :
    ∃ t : Fin cfg0.N, (cfg0.win 12).flush t = true ∧ i ∈ ((cfg0.win 12).blk t).view.set := by
  have hi0 : (i 0).val < 32 := (i 0).isLt
  have hi1 : (i 1).val < 64000 := (i 1).isLt
  have hlt : (i 1).val / 2560 < cfg0.N := by rw [show cfg0.N = 25 from N_0]; omega
  obtain ⟨e0, e1⟩ := idx12 ⟨(i 1).val / 2560, hlt⟩
  have e1' : win0_12.index ⟨(i 1).val / 2560, hlt⟩ (1 : Fin 2) = (i 1).val / 2560 := e1
  refine ⟨⟨(i 1).val / 2560, hlt⟩, flush12 _, ?_⟩
  rw [mem_blk12]
  intro a
  match a with
  | ⟨0, _⟩ => show win0_12.index ⟨(i 1).val / 2560, hlt⟩ (0 : Fin 2) * 32 ≤ (i 0).val ∧ (i 0).val < win0_12.index ⟨(i 1).val / 2560, hlt⟩ (0 : Fin 2) * 32 + 32; omega
  | ⟨1, _⟩ => show win0_12.index ⟨(i 1).val / 2560, hlt⟩ (1 : Fin 2) * 2560 ≤ (i 1).val ∧ (i 1).val < win0_12.index ⟨(i 1).val / 2560, hlt⟩ (1 : Fin 2) * 2560 + 2560; omega

/-- The last point's block of the first head's window is its whole array. -/
theorem cover11 (i : S32x1000.Idx) :
    ∃ t : Fin cfg0.N, (cfg0.win 11).flush t = true ∧ i ∈ ((cfg0.win 11).blk t).view.set := by
  have hi0 : (i 0).val < 32 := (i 0).isLt
  have hi1 : (i 1).val < 1000 := (i 1).isLt
  obtain ⟨e0, e1⟩ := idx11 t24
  refine ⟨t24, flush11_on t24 rfl, ?_⟩
  rw [mem_blk11]
  intro a
  match a with
  | ⟨0, _⟩ => show win0_11.index t24 (0 : Fin 2) * 32 ≤ (i 0).val ∧ (i 0).val < win0_11.index t24 (0 : Fin 2) * 32 + 32; omega
  | ⟨1, _⟩ => show win0_11.index t24 (1 : Fin 2) * 1000 ≤ (i 1).val ∧ (i 1).val < win0_11.index t24 (1 : Fin 2) * 1000 + 1000; omega

/-- The streamed output's array ends at the uncut second head, -/
theorem final12 : (dats m 0 c).arrAt 12 cfg0.N = GR m c :=
  (dats m 0 c).arrAt_eq_of_cover 12 (GR m c) (fun t _ => flushed12_eq m c t) (cover12)
/-- and the first head's array at the first head. -/
theorem final11 : (dats m 0 c).arrAt 11 cfg0.N = GC m c :=
  (dats m 0 c).arrAt_eq_of_cover 11 (GC m c) (fun t _ => flushed11_eq m c t) (cover11)

/-! ## The host line after the region -/

/-- The re-laid result is the host line's re-laying of the streamed output's array as the region left it. -/
theorem after_v5 :
    (StableHlo.after hostOps1 (Wout m c) (Proc.devRef .tc main_v5) : S32x64x1000.Idx → EReal)
      = shapeCast S32x64x1000 (GR m c) shapeCasts_S32x64000_S32x64x1000 := by
  have e : (StableHlo.after hostOps1 (Wout m c) (Proc.devRef .tc main_v5) : S32x64x1000.Idx → EReal)
      = shapeCast S32x64x1000 (Wout m c (Proc.devRef .tc main_v4_1) : S32x64000.Idx → EReal) shapeCasts_S32x64000_S32x64x1000 := by
    dsimp only [hostOps1]; after_results; rfl
  rw [e, Wout_out, final12]

/-- Cutting the 64000 columns into 64 groups of 1000 moves nothing: the re-laid array is the second head. -/
theorem relaid_apply (i : S32x64x1000.Idx) :
    shapeCast S32x64x1000 (GR m c) shapeCasts_S32x64000_S32x64x1000 i
      = Cert.MlpSpec.recOut (aS m c) (aW1 m c) (ab1 m c) (aW2 m c) (ab2 m c) (aWr m c) (abr m c) i := by
  obtain ⟨b, v, f, rfl⟩ : ∃ (b : Fin 32) (v : Fin 64) (f : Fin 1000), i = ix3 b v f := ⟨i 0, i 1, i 2, eq_ix3 i⟩
  have hb : b.val < 32 := b.isLt
  have hv : v.val < 64 := v.isLt
  have hf : f.val < 1000 := f.isLt
  rw [Cert.MlpSpec.recOut_eq_recFlat]
  exact shapeCast_apply (GR m c) shapeCasts_S32x64000_S32x64x1000 (ix3 b v f) (ix2 b (Cert.MlpSpec.flatCol v f))
    (by rewrite [Shape.rowMajor_val_two, Shape.rowMajor_val_three]
        show b.val * 64000 + (1000 * v.val + f.val) = (b.val * 64 + v.val) * 1000 + f.val
        omega)

/-! ## The run, read -/

variable (ρ : Dev nD → PrngReg)

/-- THE KERNEL'S RUN AT THE EXACT VALUES: every weakly fair execution terminates with the first result at the first
    head and the second at the second head of the launched arrays, and the nine argument arrays unchanged. -/
theorem run : θ_run (defs (F := Ideal)) (onTc (τ := τ) (main (F := Ideal))) ⟨m, fun _ => 0, ρ⟩ (fun r => ∀ c : Dev nD,
      r.2.mem ((c.tc : Thread nD τ).loc main_v4_0) = Cert.MlpSpec.cacheOut (aS m c) (aW1 m c) (ab1 m c) (aW2 m c) (ab2 m c) (aWc m c) (abc m c)
      ∧ r.2.mem ((c.tc : Thread nD τ).loc main_v5) = Cert.MlpSpec.recOut (aS m c) (aW1 m c) (ab1 m c) (aW2 m c) (ab2 m c) (aWr m c) (abr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).1 11).trans (final11 m c),
      (((h c).2 main_v5 (mem_rest main_v5 (by decide) (by decide))).trans (after_v5 m c)).trans (funext fun i => relaid_apply m c i),
      kept_in m c r h 0 rfl main_arg0 rfl (by decide),
      kept_in m c r h 1 rfl main_arg1 rfl (by decide),
      kept_rest m c r h main_arg2 (by decide) (by decide) (by decide) (by decide) (by decide),
      kept_in m c r h 3 rfl main_arg3 rfl (by decide),
      kept_rest m c r h main_arg4 (by decide) (by decide) (by decide) (by decide) (by decide),
      kept_in m c r h 5 rfl main_arg5 rfl (by decide),
      kept_rest m c r h main_arg6 (by decide) (by decide) (by decide) (by decide) (by decide),
      kept_in m c r h 7 rfl main_arg7 rfl (by decide),
      kept_rest m c r h main_arg8 (by decide) (by decide) (by decide) (by decide) (by decide)⟩)
    (run_main m ρ)

end Cert.MlpValue

end
-- ==== Proof.MlpReference.lean ====
/-
  The reference program computes the perceptron of `Cert.MlpSpec`.

  Each layer of the reference transposes the weight matrix, contracts the activation's second coordinate
  with the transposed matrix's first, adds the bias spread along the batch, and takes the maximum with a
  spread zero. At an index, the transposed matrix at `(k, j)` is the stored matrix at `(j, k)`,
  and the spread bias at `(b, j)` is the bias at `j`; so every stage is, term for term and in the same order,
  the sum the specification writes. The second head is computed as a `32 × 64000` array and then cut into
  64 groups of 1000; entry `(b, v, f)` of the cut array is entry `(b, 1000 v + f)` of the uncut one.
-/
import proofs.«151329_g66365834658321_cont_9to1_m_1147_41_alg».proof.Proof.MlpSpec
import proofs.«151329_g66365834658321_cont_9to1_m_1147_41_alg».proof.Proof.Gen.ReferenceIdeal.Read

noncomputable section

namespace Cert.MlpReference

open Cert.ReferenceIdeal Cert.ReferenceIdeal.Read Cert.MlpSpec
open Idealize.ShloMosaic Idealize.ShloMosaic.ValueIdx
open scoped BigOperators

variable (x0 : (⟨S32x256, .f32⟩ : BufTy).Contents (Elt Ideal)) (x1 : (⟨S1024x256, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal))

/-- The reference's first rectified layer at `(b, j)` is `hid1`: the transposed `W1` at `(k, j)` is `W1 (j, k)`
    and the spread bias at `(b, j)` is `b1 j`. -/
theorem layer1 (b : Fin 32) (j : Fin 1024) :
    val_main_v5 (F := Ideal) x0 x1 x2 (ix2 b j) = hid1 x0 x1 x2 b j := by
  have el : ∀ k : Fin 256, lidx_main_v1 (ix2 b j) k = ix2 b k := fun k =>
    funext fun a => Fin.ext (by match a with | ⟨0, _⟩ => rfl | ⟨1, _⟩ => rfl)
  have er : ∀ k : Fin 256, idx_main_v0 (ridx_main_v1 (ix2 b j) k) = ix2 j k := fun k =>
    funext fun a => Fin.ext (by match a with | ⟨0, _⟩ => rfl | ⟨1, _⟩ => rfl)
  have eb : idx_main_v2 (idx_main_v3 (ix2 b j)) = ix1 j :=
    funext fun a => Fin.ext (by match a with | ⟨0, _⟩ => rfl)
  rw [val_main_v5_apply, val_main_v4_apply, val_main_v1_apply, val_main_v3_apply, val_main_v2_apply,
    val_main_call0_v0_apply, val_main_call0_cst_apply]
  simp only [val_main_v0_apply, el, er, eb, Ideal.addf_def, Ideal.maximumf_def, Ideal.ofBits_def]
  rfl

/-- The reference's second rectified layer at `(b, j)` is `hid2`: its left factor at `(b, k)` is the first layer
    at `(b, k)`, the transposed `W2` at `(k, j)` is `W2 (j, k)`, and the spread bias at `(b, j)` is `b2 j`. -/
theorem layer2 (b : Fin 32) (j : Fin 1024) :
    val_main_v11 (F := Ideal) x0 x1 x2 x3 x4 (ix2 b j) = hid2 x0 x1 x2 x3 x4 b j := by
  have el : ∀ k : Fin 1024, lidx_main_v7 (ix2 b j) k = ix2 b k := fun k =>
    funext fun a => Fin.ext (by match a with | ⟨0, _⟩ => rfl | ⟨1, _⟩ => rfl)
  have er : ∀ k : Fin 1024, idx_main_v6 (ridx_main_v7 (ix2 b j) k) = ix2 j k := fun k =>
    funext fun a => Fin.ext (by match a with | ⟨0, _⟩ => rfl | ⟨1, _⟩ => rfl)
  have eb : idx_main_v8 (idx_main_v9 (ix2 b j)) = ix1 j :=
    funext fun a => Fin.ext (by match a with | ⟨0, _⟩ => rfl)
  rw [val_main_v11_apply, val_main_v10_apply, val_main_v7_apply, val_main_v9_apply, val_main_v8_apply,
    val_main_call1_v0_apply, val_main_call1_cst_apply]
  simp only [val_main_v6_apply, el, er, eb, layer1, Ideal.addf_def, Ideal.maximumf_def, Ideal.ofBits_def]
  rfl

/-- The reference's first result is the first head of the specification. -/
theorem cache_eq (x5 : (⟨S1000x1024, .f32⟩ : BufTy).Contents (Elt Ideal)) (x6 : (⟨S1000, .f32⟩ : BufTy).Contents (Elt Ideal)) :
    val_main_v16 (F := Ideal) x0 x1 x2 x3 x4 x5 x6 = cacheOut x0 x1 x2 x3 x4 x5 x6 := by
  funext i
  obtain ⟨b, f, rfl⟩ : ∃ (b : Fin 32) (f : Fin 1000), i = ix2 b f := ⟨i 0, i 1, eq_ix2 i⟩
  have el : ∀ k : Fin 1024, lidx_main_v13 (ix2 b f) k = ix2 b k := fun k =>
    funext fun a => Fin.ext (by match a with | ⟨0, _⟩ => rfl | ⟨1, _⟩ => rfl)
  have er : ∀ k : Fin 1024, idx_main_v12 (ridx_main_v13 (ix2 b f) k) = ix2 f k := fun k =>
    funext fun a => Fin.ext (by match a with | ⟨0, _⟩ => rfl | ⟨1, _⟩ => rfl)
  have eb : idx_main_v14 (idx_main_v15 (ix2 b f)) = ix1 f :=
    funext fun a => Fin.ext (by match a with | ⟨0, _⟩ => rfl)
  rw [cacheOut_ix2, val_main_v16_apply, val_main_v13_apply, val_main_v15_apply, val_main_v14_apply]
  simp only [val_main_v12_apply, el, er, eb, layer2, Ideal.addf_def]

/-- The reference's second head before the cut, at `(b, c)`, is the uncut head of the specification. -/
theorem recFlat_eq (x7 : (⟨S64000x1024, .f32⟩ : BufTy).Contents (Elt Ideal)) (x8 : (⟨S64000, .f32⟩ : BufTy).Contents (Elt Ideal))
    (b : Fin 32) (c : Fin 64000) :
    val_main_v21 (F := Ideal) x0 x1 x2 x3 x4 x7 x8 (ix2 b c) = recFlat x0 x1 x2 x3 x4 x7 x8 (ix2 b c) := by
  have el : ∀ k : Fin 1024, lidx_main_v18 (ix2 b c) k = ix2 b k := fun k =>
    funext fun a => Fin.ext (by match a with | ⟨0, _⟩ => rfl | ⟨1, _⟩ => rfl)
  have er : ∀ k : Fin 1024, idx_main_v17 (ridx_main_v18 (ix2 b c) k) = ix2 c k := fun k =>
    funext fun a => Fin.ext (by match a with | ⟨0, _⟩ => rfl | ⟨1, _⟩ => rfl)
  have eb : idx_main_v19 (idx_main_v20 (ix2 b c)) = ix1 c :=
    funext fun a => Fin.ext (by match a with | ⟨0, _⟩ => rfl)
  rw [recFlat_ix2, val_main_v21_apply, val_main_v18_apply, val_main_v20_apply, val_main_v19_apply]
  simp only [val_main_v17_apply, el, er, eb, layer2, Ideal.addf_def]

/-- Entry `(b, v, f)` of the cut `32 × 64 × 1000` array sits at row-major position `(64 b + v) 1000 + f`, which in the
    `32 × 64000` array is row `b`, column `1000 v + f`. -/
theorem cut_idx (b : Fin 32) (v : Fin 64) (f : Fin 1000) :
    idx_main_v22 (ix3 b v f) = ix2 b (flatCol v f) := by
  have hb : b.val < 32 := b.isLt
  have hv : v.val < 64 := v.isLt
  have hf : f.val < 1000 := f.isLt
  funext a
  refine Fin.ext ?_
  match a with
  | ⟨0, _⟩ =>
    show ((b.val * 64 + v.val) * 1000 + f.val) / 64000 = b.val
    omega
  | ⟨1, _⟩ =>
    show ((b.val * 64 + v.val) * 1000 + f.val) % 64000 = 1000 * v.val + f.val
    omega

/-- The reference's second result is the second head of the specification. -/
theorem rec_eq (x7 : (⟨S64000x1024, .f32⟩ : BufTy).Contents (Elt Ideal)) (x8 : (⟨S64000, .f32⟩ : BufTy).Contents (Elt Ideal)) :
    val_main_v22 (F := Ideal) x0 x1 x2 x3 x4 x7 x8 = recOut x0 x1 x2 x3 x4 x7 x8 := by
  funext i
  obtain ⟨b, v, f, rfl⟩ : ∃ (b : Fin 32) (v : Fin 64) (f : Fin 1000), i = ix3 b v f := ⟨i 0, i 1, i 2, eq_ix3 i⟩
  rw [val_main_v22_apply, cut_idx, recFlat_eq, recOut_eq_recFlat]

end Cert.MlpReference

end
-- ==== Proof.lean ====
/-
  The MLP actor: a trunk of two rectified affine layers (256 → 1024 → 1024) and two linear heads (1000 outputs, and
  64000 outputs read as 64 groups of 1000), on a batch of 32 — the kernel against the plain formulas.

  The kernel walks the 64000 rows of the second head's weights in 25 blocks of 2560. At the first block it also
  computes the trunk and keeps the activations; at the second it also computes the first head from them; at the third
  it also multiplies them with the LAST block of weights (held from the start) and keeps the product; at each of the
  first 24 blocks it multiplies them with the block's two halves and adds the bias; at the last block it only adds the
  last block's bias to the kept product. Over the extended reals every one of these is the same sum of the same
  products in the same order as the formulas', so the two programs end with equal results, index by index, and no
  finiteness of the inputs is used. Neither program writes an argument array.

  The three frames are the runs with the results dropped (the kernel's run as printed and its run at the exact values
  are one argument, made once for any number type); the idealization rewrote no operation; the equality of the results
  is the kernel's run read at the exact values beside the reference's run, both at the specification's two functions.
-/
import proofs.«151329_g66365834658321_cont_9to1_m_1147_41_alg».proof.Defs
import proofs.«151329_g66365834658321_cont_9to1_m_1147_41_alg».proof.Proof.Gen.Kernel
import proofs.«151329_g66365834658321_cont_9to1_m_1147_41_alg».proof.Proof.Gen.KernelIdeal
import proofs.«151329_g66365834658321_cont_9to1_m_1147_41_alg».proof.Proof.Gen.ReferenceIdeal
import proofs.«151329_g66365834658321_cont_9to1_m_1147_41_alg».proof.Proof.Gen.Pre_finite_inputs
import proofs.«151329_g66365834658321_cont_9to1_m_1147_41_alg».proof.Proof.Gen.ReferenceIdeal.Run
import proofs.«151329_g66365834658321_cont_9to1_m_1147_41_alg».proof.Proof.Gen.ReferenceIdeal.Read
import proofs.«151329_g66365834658321_cont_9to1_m_1147_41_alg».proof.Proof.Kernel.GridFrame
import proofs.«151329_g66365834658321_cont_9to1_m_1147_41_alg».proof.Proof.KernelIdeal.GridFrame
import proofs.«151329_g66365834658321_cont_9to1_m_1147_41_alg».proof.Proof.MlpKernelValue
import proofs.«151329_g66365834658321_cont_9to1_m_1147_41_alg».proof.Proof.MlpReference
import Idealize.ShloMosaic.Adequacy
import Idealize.ShloMosaic.Init

noncomputable section

namespace Cert.Proof

open Idealize.ShloMosaic Idealize.SL.Sem

/-- The kernel as printed runs to the end and leaves its arguments as launched. -/
theorem frame_kernel : Cert.frame_Kernel := fun m ρ _ => Cert.Kernel.Mlp.frame m ρ

/-- So does the kernel at the exact values. -/
theorem frame_kernelIdeal : Cert.frame_KernelIdeal := fun m ρ _ => Cert.KernelIdeal.Mlp.frame m ρ

/-- The reference is a line of host operations: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- At the exact values both programs end with the first head and the second head of the argument arrays. -/
theorem algebraic : Cert.algebraic_KernelIdeal_ReferenceIdeal := by
  intro m ρ m' ρ' _ hagree
  refine ⟨fun c => Cert.MlpSpec.cacheOut (Cert.MlpValue.aS m c) (Cert.MlpValue.aW1 m c) (Cert.MlpValue.ab1 m c) (Cert.MlpValue.aW2 m c)
      (Cert.MlpValue.ab2 m c) (Cert.MlpValue.aWc m c) (Cert.MlpValue.abc m c),
    fun c => Cert.MlpSpec.recOut (Cert.MlpValue.aS m c) (Cert.MlpValue.aW1 m c) (Cert.MlpValue.ab1 m c) (Cert.MlpValue.aW2 m c)
      (Cert.MlpValue.ab2 m c) (Cert.MlpValue.aWr m c) (Cert.MlpValue.abr m c),
    Cert.MlpValue.run m ρ, ?_⟩
  refine (θ_run Cert.ReferenceIdeal.defs _ _).mono (fun _ h c => ?_) (Cert.ReferenceIdeal.Value.run (F := Ideal) m' ρ')
  obtain ⟨a0, a1, a2, a3, a4, a5, a6, a7, a8⟩ := hagree c
  obtain ⟨r16, r22, rest⟩ := h c
  refine ⟨?_, ?_, rest⟩
  · rw [r16, Cert.ReferenceIdeal.Read.val_main_v16_eq, Cert.MlpReference.cache_eq, a0, a1, a2, a3, a4, a5, a6]
  · rw [r22, Cert.ReferenceIdeal.Read.val_main_v22_eq, Cert.MlpReference.rec_eq, a0, a1, a2, a3, a4, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
